-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x512 : Shape := ⟨4, ![4, 64, 64, 512]⟩
abbrev S512 : Shape := ⟨1, ![512]⟩
abbrev S512x512 : Shape := ⟨2, ![512, 512]⟩
abbrev S_ : Shape := ⟨0, ![]⟩

class Facts : Prop where
  bcast_S_S4x64x64x512 : S_.BroadcastsInDim S4x64x64x512 (![] : Fin 0 → Fin S4x64x64x512.rank)
  reducesTo_S4x64x64x512_S_d0_1_2_3 : S4x64x64x512.ReducesTo [0, 1, 2, 3] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x64x64x512 .f32) (main_arg1 : FVec F S512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S4x64x64x512 .f32 := Host.absf main_arg0
  let main_cst : FVec F S_ .f32 := constant S_ .f32 0x7F800000#32
  let main_v1 : FVec F S4x64x64x512 .f32 := broadcastInDim S4x64x64x512 ![] bcast_S_S4x64x64x512 main_cst
  let main_v2 : IVec S4x64x64x512 1 := cmpf .olt main_v0 main_v1
  let main_c : IVec S_ 1 := constantI S_ 1 1#1
  let main_v3 : IVec S_ 1 := (fun x v => Host.reduce IntOp.andi x v reducesTo_S4x64x64x512_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S4x64x64x512 : Shape := ⟨4, ![4, 64, 64, 512]⟩
abbrev S512 : Shape := ⟨1, ![512]⟩
abbrev S512x512 : Shape := ⟨2, ![512, 512]⟩
abbrev S4x64x64x32x16 : Shape := ⟨5, ![4, 64, 64, 32, 16]⟩
abbrev S_ : Shape := ⟨0, ![]⟩
abbrev S4x32 : Shape := ⟨2, ![4, 32]⟩
abbrev S4x1x1x32x1 : Shape := ⟨5, ![4, 1, 1, 32, 1]⟩
abbrev S4x32x16 : Shape := ⟨3, ![4, 32, 16]⟩
abbrev S4x512 : Shape := ⟨2, ![4, 512]⟩
abbrev S1x512 : Shape := ⟨2, ![1, 512]⟩
abbrev S4x1x512 : Shape := ⟨3, ![4, 1, 512]⟩
abbrev S4x4096x512 : Shape := ⟨3, ![4, 4096, 512]⟩
abbrev S512x1536 : Shape := ⟨2, ![512, 1536]⟩
abbrev S1536 : Shape := ⟨1, ![1536]⟩
abbrev S1x1536 : Shape := ⟨2, ![1, 1536]⟩
abbrev S1x1024x512 : Shape := ⟨3, ![1, 1024, 512]⟩
abbrev S1x1x512 : Shape := ⟨3, ![1, 1, 512]⟩
abbrev S1024x512 : Shape := ⟨2, ![1024, 512]⟩
abbrev S1024x1536 : Shape := ⟨2, ![1024, 1536]⟩
abbrev S1x256x512 : Shape := ⟨3, ![1, 256, 512]⟩
abbrev S1x4096x512 : Shape := ⟨3, ![1, 4096, 512]⟩
abbrev S256x512 : Shape := ⟨2, ![256, 512]⟩
abbrev S4096x512 : Shape := ⟨2, ![4096, 512]⟩
abbrev S256x4096 : Shape := ⟨2, ![256, 4096]⟩
abbrev S256 : Shape := ⟨1, ![256]⟩
abbrev S256x1 : Shape := ⟨2, ![256, 1]⟩

abbrev nBuf : Space → Nat
  | .hbm => 69
  | .vmem => 26
  | .smem => 0
  | _ => 0

abbrev bufTy : (tb : Table) → Fin (tcTables nBuf tb) → BufTy
  | .hbm, ⟨0, _⟩ => ⟨S4x64x64x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4x64x64x32x16, .f32⟩
  | .hbm, ⟨12, _⟩ => ⟨S_, .f32⟩
  | .hbm, ⟨13, _⟩ => ⟨S4x32, .f32⟩
  | .hbm, ⟨14, _⟩ => ⟨S_, .f32⟩
  | .hbm, ⟨15, _⟩ => ⟨S4x32, .f32⟩
  | .hbm, ⟨16, _⟩ => ⟨S4x32, .f32⟩
  | .hbm, ⟨17, _⟩ => ⟨S_, .i32⟩
  | .hbm, ⟨18, _⟩ => ⟨S_, .f32⟩
  | .hbm, ⟨19, _⟩ => ⟨S4x32, .f32⟩
  | .hbm, ⟨20, _⟩ => ⟨S4x1x1x32x1, .f32⟩
  | .hbm, ⟨21, _⟩ => ⟨S_, .f32⟩
  | .hbm, ⟨22, _⟩ => ⟨S4x1x1x32x1, .f32⟩
  | .hbm, ⟨23, _⟩ => ⟨S4x1x1x32x1, .f32⟩
  | .hbm, ⟨24, _⟩ => ⟨S4x64x64x32x16, .f32⟩
  | .hbm, ⟨25, _⟩ => ⟨S4x64x64x32x16, .f32⟩
  | .hbm, ⟨26, _⟩ => ⟨S4x64x64x32x16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S4x32, .f32⟩
  | .hbm, ⟨39, _⟩ => ⟨S4x32, .f32⟩
  | .hbm, ⟨40, _⟩ => ⟨S_, .f32⟩
  | .hbm, ⟨41, _⟩ => ⟨S4x32, .f32⟩
  | .hbm, ⟨42, _⟩ => ⟨S4x32, .f32⟩
  | .hbm, ⟨43, _⟩ => ⟨S4x32, .f32⟩
  | .hbm, ⟨44, _⟩ => ⟨S4x32x16, .f32⟩
  | .hbm, ⟨45, _⟩ => ⟨S4x512, .f32⟩
  | .hbm, ⟨46, _⟩ => ⟨S4x32x16, .f32⟩
  | .hbm, ⟨47, _⟩ => ⟨S4x512, .f32⟩
  | .hbm, ⟨48, _⟩ => ⟨S1x512, .f32⟩
  | .hbm, ⟨49, _⟩ => ⟨S4x512, .f32⟩
  | .hbm, ⟨50, _⟩ => ⟨S4x512, .f32⟩
  | .hbm, ⟨51, _⟩ => ⟨S1x512, .f32⟩
  | .hbm, ⟨52, _⟩ => ⟨S4x512, .f32⟩
  | .hbm, ⟨53, _⟩ => ⟨S4x512, .f32⟩
  | .hbm, ⟨54, _⟩ => ⟨S4x512, .f32⟩
  | .hbm, ⟨55, _⟩ => ⟨S4x1x512, .f32⟩
  | .hbm, ⟨56, _⟩ => ⟨S4x1x512, .f32⟩
  | .hbm, ⟨57, _⟩ => ⟨S4x4096x512, .f32⟩
  | .hbm, ⟨58, _⟩ => ⟨S512x1536, .f32⟩
  | .hbm, ⟨59, _⟩ => ⟨S1536, .f32⟩
  | .hbm, ⟨60, _⟩ => ⟨S512x1536, .bf16⟩
  | .hbm, ⟨61, _⟩ => ⟨S1x1536, .f32⟩
  | .hbm, ⟨62, _⟩ => ⟨S4x4096x512, .bf16⟩
  | .hbm, ⟨63, _⟩ => ⟨S4x4096x512, .bf16⟩
  | .hbm, ⟨64, _⟩ => ⟨S4x4096x512, .bf16⟩
  | .hbm, ⟨65, _⟩ => ⟨S512x512, .bf16⟩
  | .hbm, ⟨66, _⟩ => ⟨S1x512, .f32⟩
  | .hbm, ⟨67, _⟩ => ⟨S4x4096x512, .f32⟩
  | .hbm, ⟨68, _⟩ => ⟨S4x64x64x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S512x1536, .bf16⟩
  | .local _ .vmem, ⟨7, _⟩ => ⟨S1x1536, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x4096x512, .bf16⟩
  | .local _ .vmem, ⟨17, _⟩ => ⟨S1x4096x512, .bf16⟩
  | .local _ .vmem, ⟨18, _⟩ => ⟨S1x4096x512, .bf16⟩
  | .local _ .vmem, ⟨19, _⟩ => ⟨S1x4096x512, .bf16⟩
  | .local _ .vmem, ⟨20, _⟩ => ⟨S512x512, .bf16⟩
  | .local _ .vmem, ⟨21, _⟩ => ⟨S1x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | _, _ => ⟨S4x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26_0 : Ref sig .tc := ⟨.hbm, 62, rfl⟩
abbrev main_v26_1 : Ref sig .tc := ⟨.hbm, 63, rfl⟩
abbrev main_v26_2 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S4x64x64x512_S4x64x64x32x16 : S4x64x64x512.ShapeCasts S4x64x64x32x16
  reducesTo_S4x64x64x32x16_S4x32_d1_2_4 : S4x64x64x32x16.ReducesTo [1, 2, 4] S4x32
  h_S_ : 0 < S_.numel
  bcast_S_S4x32 : S_.BroadcastsInDim S4x32 (![] : Fin 0 → Fin S4x32.rank)
  bcast_S4x32_S4x1x1x32x1_0_3 : S4x32.BroadcastsInDim S4x1x1x32x1 (![0, 3] : Fin 2 → Fin S4x1x1x32x1.rank)
  bcast_S_S4x1x1x32x1 : S_.BroadcastsInDim S4x1x1x32x1 (![] : Fin 0 → Fin S4x1x1x32x1.rank)
  bcast_S4x1x1x32x1_S4x64x64x32x16_0_1_2_3_4 : S4x1x1x32x1.BroadcastsInDim S4x64x64x32x16 (![0, 1, 2, 3, 4] : Fin 5 → Fin S4x64x64x32x16.rank)
  bcast_S4x32_S4x32x16_0_1 : S4x32.BroadcastsInDim S4x32x16 (![0, 1] : Fin 2 → Fin S4x32x16.rank)
  shapeCasts_S4x32x16_S4x512 : S4x32x16.ShapeCasts S4x512
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  shapeCasts_S4x512_S4x1x512 : S4x512.ShapeCasts S4x1x512
  shapeCasts_S4x64x64x512_S4x4096x512 : S4x64x64x512.ShapeCasts S4x4096x512
  concatenates_S512x512_S512x512_S512x512_S512x1536_d1 : Shape.Concatenates [S512x512, S512x512, S512x512] S512x1536 1
  concatenates_S512_S512_S512_S1536_d0 : Shape.Concatenates [S512, S512, S512] S1536 0
  bitsLt_bf16_f32 : FTy.bits .bf16 < FTy.bits .f32
  shapeCasts_S1536_S1x1536 : S1536.ShapeCasts S1x1536
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  slices_S1024x1536_o0_512_S1024x512 : S1024x1536.Slices ![0, 512] S1024x512
  slices_S1024x1536_o0_1024_S1024x512 : S1024x1536.Slices ![0, 1024] S1024x512
  shapeCasts_S512_S1x512 : S512.ShapeCasts S1x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  reduces_S256x4096_S256 : S256x4096.Reduces [1] S256
  shapeCasts_S256_S256x1 : S256.ShapeCasts S256x1
  broadcasts_S256x1_S256x4096 : S256x1.Broadcasts S256x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S256x512_S1x256x512 : S256x512.ShapeCasts S1x256x512
  shapeCasts_S4x4096x512_S4x64x64x512 : S4x4096x512.ShapeCasts S4x64x64x512
  dot_S1024x512_S512x1536_S1024x1536_1_0_0_1_n_n_wf : DotDims.WF S1024x512 S512x1536 S1024x1536 [1] [0] [0] [1] [] []
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x4096x512.size a
  hwx0_0 : ∀ i : grid0.Coords, EltTy.bits .f32 = 32 ∨ (Rect.block (s := S4x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S4x1x512.size a
  hwx0_1 : ∀ i : grid0.Coords, EltTy.bits .f32 = 32 ∨ (Rect.block (s := S4x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x512.size a
  hwx0_2 : ∀ i : grid0.Coords, EltTy.bits .f32 = 32 ∨ (Rect.block (s := S4x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S4x4096x512.size a
  hwx0_5 : ∀ i : grid0.Coords, EltTy.bits .bf16 = 32 ∨ (Rect.block (s := S4x4096x512) S1x1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S4x4096x512.size a
  hwx0_6 : ∀ i : grid0.Coords, EltTy.bits .bf16 = 32 ∨ (Rect.block (s := S4x4096x512) S1x1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S4x4096x512.size a
  hwx0_7 : ∀ i : grid0.Coords, EltTy.bits .bf16 = 32 ∨ (Rect.block (s := S4x4096x512) S1x1024x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S4x4096x512.size a
  hwx1_0 : ∀ i : grid1.Coords, EltTy.bits .bf16 = 32 ∨ (Rect.block (s := S4x4096x512) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x512.size a ≤ S4x4096x512.size a
  hwx1_1 : ∀ i : grid1.Coords, EltTy.bits .bf16 = 32 ∨ (Rect.block (s := S4x4096x512) S1x4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x512.size a ≤ S4x4096x512.size a
  hwx1_2 : ∀ i : grid1.Coords, EltTy.bits .bf16 = 32 ∨ (Rect.block (s := S4x4096x512) S1x4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x512.size a ≤ S4x4096x512.size a
  hwx1_5 : ∀ i : grid1.Coords, EltTy.bits .f32 = 32 ∨ (Rect.block (s := S4x4096x512) S1x256x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x512.size a ≤ S4x4096x512.size a
  hwx1_6 : ∀ i : grid1.Coords, EltTy.bits .f32 = 32 ∨ (Rect.block (s := S4x4096x512) S1x256x512.size (cc1_transform_6 i) (hinb1_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v21) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S1x1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_1) S1x4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_2) S1x4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x256x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x256x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x64x64x512 : Shape := ⟨4, ![4, 64, 64, 512]⟩
abbrev S512 : Shape := ⟨1, ![512]⟩
abbrev S512x512 : Shape := ⟨2, ![512, 512]⟩
abbrev S4x64x64x32x16 : Shape := ⟨5, ![4, 64, 64, 32, 16]⟩
abbrev S_ : Shape := ⟨0, ![]⟩
abbrev S4x32 : Shape := ⟨2, ![4, 32]⟩
abbrev S4x1x1x32x1 : Shape := ⟨5, ![4, 1, 1, 32, 1]⟩
abbrev S1x1x1x512 : Shape := ⟨4, ![1, 1, 1, 512]⟩
abbrev S4x4096x512 : Shape := ⟨3, ![4, 4096, 512]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S4x64x64x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4x64x64x32x16, .f32⟩
  | .hbm, ⟨12, _⟩ => ⟨S_, .f32⟩
  | .hbm, ⟨13, _⟩ => ⟨S4x32, .f32⟩
  | .hbm, ⟨14, _⟩ => ⟨S4x1x1x32x1, .f32⟩
  | .hbm, ⟨15, _⟩ => ⟨S_, .f32⟩
  | .hbm, ⟨16, _⟩ => ⟨S4x1x1x32x1, .f32⟩
  | .hbm, ⟨17, _⟩ => ⟨S4x1x1x32x1, .f32⟩
  | .hbm, ⟨18, _⟩ => ⟨S_, .i32⟩
  | .hbm, ⟨19, _⟩ => ⟨S_, .f32⟩
  | .hbm, ⟨20, _⟩ => ⟨S4x32, .f32⟩
  | .hbm, ⟨21, _⟩ => ⟨S4x1x1x32x1, .f32⟩
  | .hbm, ⟨22, _⟩ => ⟨S_, .f32⟩
  | .hbm, ⟨23, _⟩ => ⟨S4x1x1x32x1, .f32⟩
  | .hbm, ⟨24, _⟩ => ⟨S4x1x1x32x1, .f32⟩
  | .hbm, ⟨25, _⟩ => ⟨S4x64x64x32x16, .f32⟩
  | .hbm, ⟨26, _⟩ => ⟨S4x64x64x32x16, .f32⟩
  | .hbm, ⟨27, _⟩ => ⟨S4x64x64x32x16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x32, .f32⟩
  | .hbm, ⟨33, _⟩ => ⟨S4x1x1x32x1, .f32⟩
  | .hbm, ⟨34, _⟩ => ⟨S4x1x1x32x1, .f32⟩
  | .hbm, ⟨35, _⟩ => ⟨S4x1x1x32x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S4x1x1x32x1, .f32⟩
  | .hbm, ⟨41, _⟩ => ⟨S4x1x1x32x1, .f32⟩
  | .hbm, ⟨42, _⟩ => ⟨S4x64x64x32x16, .f32⟩
  | .hbm, ⟨43, _⟩ => ⟨S4x64x64x32x16, .f32⟩
  | .hbm, ⟨44, _⟩ => ⟨S_, .f32⟩
  | .hbm, ⟨45, _⟩ => ⟨S4x1x1x32x1, .f32⟩
  | .hbm, ⟨46, _⟩ => ⟨S4x1x1x32x1, .f32⟩
  | .hbm, ⟨47, _⟩ => ⟨S4x1x1x32x1, .f32⟩
  | .hbm, ⟨48, _⟩ => ⟨S4x64x64x32x16, .f32⟩
  | .hbm, ⟨49, _⟩ => ⟨S4x64x64x32x16, .f32⟩
  | .hbm, ⟨50, _⟩ => ⟨S4x64x64x512, .f32⟩
  | .hbm, ⟨51, _⟩ => ⟨S1x1x1x512, .f32⟩
  | .hbm, ⟨52, _⟩ => ⟨S4x64x64x512, .f32⟩
  | .hbm, ⟨53, _⟩ => ⟨S4x64x64x512, .f32⟩
  | .hbm, ⟨54, _⟩ => ⟨S1x1x1x512, .f32⟩
  | .hbm, ⟨55, _⟩ => ⟨S4x64x64x512, .f32⟩
  | .hbm, ⟨56, _⟩ => ⟨S4x64x64x512, .f32⟩
  | .hbm, ⟨57, _⟩ => ⟨S4x64x64x512, .f32⟩
  | .hbm, ⟨58, _⟩ => ⟨S1x1x1x512, .f32⟩
  | .hbm, ⟨59, _⟩ => ⟨S4x64x64x512, .f32⟩
  | .hbm, ⟨60, _⟩ => ⟨S4x64x64x512, .f32⟩
  | .hbm, ⟨61, _⟩ => ⟨S4x4096x512, .f32⟩
  | .hbm, ⟨62, _⟩ => ⟨S4x64x64x512, .f32⟩
  | .hbm, ⟨63, _⟩ => ⟨S1x1x1x512, .f32⟩
  | .hbm, ⟨64, _⟩ => ⟨S4x64x64x512, .f32⟩
  | .hbm, ⟨65, _⟩ => ⟨S4x64x64x512, .f32⟩
  | .hbm, ⟨66, _⟩ => ⟨S4x4096x512, .f32⟩
  | .hbm, ⟨67, _⟩ => ⟨S4x64x64x512, .f32⟩
  | .hbm, ⟨68, _⟩ => ⟨S1x1x1x512, .f32⟩
  | .hbm, ⟨69, _⟩ => ⟨S4x64x64x512, .f32⟩
  | .hbm, ⟨70, _⟩ => ⟨S4x64x64x512, .f32⟩
  | .hbm, ⟨71, _⟩ => ⟨S4x4096x512, .f32⟩
  | .hbm, ⟨72, _⟩ => ⟨S4x4096x4096, .f32⟩
  | .hbm, ⟨73, _⟩ => ⟨S_, .f32⟩
  | .hbm, ⟨74, _⟩ => ⟨S4x4096x4096, .f32⟩
  | .hbm, ⟨75, _⟩ => ⟨S4x4096x4096, .f32⟩
  | .hbm, ⟨76, _⟩ => ⟨S_, .f32⟩
  | .hbm, ⟨77, _⟩ => ⟨S4x4096, .f32⟩
  | .hbm, ⟨78, _⟩ => ⟨S_, .f32⟩
  | .hbm, ⟨79, _⟩ => ⟨S4x4096, .f32⟩
  | .hbm, ⟨80, _⟩ => ⟨S4x4096, .f32⟩
  | .hbm, ⟨81, _⟩ => ⟨S4x4096x1, .f32⟩
  | .hbm, ⟨82, _⟩ => ⟨S4x4096x4096, .f32⟩
  | .hbm, ⟨83, _⟩ => ⟨S4x4096x4096, .f32⟩
  | .hbm, ⟨84, _⟩ => ⟨S4x4096x4096, .f32⟩
  | .hbm, ⟨85, _⟩ => ⟨S_, .f32⟩
  | .hbm, ⟨86, _⟩ => ⟨S4x4096, .f32⟩
  | .hbm, ⟨87, _⟩ => ⟨S4x4096x1, .f32⟩
  | .hbm, ⟨88, _⟩ => ⟨S4x4096x4096, .f32⟩
  | .hbm, ⟨89, _⟩ => ⟨S4x4096x4096, .f32⟩
  | .hbm, ⟨90, _⟩ => ⟨S4x4096x512, .f32⟩
  | .hbm, ⟨91, _⟩ => ⟨S4x64x64x512, .f32⟩
  | .hbm, ⟨92, _⟩ => ⟨S4x64x64x512, .f32⟩
  | .hbm, ⟨93, _⟩ => ⟨S1x1x1x512, .f32⟩
  | .hbm, ⟨94, _⟩ => ⟨S4x64x64x512, .f32⟩
  | .hbm, ⟨95, _⟩ => ⟨S4x64x64x512, .f32⟩
  | .hbm, ⟨96, _⟩ => ⟨S4x64x64x512, .f32⟩
  | _, _ => ⟨S4x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_2 : Ref sig .tc := ⟨.hbm, 73, rfl⟩
abbrev main_v36 : Ref sig .tc := ⟨.hbm, 74, rfl⟩
abbrev main_v37 : Ref sig .tc := ⟨.hbm, 75, rfl⟩
abbrev main_cst_3 : Ref sig .tc := ⟨.hbm, 76, rfl⟩
abbrev main_v38 : Ref sig .tc := ⟨.hbm, 77, rfl⟩
abbrev main_cst_4 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_5 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩

abbrev nD : Nat := 1
abbrev τ : Topo := Topo.v7x

variable {F : FTy → Type} [FloatOps F]

class Facts₀ : Prop where
  shapeCasts_S4x64x64x512_S4x64x64x32x16 : S4x64x64x512.ShapeCasts S4x64x64x32x16
  reducesTo_S4x64x64x32x16_S4x32_d1_2_4 : S4x64x64x32x16.ReducesTo [1, 2, 4] S4x32
  h_S_ : 0 < S_.numel
  bcast_S4x32_S4x1x1x32x1_0_3 : S4x32.BroadcastsInDim S4x1x1x32x1 (![0, 3] : Fin 2 → Fin S4x1x1x32x1.rank)
  bcast_S_S4x1x1x32x1 : S_.BroadcastsInDim S4x1x1x32x1 (![] : Fin 0 → Fin S4x1x1x32x1.rank)
  bcast_S4x1x1x32x1_S4x64x64x32x16_0_1_2_3_4 : S4x1x1x32x1.BroadcastsInDim S4x64x64x32x16 (![0, 1, 2, 3, 4] : Fin 5 → Fin S4x64x64x32x16.rank)
  shapeCasts_S4x64x64x32x16_S4x64x64x512 : S4x64x64x32x16.ShapeCasts S4x64x64x512
  bcast_S512_S1x1x1x512_3 : S512.BroadcastsInDim S1x1x1x512 (![3] : Fin 1 → Fin S1x1x1x512.rank)
  bcast_S1x1x1x512_S4x64x64x512_0_1_2_3 : S1x1x1x512.BroadcastsInDim S4x64x64x512 (![0, 1, 2, 3] : Fin 4 → Fin S4x64x64x512.rank)
  shapeCasts_S4x64x64x512_S4x4096x512 : S4x64x64x512.ShapeCasts S4x4096x512
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x4096x512_S4x64x64x512 : S4x4096x512.ShapeCasts S4x64x64x512
  dot_S4x64x64x512_S512x512_S4x64x64x512_3_0_012_1_n_n_wf : DotDims.WF S4x64x64x512 S512x512 S4x64x64x512 [3] [0] [0, 1, 2] [1] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x64x64x512_S512x512_S4x64x64x512_3_0_012_1_n_n : DotDims S4x64x64x512 S512x512 S4x64x64x512 where
  lhsContracting := [3]
  rhsContracting := [0]
  lhsNonContracting := [0, 1, 2]
  rhsNonContracting := [1]
  lhsBatch := []
  rhsBatch := []
  wf := dot_S4x64x64x512_S512x512_S4x64x64x512_3_0_012_1_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.FrameK.lean ====
/-
  The run of the program's @main, region by region: three stretches of host operations, the first kernel region (the folded
  group-norm affine and the fused q / k / v matmul over 4 x 4 blocks of 1024 tokens), a stretch of host operations, the
  second kernel region (attention over 4 x 16 blocks of 256 query tokens, the output projection and the residual), and a
  last reshape.  Each region's body runs at every grid point from buffers holding the input windows' blocks and leaves
  each output buffer at its one whole store; the contents of every unscoped buffer are followed from the launch to the
  return as a fold through the segments, and the final memory is read against the last of them.
-/
import proofs.«147553_j25795573579973_2_alg».proof.Proof.Gen.Kernel.Launch
import proofs.«147553_j25795573579973_2_alg».proof.Proof.Gen.Kernel.Skeleton
import proofs.«147553_j25795573579973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the windows' blocks, the body's stores, the body's triple, the proof data, the body obligation -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x1024x512 := Rect.unit (s := S1x1024x512) ![0, 0, 0] S1x1024x512.size inb_S1x1024x512_S1x1024x512_0_0_0
abbrev r0_1 : Rect S1x1x512 := Rect.unit (s := S1x1x512) ![0, 0, 0] S1x1x512.size inb_S1x1x512_S1x1x512_0_0_0
abbrev r0_3 : Rect S512x1536 := Rect.unit (s := S512x1536) ![0, 0] S512x1536.size inb_S512x1536_S512x1536_0_0
abbrev r0_4 : Rect S1x1536 := Rect.unit (s := S1x1536) ![0, 0] S1x1536.size inb_S1x1536_S1x1536_0_0

/-- Output window 5's staging buffer after the body: its one whole store over the body's value of the input blocks. -/
def out0_5 (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨r0_0, k0_pay2 (View.ld x0 r0_0) (View.ld x1 r0_1) (View.ld x2 r0_1) (View.ld x3 r0_3) (View.ld x4 r0_4)⟩]

/-- The one store covers the buffer. -/
theorem cover0_5 (p0 : Vec F S1x1024x512 .bf16) (y : S1x1024x512.Idx) :
    ∃ pc ∈ ([⟨r0_0, p0⟩] : List (View.Piece (Elt F) S1x1024x512 .bf16)), y ∈ pc.1.set :=
  View.cover_of_tiled [⟨r0_0, p0⟩] S1x1024x512.size (by rfl) y

/-- Output window 6's staging buffer after the body: its one whole store over the body's value of the input blocks. -/
def out0_6 (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨r0_0, k0_pay3 (View.ld x0 r0_0) (View.ld x1 r0_1) (View.ld x2 r0_1) (View.ld x3 r0_3) (View.ld x4 r0_4)⟩]

/-- The one store covers the buffer. -/
theorem cover0_6 (p0 : Vec F S1x1024x512 .bf16) (y : S1x1024x512.Idx) :
    ∃ pc ∈ ([⟨r0_0, p0⟩] : List (View.Piece (Elt F) S1x1024x512 .bf16)), y ∈ pc.1.set :=
  View.cover_of_tiled [⟨r0_0, p0⟩] S1x1024x512.size (by rfl) y

/-- Output window 7's staging buffer after the body: its one whole store over the body's value of the input blocks. -/
def out0_7 (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨r0_0, k0_pay4 (View.ld x0 r0_0) (View.ld x1 r0_1) (View.ld x2 r0_1) (View.ld x3 r0_3) (View.ld x4 r0_4)⟩]

/-- The one store covers the buffer. -/
theorem cover0_7 (p0 : Vec F S1x1024x512 .bf16) (y : S1x1024x512.Idx) :
    ∃ pc ∈ ([⟨r0_0, p0⟩] : List (View.Piece (Elt F) S1x1024x512 .bf16)), y ∈ pc.1.set :=
  View.cover_of_tiled [⟨r0_0, p0⟩] S1x1024x512.size (by rfl) y

set_option maxHeartbeats 4000000 in
/-- The kernel body on whole staging buffers, the inputs' at given contents and the outputs' at anything, runs to the
    continuation holding the inputs' as they were and each output's at its one store's value. -/
theorem sound_kernel0 (c : Dev nD) (E : Set ℕ) (i : grid0.Coords) (arg0 : Memref sig .tc .vmem S1x1024x512 .f32) (harg0 : arg0.IsWhole) (arg1 : Memref sig .tc .vmem S1x1x512 .f32) (harg1 : arg1.IsWhole) (arg2 : Memref sig .tc .vmem S1x1x512 .f32) (harg2 : arg2.IsWhole) (arg3 : Memref sig .tc .vmem S512x1536 .bf16) (harg3 : arg3.IsWhole) (arg4 : Memref sig .tc .vmem S1x1536 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x1024x512 .bf16) (harg7 : arg7.IsWhole)
    (x0 : Vec F S1x1024x512 .f32) (x1 : Vec F S1x1x512 .f32) (x2 : Vec F S1x1x512 .f32) (x3 : Vec F S512x1536 .bf16) (x4 : Vec F S1x1536 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4) ∗ owns (c : Thread nD τ) arg6 fullShare (out0_6 x0 x1 x2 x3 x4) ∗ owns (c : Thread nD τ) arg7 fullShare (out0_7 x0 x1 x2 x3 x4)) -∗ K ⟨⟩))
      ⊢ wp frame (wpE (defs₀ (F := F)) Variants.none c none) E (cc0__qkv_kernel i arg0 harg0 arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-- The proof data of pipeline 0 on core c: the arrays as the region finds them; after the body at point t each
    input's buffer at its block and each output's at the body's value of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' buffers hold their blocks, so the triple applies; the invariant and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the windows' blocks, the body's stores, the body's triple, the proof data, the body obligation -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x256x512 := Rect.unit (s := S1x256x512) ![0, 0, 0] S1x256x512.size inb_S1x256x512_S1x256x512_0_0_0
abbrev r1_1 : Rect S1x4096x512 := Rect.unit (s := S1x4096x512) ![0, 0, 0] S1x4096x512.size inb_S1x4096x512_S1x4096x512_0_0_0
abbrev r1_3 : Rect S512x512 := Rect.unit (s := S512x512) ![0, 0] S512x512.size inb_S512x512_S512x512_0_0
abbrev r1_4 : Rect S1x512 := Rect.unit (s := S1x512) ![0, 0] S1x512.size inb_S1x512_S1x512_0_0

/-- Output window 6's staging buffer after the body: its one whole store over the body's value of the input blocks. -/
def out1_6 (x0 : Vec F S1x256x512 .bf16) (x1 : Vec F S1x4096x512 .bf16) (x2 : Vec F S1x4096x512 .bf16) (x3 : Vec F S512x512 .bf16) (x4 : Vec F S1x512 .f32) (x5 : Vec F S1x256x512 .f32) : Vec F S1x256x512 .f32 :=
  View.canon [⟨r1_0, k1_pay1 (k1_pay2 (View.ld x0 r1_0) (View.ld x1 r1_1) (View.ld x2 r1_1) (View.ld x3 r1_3) (View.ld x4 r1_4) (View.ld x5 r1_0))⟩]

/-- The one store covers the buffer. -/
theorem cover1_6 (p0 : Vec F S1x256x512 .f32) (y : S1x256x512.Idx) :
    ∃ pc ∈ ([⟨r1_0, p0⟩] : List (View.Piece (Elt F) S1x256x512 .f32)), y ∈ pc.1.set :=
  View.cover_of_tiled [⟨r1_0, p0⟩] S1x256x512.size (by rfl) y

set_option maxHeartbeats 4000000 in
/-- The kernel body on whole staging buffers, the inputs' at given contents and the outputs' at anything, runs to the
    continuation holding the inputs' as they were and each output's at its one store's value. -/
theorem sound_kernel1 (c : Dev nD) (E : Set ℕ) (i : grid1.Coords) (arg0 : Memref sig .tc .vmem S1x256x512 .bf16) (harg0 : arg0.IsWhole) (arg1 : Memref sig .tc .vmem S1x4096x512 .bf16) (harg1 : arg1.IsWhole) (arg2 : Memref sig .tc .vmem S1x4096x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x256x512 .f32) (harg5 : arg5.IsWhole) (arg6 : Memref sig .tc .vmem S1x256x512 .f32) (harg6 : arg6.IsWhole)
    (x0 : Vec F S1x256x512 .bf16) (x1 : Vec F S1x4096x512 .bf16) (x2 : Vec F S1x4096x512 .bf16) (x3 : Vec F S512x512 .bf16) (x4 : Vec F S1x512 .f32) (x5 : Vec F S1x256x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__attn_kernel i arg0 harg0 arg1 harg1 arg2 harg2 arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The proof data of pipeline 1 on core c: the arrays as the region finds them; after the body at point t each
    input's buffer at its block and each output's at the body's value of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' buffers hold their blocks, so the triple applies; the invariant and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
abbrev W7 : Dev nD → Valuation τ sig (Elt F) := fun c => StableHlo.after hostOps2 (W6 m ρ c)

/-! # The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at the contents before it, left at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last stretch as a segment whose exit is the final thread state. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and the final
    memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Hand

end
-- ==== Proof.KRunK.lean ====
/-
  What the run leaves in the argument arrays: no host operation writes an argument and no kernel region stages one, so
  the contents followed through the segments at an argument's buffer are the launch contents; with the run this is the
  frame claim: every weakly fair execution terminates without a fault and the arguments end unchanged.
-/
import proofs.«147553_j25795573579973_2_alg».proof.Proof.FrameK
import proofs.«147553_j25795573579973_2_alg».proof.Proof.Gen.Kernel.Regions

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no stretch of host operations writes and no region stages holds its launch contents at the end. -/
theorem W7_of (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : ∀ w, Pipeline.arrRef spec0 w ≠ r) (h4 : r ∉ (hostOps1_W : List (Ref sig .tc)))
    (h5 : ∀ w, Pipeline.arrRef spec1 w ≠ r) (h6 : r ∉ (hostOps2_W : List (Ref sig .tc))) :
    W7 m ρ c (Proc.devRef .tc r) = m ((c : Thread nD τ).loc r) :=
  (StableHlo.after_of_writes_sub hostOps2 _ hostOps2_writes h6).trans <|
  (W6_of_ne m ρ c r h5).trans <|
  (StableHlo.after_of_writes_sub hostOps1 _ hostOps1_writes h4).trans <|
  (W4_of_ne m ρ c r h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W7_main_arg0 (c : Dev nD) : W7 m ρ c (Proc.devRef .tc main_arg0) = m ((c : Thread nD τ).loc main_arg0) :=
  W7_of m ρ c main_arg0 (by decide) (by decide) (by decide) (by decide) (by decide) (by decide) (by decide)
theorem W7_main_arg1 (c : Dev nD) : W7 m ρ c (Proc.devRef .tc main_arg1) = m ((c : Thread nD τ).loc main_arg1) :=
  W7_of m ρ c main_arg1 (by decide) (by decide) (by decide) (by decide) (by decide) (by decide) (by decide)
theorem W7_main_arg2 (c : Dev nD) : W7 m ρ c (Proc.devRef .tc main_arg2) = m ((c : Thread nD τ).loc main_arg2) :=
  W7_of m ρ c main_arg2 (by decide) (by decide) (by decide) (by decide) (by decide) (by decide) (by decide)
theorem W7_main_arg3 (c : Dev nD) : W7 m ρ c (Proc.devRef .tc main_arg3) = m ((c : Thread nD τ).loc main_arg3) :=
  W7_of m ρ c main_arg3 (by decide) (by decide) (by decide) (by decide) (by decide) (by decide) (by decide)
theorem W7_main_arg4 (c : Dev nD) : W7 m ρ c (Proc.devRef .tc main_arg4) = m ((c : Thread nD τ).loc main_arg4) :=
  W7_of m ρ c main_arg4 (by decide) (by decide) (by decide) (by decide) (by decide) (by decide) (by decide)
theorem W7_main_arg5 (c : Dev nD) : W7 m ρ c (Proc.devRef .tc main_arg5) = m ((c : Thread nD τ).loc main_arg5) :=
  W7_of m ρ c main_arg5 (by decide) (by decide) (by decide) (by decide) (by decide) (by decide) (by decide)
theorem W7_main_arg6 (c : Dev nD) : W7 m ρ c (Proc.devRef .tc main_arg6) = m ((c : Thread nD τ).loc main_arg6) :=
  W7_of m ρ c main_arg6 (by decide) (by decide) (by decide) (by decide) (by decide) (by decide) (by decide)
theorem W7_main_arg7 (c : Dev nD) : W7 m ρ c (Proc.devRef .tc main_arg7) = m ((c : Thread nD τ).loc main_arg7) :=
  W7_of m ρ c main_arg7 (by decide) (by decide) (by decide) (by decide) (by decide) (by decide) (by decide)
theorem W7_main_arg8 (c : Dev nD) : W7 m ρ c (Proc.devRef .tc main_arg8) = m ((c : Thread nD τ).loc main_arg8) :=
  W7_of m ρ c main_arg8 (by decide) (by decide) (by decide) (by decide) (by decide) (by decide) (by decide)
theorem W7_main_arg9 (c : Dev nD) : W7 m ρ c (Proc.devRef .tc main_arg9) = m ((c : Thread nD τ).loc main_arg9) :=
  W7_of m ρ c main_arg9 (by decide) (by decide) (by decide) (by decide) (by decide) (by decide) (by decide)
theorem W7_main_arg10 (c : Dev nD) : W7 m ρ c (Proc.devRef .tc main_arg10) = m ((c : Thread nD τ).loc main_arg10) :=
  W7_of m ρ c main_arg10 (by decide) (by decide) (by decide) (by decide) (by decide) (by decide) (by decide)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c)⟩) (run m ρ)

end Cert.Kernel.Hand

end
-- ==== Proof.FrameKI.lean ====
/-
  The run of the program's @main, region by region: three stretches of host operations, the first kernel region (the folded
  group-norm affine and the fused q / k / v matmul over 4 x 4 blocks of 1024 tokens), a stretch of host operations, the
  second kernel region (attention over 4 x 16 blocks of 256 query tokens, the output projection and the residual), and a
  last reshape.  Each region's body runs at every grid point from buffers holding the input windows' blocks and leaves
  each output buffer at its one whole store; the contents of every unscoped buffer are followed from the launch to the
  return as a fold through the segments, and the final memory is read against the last of them.
-/
import proofs.«147553_j25795573579973_2_alg».proof.Proof.Gen.KernelIdeal.Launch
import proofs.«147553_j25795573579973_2_alg».proof.Proof.Gen.KernelIdeal.Skeleton
import proofs.«147553_j25795573579973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the windows' blocks, the body's stores, the body's triple, the proof data, the body obligation -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x1024x512 := Rect.unit (s := S1x1024x512) ![0, 0, 0] S1x1024x512.size inb_S1x1024x512_S1x1024x512_0_0_0
abbrev r0_1 : Rect S1x1x512 := Rect.unit (s := S1x1x512) ![0, 0, 0] S1x1x512.size inb_S1x1x512_S1x1x512_0_0_0
abbrev r0_3 : Rect S512x1536 := Rect.unit (s := S512x1536) ![0, 0] S512x1536.size inb_S512x1536_S512x1536_0_0
abbrev r0_4 : Rect S1x1536 := Rect.unit (s := S1x1536) ![0, 0] S1x1536.size inb_S1x1536_S1x1536_0_0

/-- Output window 5's staging buffer after the body: its one whole store over the body's value of the input blocks. -/
def out0_5 (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨r0_0, k0_pay2 (View.ld x0 r0_0) (View.ld x1 r0_1) (View.ld x2 r0_1) (View.ld x3 r0_3) (View.ld x4 r0_4)⟩]

/-- The one store covers the buffer. -/
theorem cover0_5 (p0 : Vec F S1x1024x512 .bf16) (y : S1x1024x512.Idx) :
    ∃ pc ∈ ([⟨r0_0, p0⟩] : List (View.Piece (Elt F) S1x1024x512 .bf16)), y ∈ pc.1.set :=
  View.cover_of_tiled [⟨r0_0, p0⟩] S1x1024x512.size (by rfl) y

/-- Output window 6's staging buffer after the body: its one whole store over the body's value of the input blocks. -/
def out0_6 (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨r0_0, k0_pay3 (View.ld x0 r0_0) (View.ld x1 r0_1) (View.ld x2 r0_1) (View.ld x3 r0_3) (View.ld x4 r0_4)⟩]

/-- The one store covers the buffer. -/
theorem cover0_6 (p0 : Vec F S1x1024x512 .bf16) (y : S1x1024x512.Idx) :
    ∃ pc ∈ ([⟨r0_0, p0⟩] : List (View.Piece (Elt F) S1x1024x512 .bf16)), y ∈ pc.1.set :=
  View.cover_of_tiled [⟨r0_0, p0⟩] S1x1024x512.size (by rfl) y

/-- Output window 7's staging buffer after the body: its one whole store over the body's value of the input blocks. -/
def out0_7 (x0 : Vec F S1x1024x512 .f32) (x1 : Vec F S1x1x512 .f32) (x2 : Vec F S1x1x512 .f32) (x3 : Vec F S512x1536 .bf16) (x4 : Vec F S1x1536 .f32) : Vec F S1x1024x512 .bf16 :=
  View.canon [⟨r0_0, k0_pay4 (View.ld x0 r0_0) (View.ld x1 r0_1) (View.ld x2 r0_1) (View.ld x3 r0_3) (View.ld x4 r0_4)⟩]

/-- The one store covers the buffer. -/
theorem cover0_7 (p0 : Vec F S1x1024x512 .bf16) (y : S1x1024x512.Idx) :
    ∃ pc ∈ ([⟨r0_0, p0⟩] : List (View.Piece (Elt F) S1x1024x512 .bf16)), y ∈ pc.1.set :=
  View.cover_of_tiled [⟨r0_0, p0⟩] S1x1024x512.size (by rfl) y

set_option maxHeartbeats 4000000 in
/-- The kernel body on whole staging buffers, the inputs' at given contents and the outputs' at anything, runs to the
    continuation holding the inputs' as they were and each output's at its one store's value. -/
theorem sound_kernel0 (c : Dev nD) (E : Set ℕ) (i : grid0.Coords) (arg0 : Memref sig .tc .vmem S1x1024x512 .f32) (harg0 : arg0.IsWhole) (arg1 : Memref sig .tc .vmem S1x1x512 .f32) (harg1 : arg1.IsWhole) (arg2 : Memref sig .tc .vmem S1x1x512 .f32) (harg2 : arg2.IsWhole) (arg3 : Memref sig .tc .vmem S512x1536 .bf16) (harg3 : arg3.IsWhole) (arg4 : Memref sig .tc .vmem S1x1536 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x1024x512 .bf16) (harg7 : arg7.IsWhole)
    (x0 : Vec F S1x1024x512 .f32) (x1 : Vec F S1x1x512 .f32) (x2 : Vec F S1x1x512 .f32) (x3 : Vec F S512x1536 .bf16) (x4 : Vec F S1x1536 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4) ∗ owns (c : Thread nD τ) arg6 fullShare (out0_6 x0 x1 x2 x3 x4) ∗ owns (c : Thread nD τ) arg7 fullShare (out0_7 x0 x1 x2 x3 x4)) -∗ K ⟨⟩))
      ⊢ wp frame (wpE (defs₀ (F := F)) Variants.none c none) E (cc0__qkv_kernel i arg0 harg0 arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-- The proof data of pipeline 0 on core c: the arrays as the region finds them; after the body at point t each
    input's buffer at its block and each output's at the body's value of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' buffers hold their blocks, so the triple applies; the invariant and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the windows' blocks, the body's stores, the body's triple, the proof data, the body obligation -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x256x512 := Rect.unit (s := S1x256x512) ![0, 0, 0] S1x256x512.size inb_S1x256x512_S1x256x512_0_0_0
abbrev r1_1 : Rect S1x4096x512 := Rect.unit (s := S1x4096x512) ![0, 0, 0] S1x4096x512.size inb_S1x4096x512_S1x4096x512_0_0_0
abbrev r1_3 : Rect S512x512 := Rect.unit (s := S512x512) ![0, 0] S512x512.size inb_S512x512_S512x512_0_0
abbrev r1_4 : Rect S1x512 := Rect.unit (s := S1x512) ![0, 0] S1x512.size inb_S1x512_S1x512_0_0

/-- Output window 6's staging buffer after the body: its one whole store over the body's value of the input blocks. -/
def out1_6 (x0 : Vec F S1x256x512 .bf16) (x1 : Vec F S1x4096x512 .bf16) (x2 : Vec F S1x4096x512 .bf16) (x3 : Vec F S512x512 .bf16) (x4 : Vec F S1x512 .f32) (x5 : Vec F S1x256x512 .f32) : Vec F S1x256x512 .f32 :=
  View.canon [⟨r1_0, k1_pay1 (k1_pay2 (View.ld x0 r1_0) (View.ld x1 r1_1) (View.ld x2 r1_1) (View.ld x3 r1_3) (View.ld x4 r1_4) (View.ld x5 r1_0))⟩]

/-- The one store covers the buffer. -/
theorem cover1_6 (p0 : Vec F S1x256x512 .f32) (y : S1x256x512.Idx) :
    ∃ pc ∈ ([⟨r1_0, p0⟩] : List (View.Piece (Elt F) S1x256x512 .f32)), y ∈ pc.1.set :=
  View.cover_of_tiled [⟨r1_0, p0⟩] S1x256x512.size (by rfl) y

set_option maxHeartbeats 4000000 in
/-- The kernel body on whole staging buffers, the inputs' at given contents and the outputs' at anything, runs to the
    continuation holding the inputs' as they were and each output's at its one store's value. -/
theorem sound_kernel1 (c : Dev nD) (E : Set ℕ) (i : grid1.Coords) (arg0 : Memref sig .tc .vmem S1x256x512 .bf16) (harg0 : arg0.IsWhole) (arg1 : Memref sig .tc .vmem S1x4096x512 .bf16) (harg1 : arg1.IsWhole) (arg2 : Memref sig .tc .vmem S1x4096x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x256x512 .f32) (harg5 : arg5.IsWhole) (arg6 : Memref sig .tc .vmem S1x256x512 .f32) (harg6 : arg6.IsWhole)
    (x0 : Vec F S1x256x512 .bf16) (x1 : Vec F S1x4096x512 .bf16) (x2 : Vec F S1x4096x512 .bf16) (x3 : Vec F S512x512 .bf16) (x4 : Vec F S1x512 .f32) (x5 : Vec F S1x256x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__attn_kernel i arg0 harg0 arg1 harg1 arg2 harg2 arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The proof data of pipeline 1 on core c: the arrays as the region finds them; after the body at point t each
    input's buffer at its block and each output's at the body's value of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' buffers hold their blocks, so the triple applies; the invariant and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
abbrev W7 : Dev nD → Valuation τ sig (Elt F) := fun c => StableHlo.after hostOps2 (W6 m ρ c)

/-! # The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at the contents before it, left at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last stretch as a segment whose exit is the final thread state. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and the final
    memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Hand

end
-- ==== Proof.KRunI.lean ====
/-
  What the run leaves in the argument arrays: no host operation writes an argument and no kernel region stages one, so
  the contents followed through the segments at an argument's buffer are the launch contents; with the run this is the
  frame claim: every weakly fair execution terminates without a fault and the arguments end unchanged.
-/
import proofs.«147553_j25795573579973_2_alg».proof.Proof.FrameKI
import proofs.«147553_j25795573579973_2_alg».proof.Proof.Gen.KernelIdeal.Regions

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no stretch of host operations writes and no region stages holds its launch contents at the end. -/
theorem W7_of (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : ∀ w, Pipeline.arrRef spec0 w ≠ r) (h4 : r ∉ (hostOps1_W : List (Ref sig .tc)))
    (h5 : ∀ w, Pipeline.arrRef spec1 w ≠ r) (h6 : r ∉ (hostOps2_W : List (Ref sig .tc))) :
    W7 m ρ c (Proc.devRef .tc r) = m ((c : Thread nD τ).loc r) :=
  (StableHlo.after_of_writes_sub hostOps2 _ hostOps2_writes h6).trans <|
  (W6_of_ne m ρ c r h5).trans <|
  (StableHlo.after_of_writes_sub hostOps1 _ hostOps1_writes h4).trans <|
  (W4_of_ne m ρ c r h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W7_main_arg0 (c : Dev nD) : W7 m ρ c (Proc.devRef .tc main_arg0) = m ((c : Thread nD τ).loc main_arg0) :=
  W7_of m ρ c main_arg0 (by decide) (by decide) (by decide) (by decide) (by decide) (by decide) (by decide)
theorem W7_main_arg1 (c : Dev nD) : W7 m ρ c (Proc.devRef .tc main_arg1) = m ((c : Thread nD τ).loc main_arg1) :=
  W7_of m ρ c main_arg1 (by decide) (by decide) (by decide) (by decide) (by decide) (by decide) (by decide)
theorem W7_main_arg2 (c : Dev nD) : W7 m ρ c (Proc.devRef .tc main_arg2) = m ((c : Thread nD τ).loc main_arg2) :=
  W7_of m ρ c main_arg2 (by decide) (by decide) (by decide) (by decide) (by decide) (by decide) (by decide)
theorem W7_main_arg3 (c : Dev nD) : W7 m ρ c (Proc.devRef .tc main_arg3) = m ((c : Thread nD τ).loc main_arg3) :=
  W7_of m ρ c main_arg3 (by decide) (by decide) (by decide) (by decide) (by decide) (by decide) (by decide)
theorem W7_main_arg4 (c : Dev nD) : W7 m ρ c (Proc.devRef .tc main_arg4) = m ((c : Thread nD τ).loc main_arg4) :=
  W7_of m ρ c main_arg4 (by decide) (by decide) (by decide) (by decide) (by decide) (by decide) (by decide)
theorem W7_main_arg5 (c : Dev nD) : W7 m ρ c (Proc.devRef .tc main_arg5) = m ((c : Thread nD τ).loc main_arg5) :=
  W7_of m ρ c main_arg5 (by decide) (by decide) (by decide) (by decide) (by decide) (by decide) (by decide)
theorem W7_main_arg6 (c : Dev nD) : W7 m ρ c (Proc.devRef .tc main_arg6) = m ((c : Thread nD τ).loc main_arg6) :=
  W7_of m ρ c main_arg6 (by decide) (by decide) (by decide) (by decide) (by decide) (by decide) (by decide)
theorem W7_main_arg7 (c : Dev nD) : W7 m ρ c (Proc.devRef .tc main_arg7) = m ((c : Thread nD τ).loc main_arg7) :=
  W7_of m ρ c main_arg7 (by decide) (by decide) (by decide) (by decide) (by decide) (by decide) (by decide)
theorem W7_main_arg8 (c : Dev nD) : W7 m ρ c (Proc.devRef .tc main_arg8) = m ((c : Thread nD τ).loc main_arg8) :=
  W7_of m ρ c main_arg8 (by decide) (by decide) (by decide) (by decide) (by decide) (by decide) (by decide)
theorem W7_main_arg9 (c : Dev nD) : W7 m ρ c (Proc.devRef .tc main_arg9) = m ((c : Thread nD τ).loc main_arg9) :=
  W7_of m ρ c main_arg9 (by decide) (by decide) (by decide) (by decide) (by decide) (by decide) (by decide)
theorem W7_main_arg10 (c : Dev nD) : W7 m ρ c (Proc.devRef .tc main_arg10) = m ((c : Thread nD τ).loc main_arg10) :=
  W7_of m ρ c main_arg10 (by decide) (by decide) (by decide) (by decide) (by decide) (by decide) (by decide)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c)⟩) (run m ρ)

end Cert.KernelIdeal.Hand

end
-- ==== Proof.Spec.lean ====
/-
  The mathematics both programs compute, stated once, index by index, on the extended reals.

  A batch of 4 images of 64 x 64 pixels and 512 channels is read as 4 x 4096 tokens of 512 channels (token n = 64 h + w);
  the channels fall in 32 groups of 16 (channel c is in group c / 16).  Given per (batch, group) a mean and a reciprocal
  standard deviation, the group-normalised activations are an affine function of x; the kernel applies it in the folded
  form  x * (gamma * r) + (beta - mean * (gamma * r)),  the reference in the form  ((x - mean) * r) * gamma + beta.
  From normalised activations h: q, k, v are h times a weight matrix plus a bias; the score of token i against token j is
  <q_i, k_j> times a scale; each row of scores is shifted by its maximum, exponentiated and normalised by its sum
  (the kernel multiplies by the reciprocal of the sum, the reference divides by the sum); the weighted sum of the v rows
  is projected by a last weight matrix plus bias and added to x.
-/
import Idealize.ShloMosaic.PureOps.Ideal
import Idealize.ShloMosaic.Lib.ValueIdx

noncomputable section

open scoped BigOperators

namespace Cert.Attn

open Idealize.ShloMosaic Idealize.ShloMosaic.ValueIdx

/-- An image batch [4, 64, 64, 512], a vector [512], a matrix [512, 512], as functions of an index. -/
abbrev XA : Type := (⟨4, ![4, 64, 64, 512]⟩ : Shape).Idx → EReal
abbrev VA : Type := (⟨1, ![512]⟩ : Shape).Idx → EReal
abbrev MA : Type := (⟨2, ![512, 512]⟩ : Shape).Idx → EReal
/-- Token-major activations: batch, token, channel. -/
abbrev TA : Type := Fin 4 → Fin 4096 → Fin 512 → EReal
/-- Per (batch, group) statistics. -/
abbrev GA : Type := Fin 4 → Fin 32 → EReal

/-- The group of a channel. -/
def grp (c : Fin 512) : Fin 32 := ⟨c.val / 16, by omega⟩
/-- The row and the column of a token. -/
def tokH (n : Fin 4096) : Fin 64 := ⟨n.val / 64, by omega⟩
def tokW (n : Fin 4096) : Fin 64 := ⟨n.val % 64, by omega⟩
/-- The token of a pixel. -/
def tok (h w : Fin 64) : Fin 4096 := ⟨h.val * 64 + w.val, by omega⟩

theorem tokH_tok (h w : Fin 64) : tokH (tok h w) = h := by
  apply Fin.ext; show (h.val * 64 + w.val) / 64 = h.val; omega
theorem tokW_tok (h w : Fin 64) : tokW (tok h w) = w := by
  apply Fin.ext; show (h.val * 64 + w.val) % 64 = w.val; omega

/-- The scale 512^(-1/2) as both programs round it to f32, the additive identity of the row maximum, and one. -/
def cScale : EReal := Ideal.ofBits .f32 0x3D3504F3#32
def cNegInf : EReal := Ideal.ofBits .f32 0xFF800000#32
def cOne : EReal := Ideal.ofBits .f32 0x3F800000#32

/-- x read token-major. -/
def xf (x : XA) : TA := fun b n c => x (ix4 b (tokH n) (tokW n) c)

/-- Group normalisation in the folded affine form (scale a = gamma * r, shift = beta - mean * a). -/
def hK (mean r : GA) (x : XA) (γ β : VA) : TA := fun b n c =>
  xf x b n c * (γ (ix1 c) * r b (grp c)) + (β (ix1 c) - mean b (grp c) * (γ (ix1 c) * r b (grp c)))
/-- Group normalisation in the textbook form. -/
def hR (mean r : GA) (x : XA) (γ β : VA) : TA := fun b n c =>
  ((xf x b n c - mean b (grp c)) * r b (grp c)) * γ (ix1 c) + β (ix1 c)

/-- A per-token dense layer: h times w plus bias. -/
def proj (h : TA) (w : MA) (bias : VA) : TA := fun b n d =>
  (∑ c : Fin 512, h b n c * w (ix2 c d)) + bias (ix1 d)
/-- Scaled scores of token i against token j. -/
def scores (q k : TA) : Fin 4 → Fin 4096 → Fin 4096 → EReal := fun b i j =>
  (∑ c : Fin 512, q b i c * k b j c) * cScale
/-- A row's maximum, folded from -inf. -/
def rowMax (s : Fin 4 → Fin 4096 → Fin 4096 → EReal) : Fin 4 → Fin 4096 → EReal := fun b i =>
  (Finset.univ : Finset (Fin 4096)).fold max cNegInf (fun j => s b i j)
/-- The shifted exponentials. -/
def pexp (s : Fin 4 → Fin 4096 → Fin 4096 → EReal) (m : Fin 4 → Fin 4096 → EReal) :
    Fin 4 → Fin 4096 → Fin 4096 → EReal := fun b i j => Ideal.exp (s b i j - m b i)
/-- A row's sum. -/
def rowSum (p : Fin 4 → Fin 4096 → Fin 4096 → EReal) : Fin 4 → Fin 4096 → EReal := fun b i =>
  ∑ j : Fin 4096, p b i j
/-- Normalisation by the reciprocal of the row sum. -/
def attnK (p : Fin 4 → Fin 4096 → Fin 4096 → EReal) (l : Fin 4 → Fin 4096 → EReal) :
    Fin 4 → Fin 4096 → Fin 4096 → EReal := fun b i j => p b i j * Ideal.div cOne (l b i)
/-- Normalisation by division by the row sum. -/
def attnR (p : Fin 4 → Fin 4096 → Fin 4096 → EReal) (l : Fin 4 → Fin 4096 → EReal) :
    Fin 4 → Fin 4096 → Fin 4096 → EReal := fun b i j => Ideal.div (p b i j) (l b i)
/-- The attention-weighted sum of the value rows. -/
def av (a : Fin 4 → Fin 4096 → Fin 4096 → EReal) (v : TA) : TA := fun b i c =>
  ∑ j : Fin 4096, a b i j * v b j c
/-- The output projection and the residual. -/
def outOf (x : XA) (a : Fin 4 → Fin 4096 → Fin 4096 → EReal) (v : TA) (wp : MA) (bp : VA) : TA := fun b i d =>
  xf x b i d + proj (av a v) wp bp b i d

/-- The kernel's result, token-major, from normalised activations h. -/
def outK (h : TA) (wq : MA) (bq : VA) (wk : MA) (bk : VA) (wv : MA) (bv : VA) (wp : MA) (bp : VA) (x : XA) : TA :=
  let s := scores (proj h wq bq) (proj h wk bk)
  let p := pexp s (rowMax s)
  outOf x (attnK p (rowSum p)) (proj h wv bv) wp bp
/-- The reference's result, token-major, from normalised activations h (its row maximum is taken once more against -inf). -/
def outR (h : TA) (wq : MA) (bq : VA) (wk : MA) (bk : VA) (wv : MA) (bv : VA) (wp : MA) (bp : VA) (x : XA) : TA :=
  let s := scores (proj h wq bq) (proj h wk bk)
  let p := pexp s (fun b i => max cNegInf (rowMax s b i))
  outOf x (attnR p (rowSum p)) (proj h wv bv) wp bp

/-- A token-major array read as an image batch. -/
def img (t : TA) : XA := fun j => t (j 0) (tok (j 1) (j 2)) (j 3)

end Cert.Attn

end
-- ==== Proof.GNTerms.lean ====
/-
  The group-normalisation stage of both programs as terms of the inputs.

  Both programs reshape x to [4, 64, 64, 32, 16] (batch, row, column, group, lane), sum over rows, columns and
  lanes to get a per-(batch, group) sum S, take mean = S / 65536, the centred sum of squares Q, the variance
  var = Q / (65536 - 0) (guarded by 65536 - 0 > 0), and r = rsqrt (var + eps).  The kernel keeps mean and r at
  shape [4, 32], spreads them over channels through [4, 32, 16] -> [4, 512], and folds gamma, beta into a scale
  a = gamma * r and a shift beta - mean * a, both handed on at shape [4, 1, 512].  The reference keeps the
  statistics at [4, 1, 1, 32, 1], spreads them over [4, 64, 64, 32, 16] and forms ((x - mean) * r) * gamma + beta.
  Each definition below is the composition of the printed operations, in the printed order of operands.
-/
import proofs.«147553_j25795573579973_2_alg».proof.Defs
import proofs.«147553_j25795573579973_2_alg».proof.Proof.Spec

noncomputable section

namespace Cert.GN

open Idealize.ShloMosaic

/-! ## The kernel's host stage -/

section Kernel

open Cert.KernelIdeal Cert.KernelIdeal.Facts₀

variable [Cert.KernelIdeal.Facts]

/-- x as [4, 64, 64, 32, 16]. -/
def kX5 (x : Cert.Attn.XA) : FVec Ideal S4x64x64x32x16 .f32 :=
  shapeCast S4x64x64x32x16 x shapeCasts_S4x64x64x512_S4x64x64x32x16

/-- The per-(batch, group) sum of x. -/
def kSum (x : Cert.Attn.XA) : FVec Ideal S4x32 .f32 :=
  Host.reduceAdd (kX5 x) (constant (F := Ideal) S_ .f32 0x00000000#32) reducesTo_S4x64x64x32x16_S4x32_d1_2_4 h_S_

/-- The per-(batch, group) mean. -/
def kMean (x : Cert.Attn.XA) : FVec Ideal S4x32 .f32 :=
  Host.divf (kSum x) (broadcastInDim S4x32 ![] bcast_S_S4x32 (constant (F := Ideal) S_ .f32 0x47800000#32))

/-- The count 65536 minus the converted integer zero. -/
def kCount : FVec Ideal S_ .f32 :=
  subf (constant (F := Ideal) S_ .f32 0x47800000#32) (sitofp (F := Ideal) .f32 (constantI S_ 32 0#32))

/-- The centred squares of x, at [4, 64, 64, 32, 16]. -/
def kSq (x : Cert.Attn.XA) : FVec Ideal S4x64x64x32x16 .f32 :=
  mulf
    (subf (kX5 x)
      (broadcastInDim S4x64x64x32x16 ![0, 1, 2, 3, 4] bcast_S4x1x1x32x1_S4x64x64x32x16_0_1_2_3_4
        (Host.divf
          (broadcastInDim S4x1x1x32x1 ![0, 3] bcast_S4x32_S4x1x1x32x1_0_3
            (Host.reduceAdd (kX5 x) (constant (F := Ideal) S_ .f32 0x00000000#32) reducesTo_S4x64x64x32x16_S4x32_d1_2_4 h_S_))
          (broadcastInDim S4x1x1x32x1 ![] bcast_S_S4x1x1x32x1 (constant (F := Ideal) S_ .f32 0x47800000#32)))))
    (subf (kX5 x)
      (broadcastInDim S4x64x64x32x16 ![0, 1, 2, 3, 4] bcast_S4x1x1x32x1_S4x64x64x32x16_0_1_2_3_4
        (Host.divf
          (broadcastInDim S4x1x1x32x1 ![0, 3] bcast_S4x32_S4x1x1x32x1_0_3
            (Host.reduceAdd (kX5 x) (constant (F := Ideal) S_ .f32 0x00000000#32) reducesTo_S4x64x64x32x16_S4x32_d1_2_4 h_S_))
          (broadcastInDim S4x1x1x32x1 ![] bcast_S_S4x1x1x32x1 (constant (F := Ideal) S_ .f32 0x47800000#32)))))

/-- The per-(batch, group) variance, as the guarded quotient. -/
def kVar (x : Cert.Attn.XA) : FVec Ideal S4x32 .f32 :=
  select
    (broadcastInDim S4x32 ![] bcast_S_S4x32 (cmpf .ogt kCount (constant (F := Ideal) S_ .f32 0x00000000#32)))
    (Host.divf
      (Host.reduceAdd (kSq x) (constant (F := Ideal) S_ .f32 0x00000000#32) reducesTo_S4x64x64x32x16_S4x32_d1_2_4 h_S_)
      (broadcastInDim S4x32 ![] bcast_S_S4x32 kCount))
    (broadcastInDim S4x32 ![] bcast_S_S4x32 (id (constant (F := Ideal) S_ .f32 0x7FC00000#32)))

/-- The per-(batch, group) reciprocal standard deviation. -/
def kRstd (x : Cert.Attn.XA) : FVec Ideal S4x32 .f32 :=
  Host.rsqrt (addf (kVar x) (broadcastInDim S4x32 ![] bcast_S_S4x32 (constant (F := Ideal) S_ .f32 0x3727C5AC#32)))

/-- The mean spread over channels, [4, 512]. -/
def kMeanC (x : Cert.Attn.XA) : FVec Ideal S4x512 .f32 :=
  shapeCast S4x512 (broadcastInDim S4x32x16 ![0, 1] bcast_S4x32_S4x32x16_0_1 (kMean x)) shapeCasts_S4x32x16_S4x512

/-- The reciprocal standard deviation spread over channels, [4, 512]. -/
def kRstdC (x : Cert.Attn.XA) : FVec Ideal S4x512 .f32 :=
  shapeCast S4x512 (broadcastInDim S4x32x16 ![0, 1] bcast_S4x32_S4x32x16_0_1 (kRstd x)) shapeCasts_S4x32x16_S4x512

/-- The scale gamma * r, [4, 512]. -/
def kScale (x : Cert.Attn.XA) (γ : Cert.Attn.VA) : FVec Ideal S4x512 .f32 :=
  mulf (broadcastInDim S4x512 ![0, 1] bcast_S1x512_S4x512_0_1 (broadcastInDim S1x512 ![1] bcast_S512_S1x512_1 γ)) (kRstdC x)

/-- The shift beta - mean * (gamma * r), [4, 512]. -/
def kShift (x : Cert.Attn.XA) (γ β : Cert.Attn.VA) : FVec Ideal S4x512 .f32 :=
  subf (broadcastInDim S4x512 ![0, 1] bcast_S1x512_S4x512_0_1 (broadcastInDim S1x512 ![1] bcast_S512_S1x512_1 β))
    (mulf (kMeanC x) (kScale x γ))

/-- The scale as handed to the first kernel, [4, 1, 512]. -/
def a3T (x : Cert.Attn.XA) (γ : Cert.Attn.VA) : (⟨3, ![4, 1, 512]⟩ : Shape).Idx → EReal :=
  shapeCast S4x1x512 (kScale x γ) shapeCasts_S4x512_S4x1x512

/-- The shift as handed to the first kernel, [4, 1, 512]. -/
def shift3T (x : Cert.Attn.XA) (γ β : Cert.Attn.VA) : (⟨3, ![4, 1, 512]⟩ : Shape).Idx → EReal :=
  shapeCast S4x1x512 (kShift x γ β) shapeCasts_S4x512_S4x1x512

end Kernel

/-! ## The reference's group normalisation -/

section Reference

open Cert.ReferenceIdeal Cert.ReferenceIdeal.Facts₀

variable [Cert.ReferenceIdeal.Facts]

/-- x as [4, 64, 64, 32, 16]. -/
def rX5 (x : Cert.Attn.XA) : FVec Ideal S4x64x64x32x16 .f32 :=
  shapeCast S4x64x64x32x16 x shapeCasts_S4x64x64x512_S4x64x64x32x16

/-- The per-(batch, group) sum of x. -/
def rSum (x : Cert.Attn.XA) : FVec Ideal S4x32 .f32 :=
  Host.reduceAdd (rX5 x) (constant (F := Ideal) S_ .f32 0x00000000#32) reducesTo_S4x64x64x32x16_S4x32_d1_2_4 h_S_

/-- The mean, [4, 1, 1, 32, 1]. -/
def rMean (x : Cert.Attn.XA) : FVec Ideal S4x1x1x32x1 .f32 :=
  Host.divf (broadcastInDim S4x1x1x32x1 ![0, 3] bcast_S4x32_S4x1x1x32x1_0_3 (rSum x))
    (broadcastInDim S4x1x1x32x1 ![] bcast_S_S4x1x1x32x1 (constant (F := Ideal) S_ .f32 0x47800000#32))

/-- The count 65536 minus the converted integer zero. -/
def rCount : FVec Ideal S_ .f32 :=
  subf (constant (F := Ideal) S_ .f32 0x47800000#32) (sitofp (F := Ideal) .f32 (constantI S_ 32 0#32))

/-- The centred squares of x, at [4, 64, 64, 32, 16]. -/
def rSq (x : Cert.Attn.XA) : FVec Ideal S4x64x64x32x16 .f32 :=
  mulf
    (subf (rX5 x) (broadcastInDim S4x64x64x32x16 ![0, 1, 2, 3, 4] bcast_S4x1x1x32x1_S4x64x64x32x16_0_1_2_3_4 (rMean x)))
    (subf (rX5 x) (broadcastInDim S4x64x64x32x16 ![0, 1, 2, 3, 4] bcast_S4x1x1x32x1_S4x64x64x32x16_0_1_2_3_4 (rMean x)))

/-- The variance, [4, 1, 1, 32, 1], as the guarded quotient. -/
def rVar (x : Cert.Attn.XA) : FVec Ideal S4x1x1x32x1 .f32 :=
  select
    (broadcastInDim S4x1x1x32x1 ![] bcast_S_S4x1x1x32x1 (cmpf .ogt rCount (constant (F := Ideal) S_ .f32 0x00000000#32)))
    (Host.divf
      (broadcastInDim S4x1x1x32x1 ![0, 3] bcast_S4x32_S4x1x1x32x1_0_3
        (Host.reduceAdd (rSq x) (constant (F := Ideal) S_ .f32 0x00000000#32) reducesTo_S4x64x64x32x16_S4x32_d1_2_4 h_S_))
      (broadcastInDim S4x1x1x32x1 ![] bcast_S_S4x1x1x32x1 rCount))
    (broadcastInDim S4x1x1x32x1 ![] bcast_S_S4x1x1x32x1 (id (constant (F := Ideal) S_ .f32 0x7FC00000#32)))

/-- The reciprocal standard deviation, [4, 1, 1, 32, 1]. -/
def rRstd (x : Cert.Attn.XA) : FVec Ideal S4x1x1x32x1 .f32 :=
  Host.rsqrt (addf (rVar x) (broadcastInDim S4x1x1x32x1 ![] bcast_S_S4x1x1x32x1 (constant (F := Ideal) S_ .f32 0x3727C5AC#32)))

/-- (x - mean) * r, back at [4, 64, 64, 512]. -/
def rNorm (x : Cert.Attn.XA) : FVec Ideal S4x64x64x512 .f32 :=
  shapeCast S4x64x64x512
    (mulf
      (subf (rX5 x) (broadcastInDim S4x64x64x32x16 ![0, 1, 2, 3, 4] bcast_S4x1x1x32x1_S4x64x64x32x16_0_1_2_3_4 (rMean x)))
      (broadcastInDim S4x64x64x32x16 ![0, 1, 2, 3, 4] bcast_S4x1x1x32x1_S4x64x64x32x16_0_1_2_3_4 (rRstd x)))
    shapeCasts_S4x64x64x32x16_S4x64x64x512

/-- The group-normalised activations ((x - mean) * r) * gamma + beta. -/
def hT (x : Cert.Attn.XA) (γ β : Cert.Attn.VA) : Cert.Attn.XA :=
  addf
    (mulf (rNorm x)
      (broadcastInDim S4x64x64x512 ![0, 1, 2, 3] bcast_S1x1x1x512_S4x64x64x512_0_1_2_3
        (broadcastInDim S1x1x1x512 ![3] bcast_S512_S1x1x1x512_3 γ)))
    (broadcastInDim S4x64x64x512 ![0, 1, 2, 3] bcast_S1x1x1x512_S4x64x64x512_0_1_2_3
      (broadcastInDim S1x1x1x512 ![3] bcast_S512_S1x1x1x512_3 β))

end Reference

end Cert.GN

end
-- ==== Proof.KHost.lean ====
/-
  The kernel program's host stages, read at an index on the extended reals.

  Before the first kernel the host reshapes the image batch x [4, 64, 64, 512] to tokens [4, 4096, 512]
  (token n = 64 h + w), lays the three 512 x 512 weight matrices side by side as one 512 x 1536 matrix
  (columns 0.., 512.., 1024.. are the query, key and value weights) and narrows its format, which changes no
  extended real, and lays the three bias vectors end to end as one row of 1536.  Between the kernels it narrows
  the output projection's weights and turns its bias into a row.  After the second kernel it reshapes the
  tokens back to pixels.  Each statement below holds from ANY contents of the buffers before the stretch.
-/
import proofs.«147553_j25795573579973_2_alg».proof.Proof.Gen.KernelIdeal.Regions
import proofs.«147553_j25795573579973_2_alg».proof.Proof.Spec
import proofs.«147553_j25795573579973_2_alg».proof.Proof.GNTerms
import Idealize.ShloMosaic.Lib.ValueLayout

noncomputable section

namespace Cert.KHost

open Idealize.ShloMosaic Idealize.ShloMosaic.ValueIdx
open Cert.KernelIdeal Cert.KernelIdeal.Gen

/-- The contents of every device buffer. -/
abbrev Val : Type := Valuation Cert.KernelIdeal.τ Cert.KernelIdeal.sig (Elt Ideal)

/-- The buffers after the three host stretches that precede the first kernel. -/
abbrev A3 (W : Val) : Val :=
  StableHlo.after hostOps0_2 (StableHlo.after hostOps0_1 (StableHlo.after hostOps0 W))

/-- An argument of the program is written by neither of the first two host stretches. -/
theorem pre_arg (W : Val) (r : Ref sig .tc) (h1 : r ∉ (hostOps0_1_W : List (Ref sig .tc)))
    (h0 : r ∉ (hostOps0_W : List (Ref sig .tc))) :
    StableHlo.after hostOps0_1 (StableHlo.after hostOps0 W) (Proc.devRef .tc r) = W (Proc.devRef .tc r) :=
  (StableHlo.after_of_writes_sub hostOps0_1 _ hostOps0_1_writes h1).trans
    (StableHlo.after_of_writes_sub hostOps0 _ hostOps0_writes h0)

/-! ## Before the first kernel -/

theorem v21_stretch (V : Val) :
    (StableHlo.after hostOps0_2 V (Proc.devRef .tc main_v21) : S4x4096x512.Idx → EReal)
      = shapeCast S4x4096x512 (V (Proc.devRef .tc main_arg0) : S4x64x64x512.Idx → EReal)
          shapeCasts_S4x64x64x512_S4x4096x512 := by
  dsimp only [hostOps0_2]
  after_results
  rfl

/-- The token-major copy of the image batch. -/
theorem v21_at (W : Val) (b : Fin 4) (n : Fin 4096) (c : Fin 512) :
    (A3 W) (Proc.devRef .tc main_v21) (ix3 b n c)
      = W (Proc.devRef .tc main_arg0) (ix4 b (Cert.Attn.tokH n) (Cert.Attn.tokW n) c) := by
  refine (congrFun (v21_stretch _) (ix3 b n c)).trans ?_
  rw [pre_arg W main_arg0 (by decide) (by decide)]
  exact shapeCast_apply _ _ _ _ (by
    show (S4x64x64x512.rowMajor (ix4 b (Cert.Attn.tokH n) (Cert.Attn.tokW n) c)).val
      = (S4x4096x512.rowMajor (ix3 b n c)).val
    rw [Shape.rowMajor_val_four, Shape.rowMajor_val_three]
    show ((b.val * 64 + n.val / 64) * 64 + n.val % 64) * 512 + c.val = (b.val * 4096 + n.val) * 512 + c.val
    omega)

theorem v24_stretch (V : Val) :
    (StableHlo.after hostOps0_2 V (Proc.devRef .tc main_v24) : S512x1536.Idx → EReal)
      = (truncf .bf16 (concatenate S512x1536 1
          [⟨S512x512, (V (Proc.devRef .tc main_arg3) : S512x512.Idx → EReal)⟩,
           ⟨S512x512, (V (Proc.devRef .tc main_arg5) : S512x512.Idx → EReal)⟩,
           ⟨S512x512, (V (Proc.devRef .tc main_arg7) : S512x512.Idx → EReal)⟩]
          concatenates_S512x512_S512x512_S512x512_S512x1536_d1 : FVec Ideal S512x1536 .f32) bitsLt_bf16_f32
          : FVec Ideal S512x1536 .bf16) := by
  dsimp only [hostOps0_2]
  after_results
  rfl

/-- The query columns of the fused weight matrix are the query weights. -/
theorem v24_q (W : Val) (c d : Fin 512) :
    (A3 W) (Proc.devRef .tc main_v24) (ix2 c (⟨0 + d.val, by omega⟩ : Fin 1536))
      = W (Proc.devRef .tc main_arg3) (ix2 c d) := by
  refine (congrFun (v24_stretch _) (ix2 c (⟨0 + d.val, by omega⟩ : Fin 1536))).trans ?_
  rw [pre_arg W main_arg3 (by decide) (by decide), pre_arg W main_arg5 (by decide) (by decide),
    pre_arg W main_arg7 (by decide) (by decide)]
  refine (truncf_apply (φ := .f32) (ψ := .bf16) _ bitsLt_bf16_f32 _).trans ?_
  refine concatenate_apply_piece (t := S512x1536) (1 : Fin 2) _ _ _ 0 ?_ S512x512 _ ?_ ?_ 0 ?_ (ix2 c d) ?_ ?_
  · show 0 < 3
    omega
  · rfl
  · rfl
  · rfl
  · intro b hb
    match b, hb with
    | ⟨0, _⟩, _ => rfl
    | ⟨1, _⟩, hb => exact absurd rfl hb
  · rfl

/-- The key columns of the fused weight matrix are the key weights. -/
theorem v24_k (W : Val) (c d : Fin 512) :
    (A3 W) (Proc.devRef .tc main_v24) (ix2 c (⟨512 + d.val, by omega⟩ : Fin 1536))
      = W (Proc.devRef .tc main_arg5) (ix2 c d) := by
  refine (congrFun (v24_stretch _) (ix2 c (⟨512 + d.val, by omega⟩ : Fin 1536))).trans ?_
  rw [pre_arg W main_arg3 (by decide) (by decide), pre_arg W main_arg5 (by decide) (by decide),
    pre_arg W main_arg7 (by decide) (by decide)]
  refine (truncf_apply (φ := .f32) (ψ := .bf16) _ bitsLt_bf16_f32 _).trans ?_
  refine concatenate_apply_piece (t := S512x1536) (1 : Fin 2) _ _ _ 1 ?_ S512x512 _ ?_ ?_ 512 ?_ (ix2 c d) ?_ ?_
  · show 1 < 3
    omega
  · rfl
  · rfl
  · rfl
  · intro b hb
    match b, hb with
    | ⟨0, _⟩, _ => rfl
    | ⟨1, _⟩, hb => exact absurd rfl hb
  · rfl

/-- The value columns of the fused weight matrix are the value weights. -/
theorem v24_v (W : Val) (c d : Fin 512) :
    (A3 W) (Proc.devRef .tc main_v24) (ix2 c (⟨1024 + d.val, by omega⟩ : Fin 1536))
      = W (Proc.devRef .tc main_arg7) (ix2 c d) := by
  refine (congrFun (v24_stretch _) (ix2 c (⟨1024 + d.val, by omega⟩ : Fin 1536))).trans ?_
  rw [pre_arg W main_arg3 (by decide) (by decide), pre_arg W main_arg5 (by decide) (by decide),
    pre_arg W main_arg7 (by decide) (by decide)]
  refine (truncf_apply (φ := .f32) (ψ := .bf16) _ bitsLt_bf16_f32 _).trans ?_
  refine concatenate_apply_piece (t := S512x1536) (1 : Fin 2) _ _ _ 2 ?_ S512x512 _ ?_ ?_ 1024 ?_ (ix2 c d) ?_ ?_
  · show 2 < 3
    omega
  · rfl
  · rfl
  · rfl
  · intro b hb
    match b, hb with
    | ⟨0, _⟩, _ => rfl
    | ⟨1, _⟩, hb => exact absurd rfl hb
  · rfl

theorem v25_stretch (V : Val) :
    (StableHlo.after hostOps0_2 V (Proc.devRef .tc main_v25) : S1x1536.Idx → EReal)
      = shapeCast S1x1536 (concatenate S1536 0
          [⟨S512, (V (Proc.devRef .tc main_arg4) : S512.Idx → EReal)⟩,
           ⟨S512, (V (Proc.devRef .tc main_arg6) : S512.Idx → EReal)⟩,
           ⟨S512, (V (Proc.devRef .tc main_arg8) : S512.Idx → EReal)⟩]
          concatenates_S512_S512_S512_S1536_d0 : S1536.Idx → EReal) shapeCasts_S1536_S1x1536 := by
  dsimp only [hostOps0_2]
  after_results
  rfl

/-- The first 512 entries of the fused bias row are the query bias. -/
theorem v25_q (W : Val) (d : Fin 512) :
    (A3 W) (Proc.devRef .tc main_v25) (ix2 (0 : Fin 1) (⟨0 + d.val, by omega⟩ : Fin 1536))
      = W (Proc.devRef .tc main_arg4) (ix1 d) := by
  refine (congrFun (v25_stretch _) (ix2 (0 : Fin 1) (⟨0 + d.val, by omega⟩ : Fin 1536))).trans ?_
  rw [pre_arg W main_arg4 (by decide) (by decide), pre_arg W main_arg6 (by decide) (by decide),
    pre_arg W main_arg8 (by decide) (by decide)]
  refine (shapeCast_a_1a_apply _ _ (0 : Fin 1) (⟨0 + d.val, by omega⟩ : Fin 1536)).trans ?_
  refine concatenate_apply_piece (t := S1536) (0 : Fin 1) _ _ _ 0 ?_ S512 _ ?_ ?_ 0 ?_ (ix1 d) ?_ ?_
  · show 0 < 3
    omega
  · rfl
  · rfl
  · rfl
  · intro b hb
    match b, hb with
    | ⟨0, _⟩, hb => exact absurd rfl hb
  · rfl

/-- The next 512 entries of the fused bias row are the key bias. -/
theorem v25_k (W : Val) (d : Fin 512) :
    (A3 W) (Proc.devRef .tc main_v25) (ix2 (0 : Fin 1) (⟨512 + d.val, by omega⟩ : Fin 1536))
      = W (Proc.devRef .tc main_arg6) (ix1 d) := by
  refine (congrFun (v25_stretch _) (ix2 (0 : Fin 1) (⟨512 + d.val, by omega⟩ : Fin 1536))).trans ?_
  rw [pre_arg W main_arg4 (by decide) (by decide), pre_arg W main_arg6 (by decide) (by decide),
    pre_arg W main_arg8 (by decide) (by decide)]
  refine (shapeCast_a_1a_apply _ _ (0 : Fin 1) (⟨512 + d.val, by omega⟩ : Fin 1536)).trans ?_
  refine concatenate_apply_piece (t := S1536) (0 : Fin 1) _ _ _ 1 ?_ S512 _ ?_ ?_ 512 ?_ (ix1 d) ?_ ?_
  · show 1 < 3
    omega
  · rfl
  · rfl
  · rfl
  · intro b hb
    match b, hb with
    | ⟨0, _⟩, hb => exact absurd rfl hb
  · rfl

/-- The last 512 entries of the fused bias row are the value bias. -/
theorem v25_v (W : Val) (d : Fin 512) :
    (A3 W) (Proc.devRef .tc main_v25) (ix2 (0 : Fin 1) (⟨1024 + d.val, by omega⟩ : Fin 1536))
      = W (Proc.devRef .tc main_arg8) (ix1 d) := by
  refine (congrFun (v25_stretch _) (ix2 (0 : Fin 1) (⟨1024 + d.val, by omega⟩ : Fin 1536))).trans ?_
  rw [pre_arg W main_arg4 (by decide) (by decide), pre_arg W main_arg6 (by decide) (by decide),
    pre_arg W main_arg8 (by decide) (by decide)]
  refine (shapeCast_a_1a_apply _ _ (0 : Fin 1) (⟨1024 + d.val, by omega⟩ : Fin 1536)).trans ?_
  refine concatenate_apply_piece (t := S1536) (0 : Fin 1) _ _ _ 2 ?_ S512 _ ?_ ?_ 1024 ?_ (ix1 d) ?_ ?_
  · show 2 < 3
    omega
  · rfl
  · rfl
  · rfl
  · intro b hb
    match b, hb with
    | ⟨0, _⟩, hb => exact absurd rfl hb
  · rfl

/-! ## Between the two kernels -/

theorem v27_stretch (V : Val) :
    (StableHlo.after hostOps1 V (Proc.devRef .tc main_v27) : S512x512.Idx → EReal)
      = (truncf .bf16 (V (Proc.devRef .tc main_arg9) : FVec Ideal S512x512 .f32) bitsLt_bf16_f32
          : FVec Ideal S512x512 .bf16) := by
  dsimp only [hostOps1]
  after_results

/-- The output projection's weights are narrowed, which changes no extended real. -/
theorem v27_at (V : Val) (c d : Fin 512) :
    StableHlo.after hostOps1 V (Proc.devRef .tc main_v27) (ix2 c d) = V (Proc.devRef .tc main_arg9) (ix2 c d) :=
  congrFun (v27_stretch V) (ix2 c d)

theorem v28_stretch (V : Val) :
    (StableHlo.after hostOps1 V (Proc.devRef .tc main_v28) : S1x512.Idx → EReal)
      = shapeCast S1x512 (V (Proc.devRef .tc main_arg10) : S512.Idx → EReal) shapeCasts_S512_S1x512 := by
  dsimp only [hostOps1]
  after_results
  rfl

/-- The output projection's bias as a row. -/
theorem v28_at (V : Val) (d : Fin 512) :
    StableHlo.after hostOps1 V (Proc.devRef .tc main_v28) (ix2 (0 : Fin 1) d)
      = V (Proc.devRef .tc main_arg10) (ix1 d) :=
  (congrFun (v28_stretch V) (ix2 (0 : Fin 1) d)).trans (shapeCast_a_1a_apply _ _ (0 : Fin 1) d)

/-- The stretch between the kernels writes only the narrowed weights and the bias row. -/
theorem hostOps1_keeps (V : Val) (r : Ref sig .tc) (h : r ∉ (hostOps1_W : List (Ref sig .tc))) :
    StableHlo.after hostOps1 V (Proc.devRef .tc r) = V (Proc.devRef .tc r) :=
  StableHlo.after_of_writes_sub hostOps1 _ hostOps1_writes h

theorem hostOps1_v26_0 (V : Val) :
    StableHlo.after hostOps1 V (Proc.devRef .tc main_v26_0) = V (Proc.devRef .tc main_v26_0) :=
  hostOps1_keeps V main_v26_0 (by decide)
theorem hostOps1_v26_1 (V : Val) :
    StableHlo.after hostOps1 V (Proc.devRef .tc main_v26_1) = V (Proc.devRef .tc main_v26_1) :=
  hostOps1_keeps V main_v26_1 (by decide)
theorem hostOps1_v26_2 (V : Val) :
    StableHlo.after hostOps1 V (Proc.devRef .tc main_v26_2) = V (Proc.devRef .tc main_v26_2) :=
  hostOps1_keeps V main_v26_2 (by decide)
theorem hostOps1_v21 (V : Val) :
    StableHlo.after hostOps1 V (Proc.devRef .tc main_v21) = V (Proc.devRef .tc main_v21) :=
  hostOps1_keeps V main_v21 (by decide)

/-! ## After the second kernel -/

theorem v30_stretch (V : Val) :
    (StableHlo.after hostOps2 V (Proc.devRef .tc main_v30) : S4x64x64x512.Idx → EReal)
      = shapeCast S4x64x64x512 (V (Proc.devRef .tc main_v29) : S4x4096x512.Idx → EReal)
          shapeCasts_S4x4096x512_S4x64x64x512 := by
  dsimp only [hostOps2]
  after_results
  rfl

/-- The result is the second kernel's token-major output read pixel by pixel. -/
theorem v30_at (V : Val) (b : Fin 4) (h w : Fin 64) (c : Fin 512) :
    StableHlo.after hostOps2 V (Proc.devRef .tc main_v30) (ix4 b h w c)
      = V (Proc.devRef .tc main_v29) (ix3 b (Cert.Attn.tok h w) c) := by
  refine (congrFun (v30_stretch V) (ix4 b h w c)).trans ?_
  exact shapeCast_apply _ _ _ _ (by
    show (S4x4096x512.rowMajor (ix3 b (Cert.Attn.tok h w) c)).val = (S4x64x64x512.rowMajor (ix4 b h w c)).val
    rw [Shape.rowMajor_val_four, Shape.rowMajor_val_three]
    show (b.val * 4096 + (h.val * 64 + w.val)) * 512 + c.val = ((b.val * 64 + h.val) * 64 + w.val) * 512 + c.val
    omega)

end Cert.KHost

end
-- ==== Proof.GNRun.lean ====
/-
  The scale and the shift the first kernel reads are the host stage's terms of the launch contents:
  unfolding the host operations of @main (and of the variance function it calls) one by one, the buffers
  %19 and %20 hold a3T and shift3T of the arguments x, gamma, beta.
-/
import proofs.«147553_j25795573579973_2_alg».proof.Proof.GNTerms
import proofs.«147553_j25795573579973_2_alg».proof.Proof.Gen.KernelIdeal.Regions
import Idealize.ShloMosaic.Lib.StableHlo.Run

noncomputable section

namespace Cert.GN

open Idealize.ShloMosaic Idealize.ShloMosaic.TcCoe Idealize.ShloMosaic.StableHlo

section Kernel

open Cert.KernelIdeal Cert.KernelIdeal.Facts₀

variable [Cert.KernelIdeal.Facts]

set_option maxHeartbeats 4000000 in
/-- Buffer %19 before the first kernel holds the scale gamma * r of the launch contents. -/
theorem V3_v19 (m : (ℓ : Loc nD τ sig) → Buf (Elt Ideal) ℓ) (c : Dev nD) :
    (Cert.KernelIdeal.Gen.V3 (F := Ideal) m c main_v19 : (⟨3, ![4, 1, 512]⟩ : Shape).Idx → EReal)
      = a3T (m ((c : Thread nD τ).loc main_arg0)) (m ((c : Thread nD τ).loc main_arg1)) := by
  dsimp only [Cert.KernelIdeal.Gen.V3, Cert.KernelIdeal.Gen.V2, Cert.KernelIdeal.Gen.V1, Cert.KernelIdeal.Gen.V0]
  simp only [Cert.KernelIdeal.Gen.hostOps0, Cert.KernelIdeal.Gen.hostOps0_1, Cert.KernelIdeal.Gen.hostOps0_2]
  after_results
  rfl

set_option maxHeartbeats 4000000 in
/-- Buffer %20 before the first kernel holds the shift beta - mean * (gamma * r) of the launch contents. -/
theorem V3_v20 (m : (ℓ : Loc nD τ sig) → Buf (Elt Ideal) ℓ) (c : Dev nD) :
    (Cert.KernelIdeal.Gen.V3 (F := Ideal) m c main_v20 : (⟨3, ![4, 1, 512]⟩ : Shape).Idx → EReal)
      = shift3T (m ((c : Thread nD τ).loc main_arg0)) (m ((c : Thread nD τ).loc main_arg1))
          (m ((c : Thread nD τ).loc main_arg2)) := by
  dsimp only [Cert.KernelIdeal.Gen.V3, Cert.KernelIdeal.Gen.V2, Cert.KernelIdeal.Gen.V1, Cert.KernelIdeal.Gen.V0]
  simp only [Cert.KernelIdeal.Gen.hostOps0, Cert.KernelIdeal.Gen.hostOps0_1, Cert.KernelIdeal.Gen.hostOps0_2]
  after_results
  rfl

end Kernel

end Cert.GN

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.KVal0.lean ====
/-
  The fused projection kernel's three stored blocks, read at an index on the extended reals.

  A block of 1024 tokens of 512 channels x is first normalised channel by channel, x * a + b, with a and b
  rows of 512; the normalised block is multiplied by a 512 x 1536 weight matrix and a bias row of 1536 is
  added. Columns 0..511, 512..1023 and 1024..1535 of the result are the query, key and value blocks.
  Entry (r, o + d) is therefore  sum_c (x(r,c) * a(c) + b(c)) * w(c, o + d) + bias(o + d),  for o = 0, 512, 1024.
  Narrowing a format is the identity on extended reals.
-/
import proofs.«147553_j25795573579973_2_alg».proof.Proof.Gen.KernelIdeal.Skeleton
import proofs.«147553_j25795573579973_2_alg».proof.Proof.Spec
import proofs.«147553_j25795573579973_2_alg».proof.Proof.LibMatmulNN
import Idealize.ShloMosaic.Lib.ValueLayout

noncomputable section

open scoped BigOperators

namespace Cert.KVal

open Idealize.ShloMosaic Idealize.ShloMosaic.ValueIdx Cert.KernelIdeal

/-- Column `o + d` of a row of 1536, for a block of 512 columns starting at `o`. -/
def col (o : Nat) (d : Fin 512) (h : o + 512 ≤ 1536) : Fin 1536 := ⟨o + d.val, by omega⟩

variable (v0 : Vec Ideal S1x1024x512 .f32) (v2 v6 : Vec Ideal S1x1x512 .f32)
  (v11 : Vec Ideal S512x1536 .bf16) (v14 : Vec Ideal S1x1536 .f32)

/-- Entry (r, q) of the whole 1024 x 1536 product: the normalised row r against column q of the weights, plus the
    bias at q. -/
theorem pay1_apply (r : Fin 1024) (q : Fin 1536) :
    Gen.k0_pay1 (F := Ideal) v0 v2 v6 v11 v14 (ix2 r q)
      = (∑ c : Fin 512, (v0 (ix3 0 r c) * v2 (ix3 0 0 c) + v6 (ix3 0 0 c)) * v11 (ix2 c q))
        + v14 (ix2 (0 : Fin 1) q) := by
  unfold Gen.k0_pay1
  show (_ + _ : EReal) = _
  refine congrArg₂ (· + ·) ?_ ?_
  · refine (Cert.LibMatmulNN.matmul_zero_apply Gen.dot_S1024x512_S512x1536_S1024x1536_1_0_0_1_n_n_wf none _ _ r q).trans ?_
    refine Finset.sum_congr rfl fun c _ => ?_
    refine congrArg₂ (· * ·) ?_ ?_
    · show (_ * _ + _ : EReal) = _
      refine congrArg₂ (· + ·) (congrArg₂ (· * ·) ?_ ?_) ?_
      · exact shapeCast_1ab_ab_apply v0 _ r c
      · exact (broadcastTo_1b_ab_apply _ _ r c).trans (shapeCast_1ab_ab_apply v2 _ 0 c)
      · exact (broadcastTo_1b_ab_apply _ _ r c).trans (shapeCast_1ab_ab_apply v6 _ 0 c)
    · exact congrFun (shapeCast_self v11 _) (ix2 c q)
  · exact (broadcastTo_1b_ab_apply _ _ r q).trans (congrFun (shapeCast_self v14 _) _)

/-- The query block: columns 0..511. -/
theorem k0_q (r : Fin 1024) (d : Fin 512) :
    Gen.k0_pay2 (F := Ideal) v0 v2 v6 v11 v14 (ix3 (0 : Fin 1) r d)
      = (∑ c : Fin 512, (v0 (ix3 0 r c) * v2 (ix3 0 0 c) + v6 (ix3 0 0 c)) * v11 (ix2 c (col 0 d (by decide))))
        + v14 (ix2 (0 : Fin 1) (col 0 d (by decide))) := by
  unfold Gen.k0_pay2
  refine (shapeCast_ab_1ab_apply _ _ 0 r d).trans ?_
  refine (slice2_axis1_apply 0 _ _ r d (col 0 d (by decide)) rfl).trans ?_
  exact pay1_apply v0 v2 v6 v11 v14 r _

/-- The key block: columns 512..1023. -/
theorem k0_k (r : Fin 1024) (d : Fin 512) :
    Gen.k0_pay3 (F := Ideal) v0 v2 v6 v11 v14 (ix3 (0 : Fin 1) r d)
      = (∑ c : Fin 512, (v0 (ix3 0 r c) * v2 (ix3 0 0 c) + v6 (ix3 0 0 c)) * v11 (ix2 c (col 512 d (by decide))))
        + v14 (ix2 (0 : Fin 1) (col 512 d (by decide))) := by
  unfold Gen.k0_pay3
  refine (shapeCast_ab_1ab_apply _ _ 0 r d).trans ?_
  refine (slice2_axis1_apply 512 _ _ r d (col 512 d (by decide)) rfl).trans ?_
  exact pay1_apply v0 v2 v6 v11 v14 r _

/-- The value block: columns 1024..1535. -/
theorem k0_v (r : Fin 1024) (d : Fin 512) :
    Gen.k0_pay4 (F := Ideal) v0 v2 v6 v11 v14 (ix3 (0 : Fin 1) r d)
      = (∑ c : Fin 512, (v0 (ix3 0 r c) * v2 (ix3 0 0 c) + v6 (ix3 0 0 c)) * v11 (ix2 c (col 1024 d (by decide))))
        + v14 (ix2 (0 : Fin 1) (col 1024 d (by decide))) := by
  unfold Gen.k0_pay4
  refine (shapeCast_ab_1ab_apply _ _ 0 r d).trans ?_
  refine (slice2_axis1_apply 1024 _ _ r d (col 1024 d (by decide)) rfl).trans ?_
  exact pay1_apply v0 v2 v6 v11 v14 r _

end Cert.KVal

end
-- ==== Proof.KFinal0.lean ====
/-
  The projection region's three output arrays as functions of the arrays the region reads, index by index.

  The region runs over a 4 x 4 grid: point (b, g) reads the block of 1024 token rows 1024 g .. 1024 g + 1023 of batch b
  of the activations, the scale row and the shift row of batch b, the whole 512 x 1536 weight matrix and the whole bias
  row of 1536, and writes back, for each of the query, key and value arrays, the block of 1024 rows at the same place.
  The blocks tile each output array, so the array ends holding, at (b, n, d), the normalised row n of batch b
  against column o + d of the weights plus the bias at o + d, with o = 0, 512, 1024 for queries, keys and values.
-/
import proofs.«147553_j25795573579973_2_alg».proof.Proof.FrameKI
import proofs.«147553_j25795573579973_2_alg».proof.Proof.KVal0
import proofs.«147553_j25795573579973_2_alg».proof.Proof.Spec
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The five arrays the region reads, as the region finds them, as functions of an index on the extended reals:
    the token-major activations, the per-batch scale and shift rows, the fused weight matrix and the fused bias row. -/
abbrev inX0 (c : Dev nD) : S4x4096x512.Idx → EReal := V c main_v21
abbrev inA0 (c : Dev nD) : S4x1x512.Idx → EReal := V c main_v19
abbrev inS0 (c : Dev nD) : S4x1x512.Idx → EReal := V c main_v20
abbrev inW0 (c : Dev nD) : S512x1536.Idx → EReal := V c main_v24
abbrev inB0 (c : Dev nD) : S1x1536.Idx → EReal := V c main_v25

/-- What an output array ends holding at (b, n, d), for the block of 512 columns starting at o: the normalised row n
    of batch b against column o + d of the weights, plus the bias at o + d. -/
def G0 (o : Nat) (ho : o + 512 ≤ 1536) (c : Dev nD) : Fin 4 → Fin 4096 → Fin 512 → EReal := fun b n d =>
  (∑ ch : Fin 512, (inX0 V c (ix3 b n ch) * inA0 V c (ix3 b (0 : Fin 1) ch) + inS0 V c (ix3 b (0 : Fin 1) ch))
      * inW0 V c (ix2 ch (Cert.KVal.col o d ho)))
    + inB0 V c (ix2 (0 : Fin 1) (Cert.KVal.col o d ho))

/-- The formula on five blocks is the formula on the arrays, when the blocks are the arrays' blocks at batch b and
    row n. -/
theorem G0_of_blocks (o : Nat) (ho : o + 512 ≤ 1536) (c : Dev nD)
    (x0 : Vec Ideal S1x1024x512 .f32) (x1 x2 : Vec Ideal S1x1x512 .f32) (x3 : Vec Ideal S512x1536 .bf16)
    (x4 : Vec Ideal S1x1536 .f32) (b : Fin 4) (n : Fin 4096) (r : Fin 1024) (d : Fin 512)
    (h0 : ∀ ch : Fin 512, x0 (ix3 0 r ch) = inX0 V c (ix3 b n ch))
    (h1 : ∀ ch : Fin 512, x1 (ix3 0 0 ch) = inA0 V c (ix3 b (0 : Fin 1) ch))
    (h2 : ∀ ch : Fin 512, x2 (ix3 0 0 ch) = inS0 V c (ix3 b (0 : Fin 1) ch))
    (h3 : ∀ (ch : Fin 512) (q : Fin 1536), x3 (ix2 ch q) = inW0 V c (ix2 ch q))
    (h4 : ∀ q : Fin 1536, x4 (ix2 (0 : Fin 1) q) = inB0 V c (ix2 (0 : Fin 1) q)) :
    (∑ ch : Fin 512, (x0 (ix3 0 r ch) * x1 (ix3 0 0 ch) + x2 (ix3 0 0 ch)) * x3 (ix2 ch (Cert.KVal.col o d ho)))
        + x4 (ix2 (0 : Fin 1) (Cert.KVal.col o d ho)) = G0 V o ho c b n d := by
  unfold G0
  simp only [h0, h1, h2, h3, h4]

/-! ## The index maps over the grid -/

theorem hz3_r0 : (![0, 0, 0] : Fin 3 → Nat) = fun _ => 0 := funext fun a => by fin_cases a <;> rfl
theorem hz2_r0 : (![0, 0] : Fin 2 → Nat) = fun _ => 0 := funext fun a => by fin_cases a <;> rfl

/-! ## Output window 5: the queries -/

/-- The printed index maps, decided over the grid: the activations' block sits where the output's block sits, the scale
    and shift rows are those of the output block's batch, the weights and the bias are whole, and the output's block
    indices stay in their ranges. -/
theorem idx_facts0_5 : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0
    ∧ win0_1.index t (2 : Fin 3) = 0
    ∧ win0_2.index t (0 : Fin 3) = win0_5.index t (0 : Fin 3) ∧ win0_2.index t (1 : Fin 3) = 0
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 3 ∧ win0_5.index t (1 : Fin 3) ≤ 3 ∧ win0_5.index t (2 : Fin 3) = 0 :=
  (by decide +kernel : ∀ t : Fin grid0.N, _)

/-- Every block of the output array is SOME point's. -/
theorem idx_onto0_5 : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- WHAT POINT t WRITES BACK is block t of the formula of the arrays as the region finds them. -/
theorem flushed0_5_eq (c : Dev nD) (t : Fin cfg0.N) :
    (dat0 (F := Ideal) V c).flushed 5 t
      = ((cfg0.win 5).blk t).view.read (Elt Ideal)
          (fun i : S4x4096x512.Idx => G0 V 0 (by decide) c (i 0) (i 1) (i 2)) := by
  show (cfg0.win 5).cut (grid0.coords t) ((dat0 (F := Ideal) V c).after 5 t) = _
  rw [after0_5]
  unfold out0_5
  rw [View.canon_unit_zero hz3_r0]
  simp only [View.ld_unit_zero (S := S1x1024x512) hz3_r0, View.ld_unit_zero (S := S1x1x512) hz3_r0,
    View.ld_unit_zero (S := S512x1536) hz2_r0, View.ld_unit_zero (S := S1x1536) hz2_r0]
  obtain ⟨e00, e01, e02, e10, e11, e12, e20, e21, e22, e30, e31, e40, e41, b0, b1, e52⟩ := idx_facts0_5 t
  funext j
  obtain ⟨u, r, d, rfl⟩ : ∃ (u : Fin 1) (r : Fin 1024) (d : Fin 512), j = ix3 u r d := ⟨j 0, j 1, j 2, eq_ix3 j⟩
  obtain rfl : u = 0 := Subsingleton.elim _ _
  have hr : r.val < 1024 := r.isLt
  have hd : d.val < 512 := d.isLt
  refine ((Cert.KVal.k0_q (iblk0 V c 0 t) (iblk0 V c 1 t) (iblk0 V c 2 t) (iblk0 V c 3 t) (iblk0 V c 4 t) r d).trans
    (G0_of_blocks V 0 (by decide) c (iblk0 V c 0 t) (iblk0 V c 1 t) (iblk0 V c 2 t) (iblk0 V c 3 t) (iblk0 V c 4 t)
      ⟨win0_5.index t (0 : Fin 3), by omega⟩ ⟨win0_5.index t (1 : Fin 3) * 1024 + r.val, by omega⟩ r d
      ?_ ?_ ?_ ?_ ?_)).trans ?_
  · intro ch
    show inX0 V c (((cfg0.win 0).blk t).view.emb (ix3 (0 : Fin 1) r ch)) = _
    refine congrArg _ (funext fun a => Fin.ext ?_)
    match a with
    | ⟨0, _⟩ => show win0_0.index t (0 : Fin 3) * 1 + 1 * 0 = win0_5.index t (0 : Fin 3); omega
    | ⟨1, _⟩ => show win0_0.index t (1 : Fin 3) * 1024 + 1 * r.val = win0_5.index t (1 : Fin 3) * 1024 + r.val; omega
    | ⟨2, _⟩ => show win0_0.index t (2 : Fin 3) * 512 + 1 * ch.val = ch.val; omega
  · intro ch
    show inA0 V c (((cfg0.win 1).blk t).view.emb (ix3 (0 : Fin 1) (0 : Fin 1) ch)) = _
    refine congrArg _ (funext fun a => Fin.ext ?_)
    match a with
    | ⟨0, _⟩ => show win0_1.index t (0 : Fin 3) * 1 + 1 * 0 = win0_5.index t (0 : Fin 3); omega
    | ⟨1, _⟩ => show win0_1.index t (1 : Fin 3) * 1 + 1 * 0 = 0; omega
    | ⟨2, _⟩ => show win0_1.index t (2 : Fin 3) * 512 + 1 * ch.val = ch.val; omega
  · intro ch
    show inS0 V c (((cfg0.win 2).blk t).view.emb (ix3 (0 : Fin 1) (0 : Fin 1) ch)) = _
    refine congrArg _ (funext fun a => Fin.ext ?_)
    match a with
    | ⟨0, _⟩ => show win0_2.index t (0 : Fin 3) * 1 + 1 * 0 = win0_5.index t (0 : Fin 3); omega
    | ⟨1, _⟩ => show win0_2.index t (1 : Fin 3) * 1 + 1 * 0 = 0; omega
    | ⟨2, _⟩ => show win0_2.index t (2 : Fin 3) * 512 + 1 * ch.val = ch.val; omega
  · intro ch q
    show inW0 V c (((cfg0.win 3).blk t).view.emb (ix2 ch q)) = _
    refine congrArg _ (funext fun a => Fin.ext ?_)
    match a with
    | ⟨0, _⟩ => show win0_3.index t (0 : Fin 2) * 512 + 1 * ch.val = ch.val; omega
    | ⟨1, _⟩ => show win0_3.index t (1 : Fin 2) * 1536 + 1 * q.val = q.val; omega
  · intro q
    show inB0 V c (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 1536 + 1 * q.val = q.val; omega
  · have hB : (⟨win0_5.index t (0 : Fin 3), by omega⟩ : Fin 4) = ((cfg0.win 5).blk t).view.emb (ix3 (0 : Fin 1) r d) 0 :=
      Fin.ext (by show win0_5.index t (0 : Fin 3) = win0_5.index t (0 : Fin 3) * 1 + 1 * 0; omega)
    have hI : (⟨win0_5.index t (1 : Fin 3) * 1024 + r.val, by omega⟩ : Fin 4096)
        = ((cfg0.win 5).blk t).view.emb (ix3 (0 : Fin 1) r d) 1 :=
      Fin.ext (by show win0_5.index t (1 : Fin 3) * 1024 + r.val = win0_5.index t (1 : Fin 3) * 1024 + 1 * r.val; omega)
    have hD : d = ((cfg0.win 5).blk t).view.emb (ix3 (0 : Fin 1) r d) 2 :=
      Fin.ext (by show d.val = win0_5.index t (2 : Fin 3) * 512 + 1 * d.val; omega)
    exact congr (congr (congrArg (G0 V 0 (by decide) c) hB) hI) hD

/-- An index of the array is in point t's block iff each coordinate is in the block's range on its axis. -/
theorem mem_blk0_5 (t : Fin cfg0.N) (i : S4x4096x512.Idx) :
    i ∈ ((cfg0.win 5).blk t).view.set ↔ ∀ a : Fin 3, win0_5.index t a * S1x1024x512.size a ≤ (i a).val
      ∧ (i a).val < win0_5.index t a * S1x1024x512.size a + S1x1024x512.size a := by
  show i ∈ ((View.whole main_v26_0).slice (win0_5.rect t)).set ↔ _
  rw [View.set_slice_whole, Rect.mem_set_unit]
  exact Iff.rfl

/-- Every index of the output array is in some point's block: the point of its batch and of its row divided by 1024. -/
theorem covered0_5 (i : S4x4096x512.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 512 := (i 2).isLt
  obtain ⟨t, ht⟩ := idx_onto0_5 ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk0_5]
  intro a
  match a with
  | ⟨0, _⟩ =>
    show win0_5.index t (0 : Fin 3) * 1 ≤ (i 0).val ∧ (i 0).val < win0_5.index t (0 : Fin 3) * 1 + 1; omega
  | ⟨1, _⟩ =>
    show win0_5.index t (1 : Fin 3) * 1024 ≤ (i 1).val ∧ (i 1).val < win0_5.index t (1 : Fin 3) * 1024 + 1024; omega
  | ⟨2, _⟩ =>
    show win0_5.index t (2 : Fin 3) * 512 ≤ (i 2).val ∧ (i 2).val < win0_5.index t (2 : Fin 3) * 512 + 512; omega

/-- THE ARRAY after the region: the formula of the arrays as the region finds them, at every index. -/
theorem final0_5 (c : Dev nD) :
    (dat0 (F := Ideal) V c).arrAt 5 cfg0.N = fun i : S4x4096x512.Idx => G0 V 0 (by decide) c (i 0) (i 1) (i 2) :=
  (dat0 (F := Ideal) V c).arrAt_eq_of_cover 5 _ (fun t _ => flushed0_5_eq V c t) covered0_5

/-! ## Output window 6: the keys -/

/-- The printed index maps, decided over the grid: the activations' block sits where the output's block sits, the scale
    and shift rows are those of the output block's batch, the weights and the bias are whole, and the output's block
    indices stay in their ranges. -/
theorem idx_facts0_6 : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = 0
    ∧ win0_1.index t (2 : Fin 3) = 0
    ∧ win0_2.index t (0 : Fin 3) = win0_6.index t (0 : Fin 3) ∧ win0_2.index t (1 : Fin 3) = 0
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 3) ≤ 3 ∧ win0_6.index t (1 : Fin 3) ≤ 3 ∧ win0_6.index t (2 : Fin 3) = 0 :=
  (by decide +kernel : ∀ t : Fin grid0.N, _)

/-- Every block of the output array is SOME point's. -/
theorem idx_onto0_6 : ∀ (q0 : Fin 4) (q1 : Fin 4), ∃ t : Fin cfg0.N, win0_6.index t = ![q0.val, q1.val, 0] :=
  (by decide +kernel : ∀ (q0 : Fin 4) (q1 : Fin 4), ∃ t : Fin grid0.N, win0_6.index t = ![q0.val, q1.val, 0])

/-- WHAT POINT t WRITES BACK is block t of the formula of the arrays as the region finds them. -/
theorem flushed0_6_eq (c : Dev nD) (t : Fin cfg0.N) :
    (dat0 (F := Ideal) V c).flushed 6 t
      = ((cfg0.win 6).blk t).view.read (Elt Ideal)
          (fun i : S4x4096x512.Idx => G0 V 512 (by decide) c (i 0) (i 1) (i 2)) := by
  show (cfg0.win 6).cut (grid0.coords t) ((dat0 (F := Ideal) V c).after 6 t) = _
  rw [after0_6]
  unfold out0_6
  rw [View.canon_unit_zero hz3_r0]
  simp only [View.ld_unit_zero (S := S1x1024x512) hz3_r0, View.ld_unit_zero (S := S1x1x512) hz3_r0,
    View.ld_unit_zero (S := S512x1536) hz2_r0, View.ld_unit_zero (S := S1x1536) hz2_r0]
  obtain ⟨e00, e01, e02, e10, e11, e12, e20, e21, e22, e30, e31, e40, e41, b0, b1, e52⟩ := idx_facts0_6 t
  funext j
  obtain ⟨u, r, d, rfl⟩ : ∃ (u : Fin 1) (r : Fin 1024) (d : Fin 512), j = ix3 u r d := ⟨j 0, j 1, j 2, eq_ix3 j⟩
  obtain rfl : u = 0 := Subsingleton.elim _ _
  have hr : r.val < 1024 := r.isLt
  have hd : d.val < 512 := d.isLt
  refine ((Cert.KVal.k0_k (iblk0 V c 0 t) (iblk0 V c 1 t) (iblk0 V c 2 t) (iblk0 V c 3 t) (iblk0 V c 4 t) r d).trans
    (G0_of_blocks V 512 (by decide) c (iblk0 V c 0 t) (iblk0 V c 1 t) (iblk0 V c 2 t) (iblk0 V c 3 t) (iblk0 V c 4 t)
      ⟨win0_6.index t (0 : Fin 3), by omega⟩ ⟨win0_6.index t (1 : Fin 3) * 1024 + r.val, by omega⟩ r d
      ?_ ?_ ?_ ?_ ?_)).trans ?_
  · intro ch
    show inX0 V c (((cfg0.win 0).blk t).view.emb (ix3 (0 : Fin 1) r ch)) = _
    refine congrArg _ (funext fun a => Fin.ext ?_)
    match a with
    | ⟨0, _⟩ => show win0_0.index t (0 : Fin 3) * 1 + 1 * 0 = win0_6.index t (0 : Fin 3); omega
    | ⟨1, _⟩ => show win0_0.index t (1 : Fin 3) * 1024 + 1 * r.val = win0_6.index t (1 : Fin 3) * 1024 + r.val; omega
    | ⟨2, _⟩ => show win0_0.index t (2 : Fin 3) * 512 + 1 * ch.val = ch.val; omega
  · intro ch
    show inA0 V c (((cfg0.win 1).blk t).view.emb (ix3 (0 : Fin 1) (0 : Fin 1) ch)) = _
    refine congrArg _ (funext fun a => Fin.ext ?_)
    match a with
    | ⟨0, _⟩ => show win0_1.index t (0 : Fin 3) * 1 + 1 * 0 = win0_6.index t (0 : Fin 3); omega
    | ⟨1, _⟩ => show win0_1.index t (1 : Fin 3) * 1 + 1 * 0 = 0; omega
    | ⟨2, _⟩ => show win0_1.index t (2 : Fin 3) * 512 + 1 * ch.val = ch.val; omega
  · intro ch
    show inS0 V c (((cfg0.win 2).blk t).view.emb (ix3 (0 : Fin 1) (0 : Fin 1) ch)) = _
    refine congrArg _ (funext fun a => Fin.ext ?_)
    match a with
    | ⟨0, _⟩ => show win0_2.index t (0 : Fin 3) * 1 + 1 * 0 = win0_6.index t (0 : Fin 3); omega
    | ⟨1, _⟩ => show win0_2.index t (1 : Fin 3) * 1 + 1 * 0 = 0; omega
    | ⟨2, _⟩ => show win0_2.index t (2 : Fin 3) * 512 + 1 * ch.val = ch.val; omega
  · intro ch q
    show inW0 V c (((cfg0.win 3).blk t).view.emb (ix2 ch q)) = _
    refine congrArg _ (funext fun a => Fin.ext ?_)
    match a with
    | ⟨0, _⟩ => show win0_3.index t (0 : Fin 2) * 512 + 1 * ch.val = ch.val; omega
    | ⟨1, _⟩ => show win0_3.index t (1 : Fin 2) * 1536 + 1 * q.val = q.val; omega
  · intro q
    show inB0 V c (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 1536 + 1 * q.val = q.val; omega
  · have hB : (⟨win0_6.index t (0 : Fin 3), by omega⟩ : Fin 4) = ((cfg0.win 6).blk t).view.emb (ix3 (0 : Fin 1) r d) 0 :=
      Fin.ext (by show win0_6.index t (0 : Fin 3) = win0_6.index t (0 : Fin 3) * 1 + 1 * 0; omega)
    have hI : (⟨win0_6.index t (1 : Fin 3) * 1024 + r.val, by omega⟩ : Fin 4096)
        = ((cfg0.win 6).blk t).view.emb (ix3 (0 : Fin 1) r d) 1 :=
      Fin.ext (by show win0_6.index t (1 : Fin 3) * 1024 + r.val = win0_6.index t (1 : Fin 3) * 1024 + 1 * r.val; omega)
    have hD : d = ((cfg0.win 6).blk t).view.emb (ix3 (0 : Fin 1) r d) 2 :=
      Fin.ext (by show d.val = win0_6.index t (2 : Fin 3) * 512 + 1 * d.val; omega)
    exact congr (congr (congrArg (G0 V 512 (by decide) c) hB) hI) hD

/-- An index of the array is in point t's block iff each coordinate is in the block's range on its axis. -/
theorem mem_blk0_6 (t : Fin cfg0.N) (i : S4x4096x512.Idx) :
    i ∈ ((cfg0.win 6).blk t).view.set ↔ ∀ a : Fin 3, win0_6.index t a * S1x1024x512.size a ≤ (i a).val
      ∧ (i a).val < win0_6.index t a * S1x1024x512.size a + S1x1024x512.size a := by
  show i ∈ ((View.whole main_v26_1).slice (win0_6.rect t)).set ↔ _
  rw [View.set_slice_whole, Rect.mem_set_unit]
  exact Iff.rfl

/-- Every index of the output array is in some point's block: the point of its batch and of its row divided by 1024. -/
theorem covered0_6 (i : S4x4096x512.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 512 := (i 2).isLt
  obtain ⟨t, ht⟩ := idx_onto0_6 ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk0_6]
  intro a
  match a with
  | ⟨0, _⟩ =>
    show win0_6.index t (0 : Fin 3) * 1 ≤ (i 0).val ∧ (i 0).val < win0_6.index t (0 : Fin 3) * 1 + 1; omega
  | ⟨1, _⟩ =>
    show win0_6.index t (1 : Fin 3) * 1024 ≤ (i 1).val ∧ (i 1).val < win0_6.index t (1 : Fin 3) * 1024 + 1024; omega
  | ⟨2, _⟩ =>
    show win0_6.index t (2 : Fin 3) * 512 ≤ (i 2).val ∧ (i 2).val < win0_6.index t (2 : Fin 3) * 512 + 512; omega

/-- THE ARRAY after the region: the formula of the arrays as the region finds them, at every index. -/
theorem final0_6 (c : Dev nD) :
    (dat0 (F := Ideal) V c).arrAt 6 cfg0.N = fun i : S4x4096x512.Idx => G0 V 512 (by decide) c (i 0) (i 1) (i 2) :=
  (dat0 (F := Ideal) V c).arrAt_eq_of_cover 6 _ (fun t _ => flushed0_6_eq V c t) covered0_6

/-! ## Output window 7: the values -/

/-- The printed index maps, decided over the grid: the activations' block sits where the output's block sits, the scale
    and shift rows are those of the output block's batch, the weights and the bias are whole, and the output's block
    indices stay in their ranges. -/
theorem idx_facts0_7 : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = 0
    ∧ win0_1.index t (2 : Fin 3) = 0
    ∧ win0_2.index t (0 : Fin 3) = win0_7.index t (0 : Fin 3) ∧ win0_2.index t (1 : Fin 3) = 0
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_7.index t (0 : Fin 3) ≤ 3 ∧ win0_7.index t (1 : Fin 3) ≤ 3 ∧ win0_7.index t (2 : Fin 3) = 0 :=
  (by decide +kernel : ∀ t : Fin grid0.N, _)

/-- Every block of the output array is SOME point's. -/
theorem idx_onto0_7 : ∀ (q0 : Fin 4) (q1 : Fin 4), ∃ t : Fin cfg0.N, win0_7.index t = ![q0.val, q1.val, 0] :=
  (by decide +kernel : ∀ (q0 : Fin 4) (q1 : Fin 4), ∃ t : Fin grid0.N, win0_7.index t = ![q0.val, q1.val, 0])

/-- WHAT POINT t WRITES BACK is block t of the formula of the arrays as the region finds them. -/
theorem flushed0_7_eq (c : Dev nD) (t : Fin cfg0.N) :
    (dat0 (F := Ideal) V c).flushed 7 t
      = ((cfg0.win 7).blk t).view.read (Elt Ideal)
          (fun i : S4x4096x512.Idx => G0 V 1024 (by decide) c (i 0) (i 1) (i 2)) := by
  show (cfg0.win 7).cut (grid0.coords t) ((dat0 (F := Ideal) V c).after 7 t) = _
  rw [after0_7]
  unfold out0_7
  rw [View.canon_unit_zero hz3_r0]
  simp only [View.ld_unit_zero (S := S1x1024x512) hz3_r0, View.ld_unit_zero (S := S1x1x512) hz3_r0,
    View.ld_unit_zero (S := S512x1536) hz2_r0, View.ld_unit_zero (S := S1x1536) hz2_r0]
  obtain ⟨e00, e01, e02, e10, e11, e12, e20, e21, e22, e30, e31, e40, e41, b0, b1, e52⟩ := idx_facts0_7 t
  funext j
  obtain ⟨u, r, d, rfl⟩ : ∃ (u : Fin 1) (r : Fin 1024) (d : Fin 512), j = ix3 u r d := ⟨j 0, j 1, j 2, eq_ix3 j⟩
  obtain rfl : u = 0 := Subsingleton.elim _ _
  have hr : r.val < 1024 := r.isLt
  have hd : d.val < 512 := d.isLt
  refine ((Cert.KVal.k0_v (iblk0 V c 0 t) (iblk0 V c 1 t) (iblk0 V c 2 t) (iblk0 V c 3 t) (iblk0 V c 4 t) r d).trans
    (G0_of_blocks V 1024 (by decide) c (iblk0 V c 0 t) (iblk0 V c 1 t) (iblk0 V c 2 t) (iblk0 V c 3 t) (iblk0 V c 4 t)
      ⟨win0_7.index t (0 : Fin 3), by omega⟩ ⟨win0_7.index t (1 : Fin 3) * 1024 + r.val, by omega⟩ r d
      ?_ ?_ ?_ ?_ ?_)).trans ?_
  · intro ch
    show inX0 V c (((cfg0.win 0).blk t).view.emb (ix3 (0 : Fin 1) r ch)) = _
    refine congrArg _ (funext fun a => Fin.ext ?_)
    match a with
    | ⟨0, _⟩ => show win0_0.index t (0 : Fin 3) * 1 + 1 * 0 = win0_7.index t (0 : Fin 3); omega
    | ⟨1, _⟩ => show win0_0.index t (1 : Fin 3) * 1024 + 1 * r.val = win0_7.index t (1 : Fin 3) * 1024 + r.val; omega
    | ⟨2, _⟩ => show win0_0.index t (2 : Fin 3) * 512 + 1 * ch.val = ch.val; omega
  · intro ch
    show inA0 V c (((cfg0.win 1).blk t).view.emb (ix3 (0 : Fin 1) (0 : Fin 1) ch)) = _
    refine congrArg _ (funext fun a => Fin.ext ?_)
    match a with
    | ⟨0, _⟩ => show win0_1.index t (0 : Fin 3) * 1 + 1 * 0 = win0_7.index t (0 : Fin 3); omega
    | ⟨1, _⟩ => show win0_1.index t (1 : Fin 3) * 1 + 1 * 0 = 0; omega
    | ⟨2, _⟩ => show win0_1.index t (2 : Fin 3) * 512 + 1 * ch.val = ch.val; omega
  · intro ch
    show inS0 V c (((cfg0.win 2).blk t).view.emb (ix3 (0 : Fin 1) (0 : Fin 1) ch)) = _
    refine congrArg _ (funext fun a => Fin.ext ?_)
    match a with
    | ⟨0, _⟩ => show win0_2.index t (0 : Fin 3) * 1 + 1 * 0 = win0_7.index t (0 : Fin 3); omega
    | ⟨1, _⟩ => show win0_2.index t (1 : Fin 3) * 1 + 1 * 0 = 0; omega
    | ⟨2, _⟩ => show win0_2.index t (2 : Fin 3) * 512 + 1 * ch.val = ch.val; omega
  · intro ch q
    show inW0 V c (((cfg0.win 3).blk t).view.emb (ix2 ch q)) = _
    refine congrArg _ (funext fun a => Fin.ext ?_)
    match a with
    | ⟨0, _⟩ => show win0_3.index t (0 : Fin 2) * 512 + 1 * ch.val = ch.val; omega
    | ⟨1, _⟩ => show win0_3.index t (1 : Fin 2) * 1536 + 1 * q.val = q.val; omega
  · intro q
    show inB0 V c (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 1536 + 1 * q.val = q.val; omega
  · have hB : (⟨win0_7.index t (0 : Fin 3), by omega⟩ : Fin 4) = ((cfg0.win 7).blk t).view.emb (ix3 (0 : Fin 1) r d) 0 :=
      Fin.ext (by show win0_7.index t (0 : Fin 3) = win0_7.index t (0 : Fin 3) * 1 + 1 * 0; omega)
    have hI : (⟨win0_7.index t (1 : Fin 3) * 1024 + r.val, by omega⟩ : Fin 4096)
        = ((cfg0.win 7).blk t).view.emb (ix3 (0 : Fin 1) r d) 1 :=
      Fin.ext (by show win0_7.index t (1 : Fin 3) * 1024 + r.val = win0_7.index t (1 : Fin 3) * 1024 + 1 * r.val; omega)
    have hD : d = ((cfg0.win 7).blk t).view.emb (ix3 (0 : Fin 1) r d) 2 :=
      Fin.ext (by show d.val = win0_7.index t (2 : Fin 3) * 512 + 1 * d.val; omega)
    exact congr (congr (congrArg (G0 V 1024 (by decide) c) hB) hI) hD

/-- An index of the array is in point t's block iff each coordinate is in the block's range on its axis. -/
theorem mem_blk0_7 (t : Fin cfg0.N) (i : S4x4096x512.Idx) :
    i ∈ ((cfg0.win 7).blk t).view.set ↔ ∀ a : Fin 3, win0_7.index t a * S1x1024x512.size a ≤ (i a).val
      ∧ (i a).val < win0_7.index t a * S1x1024x512.size a + S1x1024x512.size a := by
  show i ∈ ((View.whole main_v26_2).slice (win0_7.rect t)).set ↔ _
  rw [View.set_slice_whole, Rect.mem_set_unit]
  exact Iff.rfl

/-- Every index of the output array is in some point's block: the point of its batch and of its row divided by 1024. -/
theorem covered0_7 (i : S4x4096x512.Idx) :
    ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 512 := (i 2).isLt
  obtain ⟨t, ht⟩ := idx_onto0_7 ⟨(i 0).val, hi0⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk0_7]
  intro a
  match a with
  | ⟨0, _⟩ =>
    show win0_7.index t (0 : Fin 3) * 1 ≤ (i 0).val ∧ (i 0).val < win0_7.index t (0 : Fin 3) * 1 + 1; omega
  | ⟨1, _⟩ =>
    show win0_7.index t (1 : Fin 3) * 1024 ≤ (i 1).val ∧ (i 1).val < win0_7.index t (1 : Fin 3) * 1024 + 1024; omega
  | ⟨2, _⟩ =>
    show win0_7.index t (2 : Fin 3) * 512 ≤ (i 2).val ∧ (i 2).val < win0_7.index t (2 : Fin 3) * 512 + 512; omega

/-- THE ARRAY after the region: the formula of the arrays as the region finds them, at every index. -/
theorem final0_7 (c : Dev nD) :
    (dat0 (F := Ideal) V c).arrAt 7 cfg0.N = fun i : S4x4096x512.Idx => G0 V 1024 (by decide) c (i 0) (i 1) (i 2) :=
  (dat0 (F := Ideal) V c).arrAt_eq_of_cover 7 _ (fun t _ => flushed0_7_eq V c t) covered0_7

end Cert.KernelIdeal.Hand

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibRowMax.lean ====
/-
  The row maximum of a rank-2 array read at an index, at the exact extended reals: a general lemma.

  A maximum reduction over axis 1 of an `[a, b]` array, started from the value of a given pattern, is at row `p` the fold
  of `max` from that value over the `b` entries `(p, k)` of the row, in the order of `Fin b` (any order gives the same
  result: `max` is commutative and associative).
-/
import Idealize.ShloMosaic.PureOps.Ideal
import Idealize.ShloMosaic.PureOps.Ideal.Laws
import Idealize.ShloMosaic.Lib.ValueIdx

noncomputable section

namespace Cert.LibRowMax

open Idealize.ShloMosaic Idealize.ShloMosaic.ValueIdx

/-- The row maximum of a rank-2 array: at `p` the fold of `max`, from the value of the starting pattern, over `k` of
    entry `(p, k)`. -/
theorem max_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  refine congrArg (Finset.fold max (Ideal.ofBits .f32 acc) · Finset.univ)
    (funext fun k => congrArg src (funext fun d => Fin.ext ?_))
  match d with
  | ⟨0, _⟩ => rfl
  | ⟨1, _⟩ => rfl

end Cert.LibRowMax

end
-- ==== Proof.KVal1.lean ====
/-
  The attention kernel's stored block, read at an index on the extended reals.

  For a block of 256 query rows q against all 4096 key rows k and value rows v of one batch: the score of query r
  against key j is <q_r, k_j> times a scale; each row of scores is shifted by its maximum (folded from -inf),
  exponentiated, and multiplied by the reciprocal of the row's sum; the weighted sum of the value rows is multiplied by
  a 512 x 512 projection matrix, a bias row is added, and the result is added to the block of x.
  Narrowing a format is the identity on extended reals, so the block is the composition of four pieces:
  the scaled scores, the shifted exponentials, the normalised weights, and the projected output with its residual.
-/
import proofs.«147553_j25795573579973_2_alg».proof.Proof.Gen.KernelIdeal.Skeleton
import proofs.«147553_j25795573579973_2_alg».proof.Proof.Spec
import proofs.«147553_j25795573579973_2_alg».proof.Proof.LibMatmulNN
import proofs.«147553_j25795573579973_2_alg».proof.Proof.LibMatmulNT
import proofs.«147553_j25795573579973_2_alg».proof.Proof.LibVectorColumn
import proofs.«147553_j25795573579973_2_alg».proof.Proof.LibColumnBroadcast
import proofs.«147553_j25795573579973_2_alg».proof.Proof.LibRank3Layout
import proofs.«147553_j25795573579973_2_alg».proof.Proof.LibRowMax
import Idealize.ShloMosaic.Lib.ValueLayout

noncomputable section

open scoped BigOperators

namespace Cert.KVal

open Idealize.ShloMosaic Idealize.ShloMosaic.ValueIdx Cert.KernelIdeal

/-- Row `r` of the scaled scores: query row `r` against every key row, times the scale. -/
def rowS (v0 : Vec Ideal S1x256x512 .bf16) (v2 : Vec Ideal S1x4096x512 .bf16) (r : Fin 256) : Fin 4096 → EReal :=
  fun j => (∑ c : Fin 512, v0 (ix3 0 r c) * v2 (ix3 0 j c)) * Cert.Attn.cScale

/-! ## The four pieces of the block, as the kernel forms them -/

/-- The scaled scores: queries against keys (rows against rows), times the broadcast scale. -/
def scoreBlk (v0 : Vec Ideal S1x256x512 .bf16) (v2 : Vec Ideal S1x4096x512 .bf16) : FVec Ideal S256x4096 .f32 :=
  mulf (FloatOps.matmul (φ₁ := .bf16) (φ₂ := .bf16) dot_S256x512_S4096x512_S256x4096_1_1_0_0_n_n none
          (shapeCast S256x512 v0 Gen.shapeCasts_S1x256x512_S256x512)
          (shapeCast S4096x512 v2 Gen.shapeCasts_S1x4096x512_S4096x512)
          (constant S256x4096 .f32 0x00000000#32))
    (broadcast S256x4096 (Scalar.ofBits .f32 0x3D3504F3#32))

/-- The exponentials of the scores shifted by their row's maximum (kept as a column and broadcast back). -/
def expBlk (s : FVec Ideal S256x4096 .f32) : FVec Ideal S256x4096 .f32 :=
  exp (subf s (broadcastTo S256x4096
    (shapeCast S256x1 (multiReduction .maximumf [1] S256 s 0xFF800000#32 Gen.reduces_S256x4096_S256 (.inl rfl) rfl)
      Gen.shapeCasts_S256_S256x1) Gen.broadcasts_S256x1_S256x4096))

/-- The exponentials times the reciprocal of their row's sum (one over the sum, kept as a column and broadcast back). -/
def wBlk (e : FVec Ideal S256x4096 .f32) : FVec Ideal S256x4096 .bf16 :=
  truncf .bf16 (mulf e (broadcastTo S256x4096
    (divf (broadcast S256x1 (Scalar.ofBits .f32 0x3F800000#32))
      (shapeCast S256x1 (multiReduction .add [1] S256 e 0x00000000#32 Gen.reduces_S256x4096_S256 (.inl rfl) rfl)
        Gen.shapeCasts_S256_S256x1)) Gen.broadcasts_S256x1_S256x4096)) Gen.bitsLt_bf16_f32

/-- The weights against the value rows, projected, plus the bias row, added to the block of x. -/
def outBlk (w : FVec Ideal S256x4096 .bf16) (v4 : Vec Ideal S1x4096x512 .bf16) (v23 : Vec Ideal S512x512 .bf16)
    (v26 : Vec Ideal S1x512 .f32) (v30 : Vec Ideal S1x256x512 .f32) : FVec Ideal S256x512 .f32 :=
  addf (shapeCast S256x512 v30 Gen.shapeCasts_S1x256x512_S256x512)
    (addf (FloatOps.matmul (φ₁ := .bf16) (φ₂ := .bf16) dot_S256x512_S512x512_S256x512_1_0_0_1_n_n none
            (truncf .bf16 (FloatOps.matmul (φ₁ := .bf16) (φ₂ := .bf16) dot_S256x4096_S4096x512_S256x512_1_0_0_1_n_n none w
              (shapeCast S4096x512 v4 Gen.shapeCasts_S1x4096x512_S4096x512)
              (constant S256x512 .f32 0x00000000#32)) Gen.bitsLt_bf16_f32)
            (shapeCast S512x512 v23 Gen.shapeCasts_S512x512_S512x512)
            (constant S256x512 .f32 0x00000000#32))
      (broadcastTo S256x512 (shapeCast S1x512 v26 Gen.shapeCasts_S1x512_S1x512) Gen.broadcasts_S1x512_S256x512))

variable (v0 : Vec Ideal S1x256x512 .bf16) (v2 v4 : Vec Ideal S1x4096x512 .bf16) (v23 : Vec Ideal S512x512 .bf16)
  (v26 : Vec Ideal S1x512 .f32) (v30 : Vec Ideal S1x256x512 .f32)

/-- The kernel's block is the composition of the four pieces. -/
theorem pay2_eq :
    Gen.k1_pay2 (F := Ideal) v0 v2 v4 v23 v26 v30 = outBlk (wBlk (expBlk (scoreBlk v0 v2))) v4 v23 v26 v30 := rfl

/-! ## Each piece at an index -/

/-- The scaled scores at (r, j). -/
theorem scoreBlk_apply (r : Fin 256) (j : Fin 4096) : scoreBlk v0 v2 (ix2 r j) = rowS v0 v2 r j := by
  show (_ * _ : EReal) = _
  refine congrArg₂ (· * ·) ?_ rfl
  refine (Cert.LibMatmulNT.matmul_zero_apply Gen.dot_S256x512_S4096x512_S256x4096_1_1_0_0_n_n_wf none _ _ r j).trans ?_
  exact Finset.sum_congr rfl fun c _ =>
    congrArg₂ (· * ·) (shapeCast_1ab_ab_apply v0 _ r c) (shapeCast_1ab_ab_apply v2 _ j c)

/-- The shifted exponentials at (r, j): the row's maximum is the fold of max from -inf over the row. -/
theorem expBlk_apply (s : FVec Ideal S256x4096 .f32) (r : Fin 256) (j : Fin 4096) :
    expBlk s (ix2 r j)
      = Ideal.exp (s (ix2 r j) - Finset.univ.fold max Cert.Attn.cNegInf (fun k : Fin 4096 => s (ix2 r k))) := by
  show Ideal.exp (_ - _) = _
  refine congrArg Ideal.exp (congrArg₂ (· - ·) rfl ?_)
  refine (Cert.Layout.broadcastTo_a1_ab_apply _ _ r j).trans ?_
  refine (Cert.LibVectorColumn.shapeCast_a_a1_apply _ _ r 0).trans ?_
  exact Cert.LibRowMax.max_row_apply s _ _ _ _ r

/-- The normalised weights at (r, j): the exponential times one over the row's sum. -/
theorem wBlk_apply (e : FVec Ideal S256x4096 .f32) (r : Fin 256) (j : Fin 4096) :
    wBlk e (ix2 r j) = e (ix2 r j) * Ideal.div Cert.Attn.cOne (∑ k : Fin 4096, e (ix2 r k)) := by
  show (_ * _ : EReal) = _
  refine congrArg₂ (· * ·) rfl ?_
  refine (Cert.Layout.broadcastTo_a1_ab_apply _ _ r j).trans ?_
  show Ideal.div _ _ = _
  refine congrArg₂ Ideal.div rfl ?_
  refine (Cert.LibVectorColumn.shapeCast_a_a1_apply _ _ r 0).trans ?_
  exact Cert.LibRank3.sum_row_apply e _ _ _ _ r

/-- The output at (r, d): the residual plus the projected weighted sum of the value rows plus the bias. -/
theorem outBlk_apply (w : FVec Ideal S256x4096 .bf16) (r : Fin 256) (d : Fin 512) :
    outBlk w v4 v23 v26 v30 (ix2 r d)
      = v30 (ix3 0 r d)
        + ((∑ c : Fin 512, (∑ j : Fin 4096, w (ix2 r j) * v4 (ix3 0 j c)) * v23 (ix2 c d)) + v26 (ix2 (0 : Fin 1) d)) := by
  show (_ + (_ + _) : EReal) = _
  refine congrArg₂ (· + ·) (shapeCast_1ab_ab_apply v30 _ r d) (congrArg₂ (· + ·) ?_ ?_)
  · refine (Cert.LibMatmulNN.matmul_zero_apply Gen.dot_S256x512_S512x512_S256x512_1_0_0_1_n_n_wf none _ _ r d).trans ?_
    refine Finset.sum_congr rfl fun c _ => congrArg₂ (· * ·) ?_ (congrFun (shapeCast_self v23 _) _)
    refine (Cert.LibMatmulNN.matmul_zero_apply Gen.dot_S256x4096_S4096x512_S256x512_1_0_0_1_n_n_wf none _ _ r c).trans ?_
    exact Finset.sum_congr rfl fun j _ => congrArg₂ (· * ·) rfl (shapeCast_1ab_ab_apply v4 _ j c)
  · exact (broadcastTo_1b_ab_apply _ _ r d).trans (congrFun (shapeCast_self v26 _) _)

/-! ## The stored block at an index -/

/-- The block the kernel stores, at (0, r, d). -/
theorem k1_out (r : Fin 256) (d : Fin 512) :
    Gen.k1_pay1 (F := Ideal) (Gen.k1_pay2 (F := Ideal) v0 v2 v4 v23 v26 v30) (ix3 (0 : Fin 1) r d)
      = v30 (ix3 0 r d)
        + ((∑ c : Fin 512, (∑ j : Fin 4096,
              (Ideal.exp (rowS v0 v2 r j - Finset.univ.fold max Cert.Attn.cNegInf (rowS v0 v2 r))
                * Ideal.div Cert.Attn.cOne
                    (∑ j' : Fin 4096, Ideal.exp (rowS v0 v2 r j' - Finset.univ.fold max Cert.Attn.cNegInf (rowS v0 v2 r))))
              * v4 (ix3 0 j c)) * v23 (ix2 c d))
          + v26 (ix2 (0 : Fin 1) d)) := by
  have hrow : (fun k : Fin 4096 => scoreBlk v0 v2 (ix2 r k)) = rowS v0 v2 r := funext fun k => scoreBlk_apply v0 v2 r k
  have he : ∀ j : Fin 4096, expBlk (scoreBlk v0 v2) (ix2 r j)
      = Ideal.exp (rowS v0 v2 r j - Finset.univ.fold max Cert.Attn.cNegInf (rowS v0 v2 r)) := fun j => by
    rw [expBlk_apply, hrow, scoreBlk_apply]
  have hw : ∀ j : Fin 4096, wBlk (expBlk (scoreBlk v0 v2)) (ix2 r j)
      = Ideal.exp (rowS v0 v2 r j - Finset.univ.fold max Cert.Attn.cNegInf (rowS v0 v2 r))
        * Ideal.div Cert.Attn.cOne
            (∑ j' : Fin 4096, Ideal.exp (rowS v0 v2 r j' - Finset.univ.fold max Cert.Attn.cNegInf (rowS v0 v2 r))) := fun j => by
    rw [wBlk_apply, he]
    exact congrArg (fun t => _ * Ideal.div Cert.Attn.cOne t) (Finset.sum_congr rfl fun k _ => he k)
  unfold Gen.k1_pay1
  refine (shapeCast_ab_1ab_apply _ _ 0 r d).trans ?_
  refine (congrFun (pay2_eq v0 v2 v4 v23 v26 v30) _).trans ?_
  refine (outBlk_apply v4 v23 v26 v30 _ r d).trans ?_
  refine congrArg₂ (· + ·) rfl (congrArg₂ (· + ·) ?_ rfl)
  exact Finset.sum_congr rfl fun c _ => congrArg₂ (· * ·)
    (Finset.sum_congr rfl fun j _ => congrArg₂ (· * ·) (hw j) rfl) rfl

end Cert.KVal

end
-- ==== Proof.KFinal1.lean ====
/-
  The attention region's output array as one function of the arrays the region reads, index by index.

  The region runs over a 4 x 16 grid: point (b, g) reads the block of 256 query rows 256 g .. 256 g + 255 of batch b,
  all 4096 key rows and value rows of batch b, the whole projection matrix and bias row, and the block of x at the
  same place as the queries, and writes back the block of the output at that place. The blocks of the output tile the
  array, so the array ends holding, at (b, i, d), the attention formula evaluated on row i of batch b.
-/
import proofs.«147553_j25795573579973_2_alg».proof.Proof.FrameKI
import proofs.«147553_j25795573579973_2_alg».proof.Proof.KVal1
import proofs.«147553_j25795573579973_2_alg».proof.Proof.Spec
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The six arrays the region reads, as the region finds them, as functions of an index on the extended reals:
    queries, keys, values (token-major, per batch), the projection matrix, the bias row, and x. -/
abbrev inQ1 (c : Dev nD) : S4x4096x512.Idx → EReal := V c main_v26_0
abbrev inK1 (c : Dev nD) : S4x4096x512.Idx → EReal := V c main_v26_1
abbrev inV1 (c : Dev nD) : S4x4096x512.Idx → EReal := V c main_v26_2
abbrev inW1 (c : Dev nD) : S512x512.Idx → EReal := V c main_v27
abbrev inB1 (c : Dev nD) : S1x512.Idx → EReal := V c main_v28
abbrev inX1 (c : Dev nD) : S4x4096x512.Idx → EReal := V c main_v21

/-- Row `i` of batch `b` of the scaled scores, from the query and key arrays as the region finds them. -/
def rowS1 (c : Dev nD) (b : Fin 4) (i : Fin 4096) : Fin 4096 → EReal := fun j =>
  (∑ ch : Fin 512, inQ1 V c (ix3 b i ch)
      * inK1 V c (ix3 b j ch)) * Cert.Attn.cScale

/-- What the output array ends holding at (b, i, d): x plus the projected attention-weighted sum of the value rows plus
    the bias. -/
def G1 (c : Dev nD) : Fin 4 → Fin 4096 → Fin 512 → EReal := fun b i d =>
  inX1 V c (ix3 b i d)
    + ((∑ ch : Fin 512, (∑ j : Fin 4096,
          (Ideal.exp (rowS1 V c b i j - Finset.univ.fold max Cert.Attn.cNegInf (rowS1 V c b i))
            * Ideal.div Cert.Attn.cOne
                (∑ j' : Fin 4096, Ideal.exp (rowS1 V c b i j' - Finset.univ.fold max Cert.Attn.cNegInf (rowS1 V c b i))))
          * inV1 V c (ix3 b j ch))
        * inW1 V c (ix2 ch d))
      + inB1 V c (ix2 (0 : Fin 1) d))

/-- The body's stored value at (0, r, d), when its six blocks are the arrays' blocks at batch `b` and row `i`. -/
theorem G1_of_blocks (c : Dev nD) (x0 : Vec Ideal S1x256x512 .bf16) (x1 x2 : Vec Ideal S1x4096x512 .bf16)
    (x3 : Vec Ideal S512x512 .bf16) (x4 : Vec Ideal S1x512 .f32) (x5 : Vec Ideal S1x256x512 .f32)
    (b : Fin 4) (i : Fin 4096) (r : Fin 256) (d : Fin 512)
    (h0 : ∀ ch : Fin 512, x0 (ix3 0 r ch) = inQ1 V c (ix3 b i ch))
    (h1 : ∀ (j : Fin 4096) (ch : Fin 512), x1 (ix3 0 j ch) = inK1 V c (ix3 b j ch))
    (h2 : ∀ (j : Fin 4096) (ch : Fin 512), x2 (ix3 0 j ch) = inV1 V c (ix3 b j ch))
    (h3 : ∀ (ch d' : Fin 512), x3 (ix2 ch d') = inW1 V c (ix2 ch d'))
    (h4 : ∀ d' : Fin 512, x4 (ix2 (0 : Fin 1) d') = inB1 V c (ix2 (0 : Fin 1) d'))
    (h5 : x5 (ix3 0 r d) = inX1 V c (ix3 b i d)) :
    k1_pay1 (F := Ideal) (k1_pay2 (F := Ideal) x0 x1 x2 x3 x4 x5) (ix3 (0 : Fin 1) r d) = G1 V c b i d := by
  have hS : Cert.KVal.rowS x0 x1 r = rowS1 V c b i := funext fun j => by
    unfold Cert.KVal.rowS rowS1
    simp only [h0, h1]
  rw [Cert.KVal.k1_out, hS, h5]
  unfold G1
  simp only [h2, h3, h4]

/-! ## The index maps over the grid -/

theorem hz3_r1 : (![0, 0, 0] : Fin 3 → Nat) = fun _ => 0 := funext fun a => by fin_cases a <;> rfl
theorem hz2_r1 : (![0, 0] : Fin 2 → Nat) = fun _ => 0 := funext fun a => by fin_cases a <;> rfl

/-- The printed index maps, decided over the grid: the queries' and x's blocks sit where the output's block sits, the
    keys' and values' blocks are the whole batch of the output's block, the projection and the bias are whole, and the
    output's block indices stay in their ranges. -/
theorem idx_facts1_6 : ∀ t : Fin cfg1.N,
    win1_0.index t (0 : Fin 3) = win1_6.index t (0 : Fin 3) ∧ win1_0.index t (1 : Fin 3) = win1_6.index t (1 : Fin 3)
    ∧ win1_0.index t (2 : Fin 3) = 0
    ∧ win1_1.index t (0 : Fin 3) = win1_6.index t (0 : Fin 3) ∧ win1_1.index t (1 : Fin 3) = 0
    ∧ win1_1.index t (2 : Fin 3) = 0
    ∧ win1_2.index t (0 : Fin 3) = win1_6.index t (0 : Fin 3) ∧ win1_2.index t (1 : Fin 3) = 0
    ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = win1_6.index t (0 : Fin 3) ∧ win1_5.index t (1 : Fin 3) = win1_6.index t (1 : Fin 3)
    ∧ win1_5.index t (2 : Fin 3) = 0
    ∧ win1_6.index t (0 : Fin 3) ≤ 3 ∧ win1_6.index t (1 : Fin 3) ≤ 15 ∧ win1_6.index t (2 : Fin 3) = 0 :=
  (by decide +kernel : ∀ t : Fin grid1.N, _)

/-- Every block of the output array is SOME point's. -/
theorem idx_onto1_6 : ∀ (q0 : Fin 4) (q1 : Fin 16), ∃ t : Fin cfg1.N, win1_6.index t = ![q0.val, q1.val, 0] :=
  (by decide +kernel : ∀ (q0 : Fin 4) (q1 : Fin 16), ∃ t : Fin grid1.N, win1_6.index t = ![q0.val, q1.val, 0])

/-! ## What a point writes back -/

/-- WHAT POINT `t` WRITES BACK is block `t` of `G1` of the arrays as the region finds them. -/
theorem flushed1_6_eq (c : Dev nD) (t : Fin cfg1.N) :
    (dat1 (F := Ideal) V c).flushed 6 t
      = ((cfg1.win 6).blk t).view.read (Elt Ideal) (fun i : S4x4096x512.Idx => G1 V c (i 0) (i 1) (i 2)) := by
  show (cfg1.win 6).cut (grid1.coords t) ((dat1 (F := Ideal) V c).after 6 t) = _
  rw [after1_6]
  unfold out1_6
  rw [View.canon_unit_zero hz3_r1]
  simp only [View.ld_unit_zero (S := S1x256x512) hz3_r1, View.ld_unit_zero (S := S1x4096x512) hz3_r1,
    View.ld_unit_zero (S := S512x512) hz2_r1, View.ld_unit_zero (S := S1x512) hz2_r1]
  obtain ⟨e00, e01, e02, e10, e11, e12, e20, e21, e22, e30, e31, e40, e41, e50, e51, e52, b0, b1, e62⟩ := idx_facts1_6 t
  funext j
  obtain ⟨u, r, d, rfl⟩ : ∃ (u : Fin 1) (r : Fin 256) (d : Fin 512), j = ix3 u r d := ⟨j 0, j 1, j 2, eq_ix3 j⟩
  obtain rfl : u = 0 := Subsingleton.elim _ _
  have hr : r.val < 256 := r.isLt
  have hd : d.val < 512 := d.isLt
  refine (G1_of_blocks V c (iblk1 V c 0 t) (iblk1 V c 1 t) (iblk1 V c 2 t) (iblk1 V c 3 t) (iblk1 V c 4 t) (iblk1 V c 5 t)
    ⟨win1_6.index t (0 : Fin 3), by omega⟩ ⟨win1_6.index t (1 : Fin 3) * 256 + r.val, by omega⟩ r d
    ?_ ?_ ?_ ?_ ?_ ?_).trans ?_
  · intro ch
    show inQ1 V c (((cfg1.win 0).blk t).view.emb (ix3 (0 : Fin 1) r ch)) = _
    refine congrArg _ (funext fun a => Fin.ext ?_)
    match a with
    | ⟨0, _⟩ => show win1_0.index t (0 : Fin 3) * 1 + 1 * 0 = win1_6.index t (0 : Fin 3); omega
    | ⟨1, _⟩ => show win1_0.index t (1 : Fin 3) * 256 + 1 * r.val = win1_6.index t (1 : Fin 3) * 256 + r.val; omega
    | ⟨2, _⟩ => show win1_0.index t (2 : Fin 3) * 512 + 1 * ch.val = ch.val; omega
  · intro j ch
    show inK1 V c (((cfg1.win 1).blk t).view.emb (ix3 (0 : Fin 1) j ch)) = _
    refine congrArg _ (funext fun a => Fin.ext ?_)
    match a with
    | ⟨0, _⟩ => show win1_1.index t (0 : Fin 3) * 1 + 1 * 0 = win1_6.index t (0 : Fin 3); omega
    | ⟨1, _⟩ => show win1_1.index t (1 : Fin 3) * 4096 + 1 * j.val = j.val; omega
    | ⟨2, _⟩ => show win1_1.index t (2 : Fin 3) * 512 + 1 * ch.val = ch.val; omega
  · intro j ch
    show inV1 V c (((cfg1.win 2).blk t).view.emb (ix3 (0 : Fin 1) j ch)) = _
    refine congrArg _ (funext fun a => Fin.ext ?_)
    match a with
    | ⟨0, _⟩ => show win1_2.index t (0 : Fin 3) * 1 + 1 * 0 = win1_6.index t (0 : Fin 3); omega
    | ⟨1, _⟩ => show win1_2.index t (1 : Fin 3) * 4096 + 1 * j.val = j.val; omega
    | ⟨2, _⟩ => show win1_2.index t (2 : Fin 3) * 512 + 1 * ch.val = ch.val; omega
  · intro ch d'
    show inW1 V c (((cfg1.win 3).blk t).view.emb (ix2 ch d')) = _
    refine congrArg _ (funext fun a => Fin.ext ?_)
    match a with
    | ⟨0, _⟩ => show win1_3.index t (0 : Fin 2) * 512 + 1 * ch.val = ch.val; omega
    | ⟨1, _⟩ => show win1_3.index t (1 : Fin 2) * 512 + 1 * d'.val = d'.val; omega
  · intro d'
    show inB1 V c (((cfg1.win 4).blk t).view.emb (ix2 (0 : Fin 1) d')) = _
    refine congrArg _ (funext fun a => Fin.ext ?_)
    match a with
    | ⟨0, _⟩ => show win1_4.index t (0 : Fin 2) * 1 + 1 * 0 = 0; omega
    | ⟨1, _⟩ => show win1_4.index t (1 : Fin 2) * 512 + 1 * d'.val = d'.val; omega
  · show inX1 V c (((cfg1.win 5).blk t).view.emb (ix3 (0 : Fin 1) r d)) = _
    refine congrArg _ (funext fun a => Fin.ext ?_)
    match a with
    | ⟨0, _⟩ => show win1_5.index t (0 : Fin 3) * 1 + 1 * 0 = win1_6.index t (0 : Fin 3); omega
    | ⟨1, _⟩ => show win1_5.index t (1 : Fin 3) * 256 + 1 * r.val = win1_6.index t (1 : Fin 3) * 256 + r.val; omega
    | ⟨2, _⟩ => show win1_5.index t (2 : Fin 3) * 512 + 1 * d.val = d.val; omega
  · have hB : (⟨win1_6.index t (0 : Fin 3), by omega⟩ : Fin 4) = ((cfg1.win 6).blk t).view.emb (ix3 (0 : Fin 1) r d) 0 :=
      Fin.ext (by show win1_6.index t (0 : Fin 3) = win1_6.index t (0 : Fin 3) * 1 + 1 * 0; omega)
    have hI : (⟨win1_6.index t (1 : Fin 3) * 256 + r.val, by omega⟩ : Fin 4096)
        = ((cfg1.win 6).blk t).view.emb (ix3 (0 : Fin 1) r d) 1 :=
      Fin.ext (by show win1_6.index t (1 : Fin 3) * 256 + r.val = win1_6.index t (1 : Fin 3) * 256 + 1 * r.val; omega)
    have hD : d = ((cfg1.win 6).blk t).view.emb (ix3 (0 : Fin 1) r d) 2 :=
      Fin.ext (by show d.val = win1_6.index t (2 : Fin 3) * 512 + 1 * d.val; omega)
    exact congr (congr (congrArg (G1 V c) hB) hI) hD

/-! ## The blocks tile the array -/

/-- An index of the array is in point `t`'s block iff each coordinate is in the block's range on its axis. -/
theorem mem_blk1_6 (t : Fin cfg1.N) (i : S4x4096x512.Idx) :
    i ∈ ((cfg1.win 6).blk t).view.set ↔ ∀ a : Fin 3, win1_6.index t a * S1x256x512.size a ≤ (i a).val
      ∧ (i a).val < win1_6.index t a * S1x256x512.size a + S1x256x512.size a := by
  show i ∈ ((View.whole main_v29).slice (win1_6.rect t)).set ↔ _
  rw [View.set_slice_whole, Rect.mem_set_unit]
  exact Iff.rfl

/-- Every index of the output array is in some point's block: the point of its batch and of its row divided by 256. -/
theorem covered1_6 (i : S4x4096x512.Idx) :
    ∃ t : Fin cfg1.N, (cfg1.win 6).flush t = true ∧ i ∈ ((cfg1.win 6).blk t).view.set := by
  have hi0 : (i 0).val < 4 := (i 0).isLt
  have hi1 : (i 1).val < 4096 := (i 1).isLt
  have hi2 : (i 2).val < 512 := (i 2).isLt
  obtain ⟨t, ht⟩ := idx_onto1_6 ⟨(i 0).val, hi0⟩ ⟨(i 1).val / 256, by omega⟩
  have q0 : win1_6.index t (0 : Fin 3) = (i 0).val := congrFun ht 0
  have q1 : win1_6.index t (1 : Fin 3) = (i 1).val / 256 := congrFun ht 1
  have q2 : win1_6.index t (2 : Fin 3) = 0 := congrFun ht 2
  refine ⟨t, flush1_6 t, ?_⟩
  rw [mem_blk1_6]
  intro a
  match a with
  | ⟨0, _⟩ =>
    show win1_6.index t (0 : Fin 3) * 1 ≤ (i 0).val ∧ (i 0).val < win1_6.index t (0 : Fin 3) * 1 + 1; omega
  | ⟨1, _⟩ =>
    show win1_6.index t (1 : Fin 3) * 256 ≤ (i 1).val ∧ (i 1).val < win1_6.index t (1 : Fin 3) * 256 + 256; omega
  | ⟨2, _⟩ =>
    show win1_6.index t (2 : Fin 3) * 512 ≤ (i 2).val ∧ (i 2).val < win1_6.index t (2 : Fin 3) * 512 + 512; omega

/-! ## The array after the region -/

/-- THE ARRAY after the region: `G1` of the arrays as the region finds them, at every index. -/
theorem final1_6 (c : Dev nD) :
    (dat1 (F := Ideal) V c).arrAt 6 cfg1.N = fun i : S4x4096x512.Idx => G1 V c (i 0) (i 1) (i 2) :=
  (dat1 (F := Ideal) V c).arrAt_eq_of_cover 6 _ (fun t _ => flushed1_6_eq V c t) covered1_6

end Cert.KernelIdeal.Hand

end
-- ==== Proof.KValue.lean ====
/-
  The kernel's result as one function of the arguments.

  Before the first kernel region the host has written the token-major copy of x, the folded group-norm scale and shift,
  the three weight matrices side by side and the three biases end to end; the region's three outputs are, token by
  token, the dense layers q, k, v of the normalised activations  x * scale + shift.  Between the regions the host writes
  the projection matrix and its bias as a row.  The second region's output is, token by token, x plus the projected
  softmax-weighted sum of the v rows, the weights normalised by the reciprocal of the row sum.  The last reshape reads it
  back pixel by pixel.  Nothing here is arithmetic: every step substitutes the contents of a buffer.
-/
import proofs.«147553_j25795573579973_2_alg».proof.Proof.FrameKI
import proofs.«147553_j25795573579973_2_alg».proof.Proof.KRunI
import proofs.«147553_j25795573579973_2_alg».proof.Proof.KHost
import proofs.«147553_j25795573579973_2_alg».proof.Proof.GNRun
import proofs.«147553_j25795573579973_2_alg».proof.Proof.KFinal0
import proofs.«147553_j25795573579973_2_alg».proof.Proof.KFinal1
import proofs.«147553_j25795573579973_2_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Attn

/-- The activations the first kernel forms from a token: x times the scale plus the shift. -/
def hKfun (x : XA) (γ β : VA) : TA := fun b n ch =>
  xf x b n ch * Cert.GN.a3T x γ (ix3 b 0 ch) + Cert.GN.shift3T x γ β (ix3 b 0 ch)

variable (m : (ℓ : Loc nD τ sig) → Buf (Elt Ideal) ℓ) (ρ : Dev nD → PrngReg) (c : Dev nD)

/-! ## The arrays the first region finds -/

theorem V3_x (b : Fin 4) (n : Fin 4096) (ch : Fin 512) :
    V3 (F := Ideal) m ρ c main_v21 (ix3 b n ch) = xf (m ((c : Thread nD τ).loc main_arg0)) b n ch :=
  Cert.KHost.v21_at (W0 m ρ c) b n ch
theorem V3_a (i : (⟨3, ![4, 1, 512]⟩ : Shape).Idx) :
    V3 (F := Ideal) m ρ c main_v19 i = Cert.GN.a3T (m ((c : Thread nD τ).loc main_arg0)) (m ((c : Thread nD τ).loc main_arg1)) i :=
  congrFun (Cert.GN.V3_v19 m c) i
theorem V3_s (i : (⟨3, ![4, 1, 512]⟩ : Shape).Idx) :
    V3 (F := Ideal) m ρ c main_v20 i = Cert.GN.shift3T (m ((c : Thread nD τ).loc main_arg0)) (m ((c : Thread nD τ).loc main_arg1)) (m ((c : Thread nD τ).loc main_arg2)) i :=
  congrFun (Cert.GN.V3_v20 m c) i
theorem V3_wq (ch d : Fin 512) : V3 (F := Ideal) m ρ c main_v24 (ix2 ch (Cert.KVal.col 0 d (by decide))) = (m ((c : Thread nD τ).loc main_arg3)) (ix2 ch d) :=
  Cert.KHost.v24_q (W0 m ρ c) ch d
theorem V3_wk (ch d : Fin 512) : V3 (F := Ideal) m ρ c main_v24 (ix2 ch (Cert.KVal.col 512 d (by decide))) = (m ((c : Thread nD τ).loc main_arg5)) (ix2 ch d) :=
  Cert.KHost.v24_k (W0 m ρ c) ch d
theorem V3_wv (ch d : Fin 512) : V3 (F := Ideal) m ρ c main_v24 (ix2 ch (Cert.KVal.col 1024 d (by decide))) = (m ((c : Thread nD τ).loc main_arg7)) (ix2 ch d) :=
  Cert.KHost.v24_v (W0 m ρ c) ch d
theorem V3_bq (d : Fin 512) : V3 (F := Ideal) m ρ c main_v25 (ix2 (0 : Fin 1) (Cert.KVal.col 0 d (by decide))) = (m ((c : Thread nD τ).loc main_arg4)) (ix1 d) :=
  Cert.KHost.v25_q (W0 m ρ c) d
theorem V3_bk (d : Fin 512) : V3 (F := Ideal) m ρ c main_v25 (ix2 (0 : Fin 1) (Cert.KVal.col 512 d (by decide))) = (m ((c : Thread nD τ).loc main_arg6)) (ix1 d) :=
  Cert.KHost.v25_k (W0 m ρ c) d
theorem V3_bv (d : Fin 512) : V3 (F := Ideal) m ρ c main_v25 (ix2 (0 : Fin 1) (Cert.KVal.col 1024 d (by decide))) = (m ((c : Thread nD τ).loc main_arg8)) (ix1 d) :=
  Cert.KHost.v25_v (W0 m ρ c) d

/-- The first region's q array is the dense layer of the normalised activations. -/
theorem G0_q (b : Fin 4) (n : Fin 4096) (d : Fin 512) :
    G0 (V3 (F := Ideal) m ρ) 0 (by decide) c b n d = proj (hKfun (m ((c : Thread nD τ).loc main_arg0)) (m ((c : Thread nD τ).loc main_arg1)) (m ((c : Thread nD τ).loc main_arg2))) (m ((c : Thread nD τ).loc main_arg3)) (m ((c : Thread nD τ).loc main_arg4)) b n d := by
  unfold G0 proj hKfun
  refine congrArg₂ (· + ·) (Finset.sum_congr rfl fun ch _ => ?_) (V3_bq m ρ c d)
  exact congrArg₂ (· * ·) (congrArg₂ (· + ·) (congrArg₂ (· * ·) (V3_x m ρ c b n ch) (V3_a m ρ c _)) (V3_s m ρ c _))
    (V3_wq m ρ c ch d)
theorem G0_k (b : Fin 4) (n : Fin 4096) (d : Fin 512) :
    G0 (V3 (F := Ideal) m ρ) 512 (by decide) c b n d = proj (hKfun (m ((c : Thread nD τ).loc main_arg0)) (m ((c : Thread nD τ).loc main_arg1)) (m ((c : Thread nD τ).loc main_arg2))) (m ((c : Thread nD τ).loc main_arg5)) (m ((c : Thread nD τ).loc main_arg6)) b n d := by
  unfold G0 proj hKfun
  refine congrArg₂ (· + ·) (Finset.sum_congr rfl fun ch _ => ?_) (V3_bk m ρ c d)
  exact congrArg₂ (· * ·) (congrArg₂ (· + ·) (congrArg₂ (· * ·) (V3_x m ρ c b n ch) (V3_a m ρ c _)) (V3_s m ρ c _))
    (V3_wk m ρ c ch d)
theorem G0_v (b : Fin 4) (n : Fin 4096) (d : Fin 512) :
    G0 (V3 (F := Ideal) m ρ) 1024 (by decide) c b n d = proj (hKfun (m ((c : Thread nD τ).loc main_arg0)) (m ((c : Thread nD τ).loc main_arg1)) (m ((c : Thread nD τ).loc main_arg2))) (m ((c : Thread nD τ).loc main_arg7)) (m ((c : Thread nD τ).loc main_arg8)) b n d := by
  unfold G0 proj hKfun
  refine congrArg₂ (· + ·) (Finset.sum_congr rfl fun ch _ => ?_) (V3_bv m ρ c d)
  exact congrArg₂ (· * ·) (congrArg₂ (· + ·) (congrArg₂ (· * ·) (V3_x m ρ c b n ch) (V3_a m ρ c _)) (V3_s m ρ c _))
    (V3_wv m ρ c ch d)

/-! ## The arrays the second region finds -/

/-- A buffer no host stretch before the second stretch writes and the first region does not stage holds its launch contents. -/
theorem W4_keep (r : Ref sig .tc) (h0 : r ∉ (hostOps0_W : List (Ref sig .tc))) (h1 : r ∉ (hostOps0_1_W : List (Ref sig .tc)))
    (h2 : r ∉ (hostOps0_2_W : List (Ref sig .tc))) (h3 : ∀ w, Pipeline.arrRef spec0 w ≠ r) :
    W4 (F := Ideal) m ρ c (Proc.devRef .tc r) = m ((c : Thread nD τ).loc r) :=
  (W4_of_ne m ρ c r h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem V5_q (b : Fin 4) (i : Fin 4096) (ch : Fin 512) :
    V5 (F := Ideal) m ρ c main_v26_0 (ix3 b i ch) = proj (hKfun (m ((c : Thread nD τ).loc main_arg0)) (m ((c : Thread nD τ).loc main_arg1)) (m ((c : Thread nD τ).loc main_arg2))) (m ((c : Thread nD τ).loc main_arg3)) (m ((c : Thread nD τ).loc main_arg4)) b i ch :=
  (congrFun ((Cert.KHost.hostOps1_v26_0 (W4 m ρ c)).trans ((W4_arr m ρ c 5).trans (final0_5 (V3 m ρ) c))) (ix3 b i ch)).trans
    (G0_q m ρ c b i ch)
theorem V5_k (b : Fin 4) (i : Fin 4096) (ch : Fin 512) :
    V5 (F := Ideal) m ρ c main_v26_1 (ix3 b i ch) = proj (hKfun (m ((c : Thread nD τ).loc main_arg0)) (m ((c : Thread nD τ).loc main_arg1)) (m ((c : Thread nD τ).loc main_arg2))) (m ((c : Thread nD τ).loc main_arg5)) (m ((c : Thread nD τ).loc main_arg6)) b i ch :=
  (congrFun ((Cert.KHost.hostOps1_v26_1 (W4 m ρ c)).trans ((W4_arr m ρ c 6).trans (final0_6 (V3 m ρ) c))) (ix3 b i ch)).trans
    (G0_k m ρ c b i ch)
theorem V5_v (b : Fin 4) (i : Fin 4096) (ch : Fin 512) :
    V5 (F := Ideal) m ρ c main_v26_2 (ix3 b i ch) = proj (hKfun (m ((c : Thread nD τ).loc main_arg0)) (m ((c : Thread nD τ).loc main_arg1)) (m ((c : Thread nD τ).loc main_arg2))) (m ((c : Thread nD τ).loc main_arg7)) (m ((c : Thread nD τ).loc main_arg8)) b i ch :=
  (congrFun ((Cert.KHost.hostOps1_v26_2 (W4 m ρ c)).trans ((W4_arr m ρ c 7).trans (final0_7 (V3 m ρ) c))) (ix3 b i ch)).trans
    (G0_v m ρ c b i ch)
theorem V5_wp (ch d : Fin 512) : V5 (F := Ideal) m ρ c main_v27 (ix2 ch d) = (m ((c : Thread nD τ).loc main_arg9)) (ix2 ch d) :=
  (Cert.KHost.v27_at (W4 m ρ c) ch d).trans
    (congrFun (W4_keep m ρ c main_arg9 (by decide) (by decide) (by decide) (by decide)) (ix2 ch d))
theorem V5_bp (d : Fin 512) : V5 (F := Ideal) m ρ c main_v28 (ix2 (0 : Fin 1) d) = (m ((c : Thread nD τ).loc main_arg10)) (ix1 d) :=
  (Cert.KHost.v28_at (W4 m ρ c) d).trans
    (congrFun (W4_keep m ρ c main_arg10 (by decide) (by decide) (by decide) (by decide)) (ix1 d))
theorem V5_x (b : Fin 4) (i : Fin 4096) (d : Fin 512) :
    V5 (F := Ideal) m ρ c main_v21 (ix3 b i d) = xf (m ((c : Thread nD τ).loc main_arg0)) b i d :=
  (congrFun ((Cert.KHost.hostOps1_v21 (W4 m ρ c)).trans ((W4_arr m ρ c 0).trans
    (((dat0 (V3 m ρ) c).arrAt_in 0 rfl _).trans (A_eq0 (V3 m ρ) c 0)))) (ix3 b i d)).trans (V3_x m ρ c b i d)

/-- The second region's output is the specification's token-major result. -/
theorem G1_eq (b : Fin 4) (i : Fin 4096) (d : Fin 512) :
    G1 (V5 (F := Ideal) m ρ) c b i d
      = outK (hKfun (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg0)) b i d := by
  have hs : rowS1 (V5 (F := Ideal) m ρ) c b i
      = fun j => scores (proj (hKfun (m ((c : Thread nD τ).loc main_arg0)) (m ((c : Thread nD τ).loc main_arg1)) (m ((c : Thread nD τ).loc main_arg2))) (m ((c : Thread nD τ).loc main_arg3)) (m ((c : Thread nD τ).loc main_arg4))) (proj (hKfun (m ((c : Thread nD τ).loc main_arg0)) (m ((c : Thread nD τ).loc main_arg1)) (m ((c : Thread nD τ).loc main_arg2))) (m ((c : Thread nD τ).loc main_arg5)) (m ((c : Thread nD τ).loc main_arg6))) b i j :=
    funext fun j => by
      unfold rowS1 scores
      exact congrArg (· * cScale) (Finset.sum_congr rfl fun ch _ =>
        congrArg₂ (· * ·) (V5_q m ρ c b i ch) (V5_k m ρ c b j ch))
  unfold G1
  rw [hs]
  unfold outK
  dsimp only
  unfold outOf
  refine congrArg₂ (· + ·) (V5_x m ρ c b i d) ?_
  show _ = (∑ ch : Fin 512, av _ _ b i ch * _) + _
  refine congrArg₂ (· + ·) (Finset.sum_congr rfl fun ch _ => ?_) (V5_bp m ρ c d)
  refine congrArg₂ (· * ·) ?_ (V5_wp m ρ c ch d)
  unfold av
  refine Finset.sum_congr rfl fun j _ => ?_
  exact congrArg₂ (· * ·) rfl (V5_v m ρ c b j ch)

/-! ## The result -/

/-- The result buffer at the end of the run is the specification's image-major result. -/
theorem W7_out : (W7 (F := Ideal) m ρ c (Proc.devRef .tc main_v30) : XA)
    = img (outK (hKfun (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg0))) := by
  funext j
  obtain ⟨b, h, w, d, rfl⟩ : ∃ (b : Fin 4) (h w : Fin 64) (d : Fin 512), j = ix4 b h w d := ⟨j 0, j 1, j 2, j 3, eq_ix4 j⟩
  refine (Cert.KHost.v30_at (W6 m ρ c) b h w d).trans ?_
  refine (congrFun ((W6_arr m ρ c 6).trans (final1_6 (V5 m ρ) c)) (ix3 b (tok h w) d)).trans ?_
  exact G1_eq m ρ c b (tok h w) d

/-- Every weakly fair execution of the kernel's program terminates with the result at the specification's value and
    the arguments unchanged. -/
theorem value_run : θ_run defs (onTc (τ := τ) (main (F := Ideal))) ⟨m, fun _ => 0, ρ⟩ (fun r => ∀ c : Dev nD,
      r.2.mem ((c.tc : Thread nD τ).loc main_v30) = img (outK (hKfun (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v30 (by decide))).trans (W7_out m ρ c),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c)⟩) (run m ρ)

end Cert.KernelIdeal.Hand

end
-- ==== Proof.RefRun.lean ====
/-
  The reference program's host operations as one straight line, and its run: every weakly fair execution ends with
  the result buffer at the composed term of the eleven arguments, the arguments unchanged.  The composed term is
  written stage by stage: the group-normalised activations, a dense layer per pixel, the token-major view, the scaled
  scores, the row maximum, the shifted exponentials, their normalisation by the row sum, the weighted sum of the
  value rows, the output layer and the residual.
-/
import proofs.«147553_j25795573579973_2_alg».proof.Proof.Gen.ReferenceIdeal
import proofs.«147553_j25795573579973_2_alg».proof.Proof.GNTerms
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-! ## The operations -/

section Ops

variable {F : FTy → Type} [FloatOps F]

/-- The reference's 86 operations in order: the 63 of its entry function, and at the call of the variance function
    that function's 20 with, inside it, the 3 of the selection function. -/
abbrev ops : List (HloOp τ sig (Elt F)) :=
  [ reshape main_arg0 main_v0 rfl shapeCasts_S4x64x64x512_S4x64x64x32x16,
    nullary main_cst (constant S_ .f32 0x00000000#32),
    binary main_v0 main_cst main_v1 ((fun x v => Host.reduceAdd x v reducesTo_S4x64x64x32x16_S4x32_d1_2_4 h_S_) : (⟨S4x64x64x32x16, .f32⟩ : BufTy).Contents (Elt F) → (⟨S_, .f32⟩ : BufTy).Contents (Elt F) → (⟨S4x32, .f32⟩ : BufTy).Contents (Elt F)),
    unary main_v1 main_v2 (broadcastInDim S4x1x1x32x1 ![0, 3] bcast_S4x32_S4x1x1x32x1_0_3 : (⟨S4x32, .f32⟩ : BufTy).Contents (Elt F) → (⟨S4x1x1x32x1, .f32⟩ : BufTy).Contents (Elt F)),
    nullary main_cst_0 (constant S_ .f32 0x47800000#32),
    unary main_cst_0 main_v3 (broadcastInDim S4x1x1x32x1 ![] bcast_S_S4x1x1x32x1 : (⟨S_, .f32⟩ : BufTy).Contents (Elt F) → (⟨S4x1x1x32x1, .f32⟩ : BufTy).Contents (Elt F)),
    binary main_v2 main_v3 main_v4 (Host.divf : (⟨S4x1x1x32x1, .f32⟩ : BufTy).Contents (Elt F) → (⟨S4x1x1x32x1, .f32⟩ : BufTy).Contents (Elt F) → (⟨S4x1x1x32x1, .f32⟩ : BufTy).Contents (Elt F)),
    nullary main_c (constantI S_ 32 0#32),
    TRef.nullary main_call0.cst (constant S_ .f32 0x00000000#32),
    TRef.binary (.of main_v0) main_call0.cst main_call0.v0 (fun x v => Host.reduceAdd x v reducesTo_S4x64x64x32x16_S4x32_d1_2_4 h_S_),
    TRef.unary main_call0.v0 main_call0.v1 (broadcastInDim S4x1x1x32x1 ![0, 3] bcast_S4x32_S4x1x1x32x1_0_3),
    TRef.nullary main_call0.cst_0 (constant S_ .f32 0x47800000#32),
    TRef.unary main_call0.cst_0 main_call0.v2 (broadcastInDim S4x1x1x32x1 ![] bcast_S_S4x1x1x32x1),
    TRef.binary main_call0.v1 main_call0.v2 main_call0.v3 Host.divf,
    TRef.unary main_call0.v3 main_call0.v4 (broadcastInDim S4x64x64x32x16 ![0, 1, 2, 3, 4] bcast_S4x1x1x32x1_S4x64x64x32x16_0_1_2_3_4),
    TRef.binary (.of main_v0) main_call0.v4 main_call0.v5 subf,
    TRef.binary main_call0.v5 main_call0.v5 main_call0.v6 mulf,
    TRef.unary (.of main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x64x64x32x16_S4x32_d1_2_4 h_S_),
    TRef.unary main_call0.v9 main_call0.v10 (broadcastInDim S4x1x1x32x1 ![0, 3] bcast_S4x32_S4x1x1x32x1_0_3),
    TRef.unary main_call0.v8 main_call0.v11 (broadcastInDim S4x1x1x32x1 ![] bcast_S_S4x1x1x32x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x1x1x32x1 ![] bcast_S_S4x1x1x32x1),
    TRef.ternary main_call0.v13 main_call0.v12 main_call0.call0.v1 main_call0.call0.v2 (fun p a b => select (broadcastInDim S4x1x1x32x1 ![] bcast_S_S4x1x1x32x1 p) a b),
    unary main_v4 main_v6 (broadcastInDim S4x64x64x32x16 ![0, 1, 2, 3, 4] bcast_S4x1x1x32x1_S4x64x64x32x16_0_1_2_3_4 : (⟨S4x1x1x32x1, .f32⟩ : BufTy).Contents (Elt F) → (⟨S4x64x64x32x16, .f32⟩ : BufTy).Contents (Elt F)),
    binary main_v0 main_v6 main_v7 (subf : (⟨S4x64x64x32x16, .f32⟩ : BufTy).Contents (Elt F) → (⟨S4x64x64x32x16, .f32⟩ : BufTy).Contents (Elt F) → (⟨S4x64x64x32x16, .f32⟩ : BufTy).Contents (Elt F)),
    nullary main_cst_1 (constant S_ .f32 0x3727C5AC#32),
    unary main_cst_1 main_v8 (broadcastInDim S4x1x1x32x1 ![] bcast_S_S4x1x1x32x1 : (⟨S_, .f32⟩ : BufTy).Contents (Elt F) → (⟨S4x1x1x32x1, .f32⟩ : BufTy).Contents (Elt F)),
    binary main_v5 main_v8 main_v9 (addf : (⟨S4x1x1x32x1, .f32⟩ : BufTy).Contents (Elt F) → (⟨S4x1x1x32x1, .f32⟩ : BufTy).Contents (Elt F) → (⟨S4x1x1x32x1, .f32⟩ : BufTy).Contents (Elt F)),
    unary main_v9 main_v10 (Host.rsqrt : (⟨S4x1x1x32x1, .f32⟩ : BufTy).Contents (Elt F) → (⟨S4x1x1x32x1, .f32⟩ : BufTy).Contents (Elt F)),
    unary main_v10 main_v11 (broadcastInDim S4x64x64x32x16 ![0, 1, 2, 3, 4] bcast_S4x1x1x32x1_S4x64x64x32x16_0_1_2_3_4 : (⟨S4x1x1x32x1, .f32⟩ : BufTy).Contents (Elt F) → (⟨S4x64x64x32x16, .f32⟩ : BufTy).Contents (Elt F)),
    binary main_v7 main_v11 main_v12 (mulf : (⟨S4x64x64x32x16, .f32⟩ : BufTy).Contents (Elt F) → (⟨S4x64x64x32x16, .f32⟩ : BufTy).Contents (Elt F) → (⟨S4x64x64x32x16, .f32⟩ : BufTy).Contents (Elt F)),
    reshape main_v12 main_v13 rfl shapeCasts_S4x64x64x32x16_S4x64x64x512,
    unary main_arg1 main_v14 (broadcastInDim S1x1x1x512 ![3] bcast_S512_S1x1x1x512_3 : (⟨S512, .f32⟩ : BufTy).Contents (Elt F) → (⟨S1x1x1x512, .f32⟩ : BufTy).Contents (Elt F)),
    unary main_v14 main_v15 (broadcastInDim S4x64x64x512 ![0, 1, 2, 3] bcast_S1x1x1x512_S4x64x64x512_0_1_2_3 : (⟨S1x1x1x512, .f32⟩ : BufTy).Contents (Elt F) → (⟨S4x64x64x512, .f32⟩ : BufTy).Contents (Elt F)),
    binary main_v13 main_v15 main_v16 (mulf : (⟨S4x64x64x512, .f32⟩ : BufTy).Contents (Elt F) → (⟨S4x64x64x512, .f32⟩ : BufTy).Contents (Elt F) → (⟨S4x64x64x512, .f32⟩ : BufTy).Contents (Elt F)),
    unary main_arg2 main_v17 (broadcastInDim S1x1x1x512 ![3] bcast_S512_S1x1x1x512_3 : (⟨S512, .f32⟩ : BufTy).Contents (Elt F) → (⟨S1x1x1x512, .f32⟩ : BufTy).Contents (Elt F)),
    unary main_v17 main_v18 (broadcastInDim S4x64x64x512 ![0, 1, 2, 3] bcast_S1x1x1x512_S4x64x64x512_0_1_2_3 : (⟨S1x1x1x512, .f32⟩ : BufTy).Contents (Elt F) → (⟨S4x64x64x512, .f32⟩ : BufTy).Contents (Elt F)),
    binary main_v16 main_v18 main_v19 (addf : (⟨S4x64x64x512, .f32⟩ : BufTy).Contents (Elt F) → (⟨S4x64x64x512, .f32⟩ : BufTy).Contents (Elt F) → (⟨S4x64x64x512, .f32⟩ : BufTy).Contents (Elt F)),
    binary main_v19 main_arg3 main_v20 ((fun l r => Host.dotGeneral dot_S4x64x64x512_S512x512_S4x64x64x512_3_0_012_1_n_n none l r) : (⟨S4x64x64x512, .f32⟩ : BufTy).Contents (Elt F) → (⟨S512x512, .f32⟩ : BufTy).Contents (Elt F) → (⟨S4x64x64x512, .f32⟩ : BufTy).Contents (Elt F)),
    unary main_arg4 main_v21 (broadcastInDim S1x1x1x512 ![3] bcast_S512_S1x1x1x512_3 : (⟨S512, .f32⟩ : BufTy).Contents (Elt F) → (⟨S1x1x1x512, .f32⟩ : BufTy).Contents (Elt F)),
    unary main_v21 main_v22 (broadcastInDim S4x64x64x512 ![0, 1, 2, 3] bcast_S1x1x1x512_S4x64x64x512_0_1_2_3 : (⟨S1x1x1x512, .f32⟩ : BufTy).Contents (Elt F) → (⟨S4x64x64x512, .f32⟩ : BufTy).Contents (Elt F)),
    binary main_v20 main_v22 main_v23 (addf : (⟨S4x64x64x512, .f32⟩ : BufTy).Contents (Elt F) → (⟨S4x64x64x512, .f32⟩ : BufTy).Contents (Elt F) → (⟨S4x64x64x512, .f32⟩ : BufTy).Contents (Elt F)),
    reshape main_v23 main_v24 rfl shapeCasts_S4x64x64x512_S4x4096x512,
    binary main_v19 main_arg5 main_v25 ((fun l r => Host.dotGeneral dot_S4x64x64x512_S512x512_S4x64x64x512_3_0_012_1_n_n none l r) : (⟨S4x64x64x512, .f32⟩ : BufTy).Contents (Elt F) → (⟨S512x512, .f32⟩ : BufTy).Contents (Elt F) → (⟨S4x64x64x512, .f32⟩ : BufTy).Contents (Elt F)),
    unary main_arg6 main_v26 (broadcastInDim S1x1x1x512 ![3] bcast_S512_S1x1x1x512_3 : (⟨S512, .f32⟩ : BufTy).Contents (Elt F) → (⟨S1x1x1x512, .f32⟩ : BufTy).Contents (Elt F)),
    unary main_v26 main_v27 (broadcastInDim S4x64x64x512 ![0, 1, 2, 3] bcast_S1x1x1x512_S4x64x64x512_0_1_2_3 : (⟨S1x1x1x512, .f32⟩ : BufTy).Contents (Elt F) → (⟨S4x64x64x512, .f32⟩ : BufTy).Contents (Elt F)),
    binary main_v25 main_v27 main_v28 (addf : (⟨S4x64x64x512, .f32⟩ : BufTy).Contents (Elt F) → (⟨S4x64x64x512, .f32⟩ : BufTy).Contents (Elt F) → (⟨S4x64x64x512, .f32⟩ : BufTy).Contents (Elt F)),
    reshape main_v28 main_v29 rfl shapeCasts_S4x64x64x512_S4x4096x512,
    binary main_v19 main_arg7 main_v30 ((fun l r => Host.dotGeneral dot_S4x64x64x512_S512x512_S4x64x64x512_3_0_012_1_n_n none l r) : (⟨S4x64x64x512, .f32⟩ : BufTy).Contents (Elt F) → (⟨S512x512, .f32⟩ : BufTy).Contents (Elt F) → (⟨S4x64x64x512, .f32⟩ : BufTy).Contents (Elt F)),
    unary main_arg8 main_v31 (broadcastInDim S1x1x1x512 ![3] bcast_S512_S1x1x1x512_3 : (⟨S512, .f32⟩ : BufTy).Contents (Elt F) → (⟨S1x1x1x512, .f32⟩ : BufTy).Contents (Elt F)),
    unary main_v31 main_v32 (broadcastInDim S4x64x64x512 ![0, 1, 2, 3] bcast_S1x1x1x512_S4x64x64x512_0_1_2_3 : (⟨S1x1x1x512, .f32⟩ : BufTy).Contents (Elt F) → (⟨S4x64x64x512, .f32⟩ : BufTy).Contents (Elt F)),
    binary main_v30 main_v32 main_v33 (addf : (⟨S4x64x64x512, .f32⟩ : BufTy).Contents (Elt F) → (⟨S4x64x64x512, .f32⟩ : BufTy).Contents (Elt F) → (⟨S4x64x64x512, .f32⟩ : BufTy).Contents (Elt F)),
    reshape main_v33 main_v34 rfl shapeCasts_S4x64x64x512_S4x4096x512,
    binary main_v24 main_v29 main_v35 ((fun l r => Host.dotGeneral dot_S4x4096x512_S4x4096x512_S4x4096x4096_2_2_1_1_0_0 none l r) : (⟨S4x4096x512, .f32⟩ : BufTy).Contents (Elt F) → (⟨S4x4096x512, .f32⟩ : BufTy).Contents (Elt F) → (⟨S4x4096x4096, .f32⟩ : BufTy).Contents (Elt F)),
    nullary main_cst_2 (constant S_ .f32 0x3D3504F3#32),
    unary main_cst_2 main_v36 (broadcastInDim S4x4096x4096 ![] bcast_S_S4x4096x4096 : (⟨S_, .f32⟩ : BufTy).Contents (Elt F) → (⟨S4x4096x4096, .f32⟩ : BufTy).Contents (Elt F)),
    binary main_v35 main_v36 main_v37 (mulf : (⟨S4x4096x4096, .f32⟩ : BufTy).Contents (Elt F) → (⟨S4x4096x4096, .f32⟩ : BufTy).Contents (Elt F) → (⟨S4x4096x4096, .f32⟩ : BufTy).Contents (Elt F)),
    nullary main_cst_3 (constant S_ .f32 0xFF800000#32),
    binary main_v37 main_cst_3 main_v38 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    nullary main_cst_4 (constant S_ .f32 0xFF800000#32),
    unary main_cst_4 main_v39 (broadcastInDim S4x4096 ![] bcast_S_S4x4096 : (⟨S_, .f32⟩ : BufTy).Contents (Elt F) → (⟨S4x4096, .f32⟩ : BufTy).Contents (Elt F)),
    binary main_v39 main_v38 main_v40 (maximumf : (⟨S4x4096, .f32⟩ : BufTy).Contents (Elt F) → (⟨S4x4096, .f32⟩ : BufTy).Contents (Elt F) → (⟨S4x4096, .f32⟩ : BufTy).Contents (Elt F)),
    unary main_v40 main_v41 (broadcastInDim S4x4096x1 ![0, 1] bcast_S4x4096_S4x4096x1_0_1 : (⟨S4x4096, .f32⟩ : BufTy).Contents (Elt F) → (⟨S4x4096x1, .f32⟩ : BufTy).Contents (Elt F)),
    unary main_v41 main_v42 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v37 main_v42 main_v43 (subf : (⟨S4x4096x4096, .f32⟩ : BufTy).Contents (Elt F) → (⟨S4x4096x4096, .f32⟩ : BufTy).Contents (Elt F) → (⟨S4x4096x4096, .f32⟩ : BufTy).Contents (Elt F)),
    unary main_v43 main_v44 (Host.exp : (⟨S4x4096x4096, .f32⟩ : BufTy).Contents (Elt F) → (⟨S4x4096x4096, .f32⟩ : BufTy).Contents (Elt F)),
    nullary main_cst_5 (constant S_ .f32 0x00000000#32),
    binary main_v44 main_cst_5 main_v45 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v45 main_v46 (broadcastInDim S4x4096x1 ![0, 1] bcast_S4x4096_S4x4096x1_0_1 : (⟨S4x4096, .f32⟩ : BufTy).Contents (Elt F) → (⟨S4x4096x1, .f32⟩ : BufTy).Contents (Elt F)),
    unary main_v46 main_v47 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v44 main_v47 main_v48 (Host.divf : (⟨S4x4096x4096, .f32⟩ : BufTy).Contents (Elt F) → (⟨S4x4096x4096, .f32⟩ : BufTy).Contents (Elt F) → (⟨S4x4096x4096, .f32⟩ : BufTy).Contents (Elt F)),
    binary main_v48 main_v34 main_v49 ((fun l r => Host.dotGeneral dot_S4x4096x4096_S4x4096x512_S4x4096x512_2_1_1_2_0_0 none l r) : (⟨S4x4096x4096, .f32⟩ : BufTy).Contents (Elt F) → (⟨S4x4096x512, .f32⟩ : BufTy).Contents (Elt F) → (⟨S4x4096x512, .f32⟩ : BufTy).Contents (Elt F)),
    reshape main_v49 main_v50 rfl shapeCasts_S4x4096x512_S4x64x64x512,
    binary main_v50 main_arg9 main_v51 ((fun l r => Host.dotGeneral dot_S4x64x64x512_S512x512_S4x64x64x512_3_0_012_1_n_n none l r) : (⟨S4x64x64x512, .f32⟩ : BufTy).Contents (Elt F) → (⟨S512x512, .f32⟩ : BufTy).Contents (Elt F) → (⟨S4x64x64x512, .f32⟩ : BufTy).Contents (Elt F)),
    unary main_arg10 main_v52 (broadcastInDim S1x1x1x512 ![3] bcast_S512_S1x1x1x512_3 : (⟨S512, .f32⟩ : BufTy).Contents (Elt F) → (⟨S1x1x1x512, .f32⟩ : BufTy).Contents (Elt F)),
    unary main_v52 main_v53 (broadcastInDim S4x64x64x512 ![0, 1, 2, 3] bcast_S1x1x1x512_S4x64x64x512_0_1_2_3 : (⟨S1x1x1x512, .f32⟩ : BufTy).Contents (Elt F) → (⟨S4x64x64x512, .f32⟩ : BufTy).Contents (Elt F)),
    binary main_v51 main_v53 main_v54 (addf : (⟨S4x64x64x512, .f32⟩ : BufTy).Contents (Elt F) → (⟨S4x64x64x512, .f32⟩ : BufTy).Contents (Elt F) → (⟨S4x64x64x512, .f32⟩ : BufTy).Contents (Elt F)),
    binary main_arg0 main_v54 main_v55 (addf : (⟨S4x64x64x512, .f32⟩ : BufTy).Contents (Elt F) → (⟨S4x64x64x512, .f32⟩ : BufTy).Contents (Elt F) → (⟨S4x64x64x512, .f32⟩ : BufTy).Contents (Elt F)) ]

set_option maxRecDepth 4096 in
set_option maxHeartbeats 8000000 in
/-- The entry function is that straight line: the called functions unfolded at their calls, sequencing reassociated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., binary_bufs_sub .., unary_bufs_sub .., unary_bufs_sub .., binary_bufs_sub .., binary_bufs_sub ..⟩

end Ops

/-! ## The stages downstream of the normalised activations, as terms of their operands -/

/-- A per-channel vector spread over batch, row and column. -/
def tRow (b : FVec Ideal S512 .f32) : FVec Ideal S4x64x64x512 .f32 :=
  broadcastInDim S4x64x64x512 ![0, 1, 2, 3] bcast_S1x1x1x512_S4x64x64x512_0_1_2_3
    (broadcastInDim S1x1x1x512 ![3] bcast_S512_S1x1x1x512_3 b)

/-- A dense layer per pixel: the contraction of the channel axis against a weight matrix, plus a bias. -/
def tDense (h : FVec Ideal S4x64x64x512 .f32) (w : FVec Ideal S512x512 .f32) (b : FVec Ideal S512 .f32) :
    FVec Ideal S4x64x64x512 .f32 :=
  addf (Host.dotGeneral (F := Ideal) dot_S4x64x64x512_S512x512_S4x64x64x512_3_0_012_1_n_n none h w)
    (broadcastInDim S4x64x64x512 ![0, 1, 2, 3] bcast_S1x1x1x512_S4x64x64x512_0_1_2_3
      (broadcastInDim S1x1x1x512 ![3] bcast_S512_S1x1x1x512_3 b))

/-- An image batch read token-major. -/
def tTok (y : FVec Ideal S4x64x64x512 .f32) : FVec Ideal S4x4096x512 .f32 :=
  shapeCast S4x4096x512 y shapeCasts_S4x64x64x512_S4x4096x512

/-- The scaled scores: per batch, every query row against every key row, times the scale. -/
def tScores (q k : FVec Ideal S4x4096x512 .f32) : FVec Ideal S4x4096x4096 .f32 :=
  mulf (Host.dotGeneral (F := Ideal) dot_S4x4096x512_S4x4096x512_S4x4096x4096_2_2_1_1_0_0 none q k)
    (broadcastInDim S4x4096x4096 ![] bcast_S_S4x4096x4096 (constant (F := Ideal) S_ .f32 0x3D3504F3#32))

/-- A per-row value spread along the row. -/
def tRowB (m : FVec Ideal S4x4096 .f32) : FVec Ideal S4x4096x4096 .f32 :=
  broadcastInDim S4x4096x4096 ![0, 1, 2] bcast_S4x4096x1_S4x4096x4096_0_1_2
    (broadcastInDim S4x4096x1 ![0, 1] bcast_S4x4096_S4x4096x1_0_1 m)

/-- The row maximum, taken once more against the reduction's initial value. -/
def tMax (s : FVec Ideal S4x4096x4096 .f32) : FVec Ideal S4x4096 .f32 :=
  maximumf (broadcastInDim S4x4096 ![] bcast_S_S4x4096 (constant (F := Ideal) S_ .f32 0xFF800000#32))
    (Host.reduce (FloatOps.maximumf (F := Ideal)) s (constant (F := Ideal) S_ .f32 0xFF800000#32) reducesTo_S4x4096x4096_S4x4096_d2 h_S_)

/-- The exponentials of the scores shifted by their row maximum. -/
def tExp (s : FVec Ideal S4x4096x4096 .f32) : FVec Ideal S4x4096x4096 .f32 :=
  Host.exp (F := Ideal) (subf s
    (broadcastInDim S4x4096x4096 ![0, 1, 2] bcast_S4x4096x1_S4x4096x4096_0_1_2
      (broadcastInDim S4x4096x1 ![0, 1] bcast_S4x4096_S4x4096x1_0_1 (tMax s))))

/-- The row sums. -/
def tSum (p : FVec Ideal S4x4096x4096 .f32) : FVec Ideal S4x4096 .f32 :=
  Host.reduceAdd (F := Ideal) p (constant (F := Ideal) S_ .f32 0x00000000#32) reducesTo_S4x4096x4096_S4x4096_d2 h_S_

/-- Each row divided by its sum. -/
def tAttn (p : FVec Ideal S4x4096x4096 .f32) : FVec Ideal S4x4096x4096 .f32 :=
  Host.divf (F := Ideal) p
    (broadcastInDim S4x4096x4096 ![0, 1, 2] bcast_S4x4096x1_S4x4096x4096_0_1_2
      (broadcastInDim S4x4096x1 ![0, 1] bcast_S4x4096_S4x4096x1_0_1 (tSum p)))

/-- The weighted sums of the value rows, back as an image batch. -/
def tAv (a : FVec Ideal S4x4096x4096 .f32) (v : FVec Ideal S4x4096x512 .f32) : FVec Ideal S4x64x64x512 .f32 :=
  shapeCast S4x64x64x512 (Host.dotGeneral (F := Ideal) dot_S4x4096x4096_S4x4096x512_S4x4096x512_2_1_1_2_0_0 none a v)
    shapeCasts_S4x4096x512_S4x64x64x512

/-- The result from normalised activations h: attention over the three dense layers of h, the output layer, the residual. -/
def tOut (h : FVec Ideal S4x64x64x512 .f32) (wq : FVec Ideal S512x512 .f32) (bq : FVec Ideal S512 .f32)
    (wk : FVec Ideal S512x512 .f32) (bk : FVec Ideal S512 .f32) (wv : FVec Ideal S512x512 .f32) (bv : FVec Ideal S512 .f32)
    (wp : FVec Ideal S512x512 .f32) (bp : FVec Ideal S512 .f32) (x : FVec Ideal S4x64x64x512 .f32) :
    FVec Ideal S4x64x64x512 .f32 :=
  addf x (tDense (tAv (tAttn (tExp (tScores (tTok (tDense h wq bq)) (tTok (tDense h wk bk))))) (tTok (tDense h wv bv))) wp bp)

/-! ## The fold of the operations at the result and at the arguments -/

set_option maxRecDepth 16384 in
set_option maxHeartbeats 4000000 in
/-- The result buffer after the operations: each operation's result read at its own buffer, every other buffer kept. -/
theorem out_eq (V : Valuation τ sig (Elt Ideal)) :
    after (ops (F := Ideal)) V (main_v55 : DevRef τ sig)
      = tOut (Cert.GN.hT (V (main_arg0 : DevRef τ sig)) (V (main_arg1 : DevRef τ sig)) (V (main_arg2 : DevRef τ sig))) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg0 : DevRef τ sig)) := by
  after_results_simp
  rfl

set_option maxRecDepth 16384 in
set_option maxHeartbeats 4000000 in
theorem arg0_eq (V : Valuation τ sig (Elt Ideal)) :
    after (ops (F := Ideal)) V (main_arg0 : DevRef τ sig) = V (main_arg0 : DevRef τ sig) := by
  after_results_simp

set_option maxRecDepth 16384 in
set_option maxHeartbeats 4000000 in
theorem arg1_eq (V : Valuation τ sig (Elt Ideal)) :
    after (ops (F := Ideal)) V (main_arg1 : DevRef τ sig) = V (main_arg1 : DevRef τ sig) := by
  after_results_simp

set_option maxRecDepth 16384 in
set_option maxHeartbeats 4000000 in
theorem arg2_eq (V : Valuation τ sig (Elt Ideal)) :
    after (ops (F := Ideal)) V (main_arg2 : DevRef τ sig) = V (main_arg2 : DevRef τ sig) := by
  after_results_simp

set_option maxRecDepth 16384 in
set_option maxHeartbeats 4000000 in
theorem arg3_eq (V : Valuation τ sig (Elt Ideal)) :
    after (ops (F := Ideal)) V (main_arg3 : DevRef τ sig) = V (main_arg3 : DevRef τ sig) := by
  after_results_simp

set_option maxRecDepth 16384 in
set_option maxHeartbeats 4000000 in
theorem arg4_eq (V : Valuation τ sig (Elt Ideal)) :
    after (ops (F := Ideal)) V (main_arg4 : DevRef τ sig) = V (main_arg4 : DevRef τ sig) := by
  after_results_simp

set_option maxRecDepth 16384 in
set_option maxHeartbeats 4000000 in
theorem arg5_eq (V : Valuation τ sig (Elt Ideal)) :
    after (ops (F := Ideal)) V (main_arg5 : DevRef τ sig) = V (main_arg5 : DevRef τ sig) := by
  after_results_simp

set_option maxRecDepth 16384 in
set_option maxHeartbeats 4000000 in
theorem arg6_eq (V : Valuation τ sig (Elt Ideal)) :
    after (ops (F := Ideal)) V (main_arg6 : DevRef τ sig) = V (main_arg6 : DevRef τ sig) := by
  after_results_simp

set_option maxRecDepth 16384 in
set_option maxHeartbeats 4000000 in
theorem arg7_eq (V : Valuation τ sig (Elt Ideal)) :
    after (ops (F := Ideal)) V (main_arg7 : DevRef τ sig) = V (main_arg7 : DevRef τ sig) := by
  after_results_simp

set_option maxRecDepth 16384 in
set_option maxHeartbeats 4000000 in
theorem arg8_eq (V : Valuation τ sig (Elt Ideal)) :
    after (ops (F := Ideal)) V (main_arg8 : DevRef τ sig) = V (main_arg8 : DevRef τ sig) := by
  after_results_simp

set_option maxRecDepth 16384 in
set_option maxHeartbeats 4000000 in
theorem arg9_eq (V : Valuation τ sig (Elt Ideal)) :
    after (ops (F := Ideal)) V (main_arg9 : DevRef τ sig) = V (main_arg9 : DevRef τ sig) := by
  after_results_simp

set_option maxRecDepth 16384 in
set_option maxHeartbeats 4000000 in
theorem arg10_eq (V : Valuation τ sig (Elt Ideal)) :
    after (ops (F := Ideal)) V (main_arg10 : DevRef τ sig) = V (main_arg10 : DevRef τ sig) := by
  after_results_simp

/-! ## The run -/

/-- From any memory with zero counters every weakly fair execution of the entry function terminates with the result
    buffer at the composed term of the arguments' launch contents and every argument unchanged. -/
theorem run_terms (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55)
        = tOut (Cert.GN.hT (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c => ⟨(h c main_v55).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.Hand

end
-- ==== Proof.RefVal.lean ====
/-
  The reference's composed term read at an index is the specification: each stage downstream of the normalised
  activations is read at explicit coordinates (a dense layer as a sum over channels plus a bias, the token-major
  view, the scores as a scaled sum, the row maximum as a fold of max, the exponentials, the row sum, the quotient,
  the weighted sum of value rows), and the stages are chained as equations between token-major functions.
-/
import proofs.«147553_j25795573579973_2_alg».proof.Proof.RefRun
import Idealize.ShloMosaic.Lib.IdealHost
import Idealize.ShloMosaic.Lib.Pipeline.Value

noncomputable section

open scoped BigOperators

namespace Cert.ReferenceIdeal.Hand

open Cert.ReferenceIdeal Cert.ReferenceIdeal.Facts₀ Idealize.ShloMosaic Idealize.ShloMosaic.ValueIdx Idealize.SL.Sem
open Idealize.ShloMosaic.TcCoe
open Cert.Attn

/-! ## The operand indices of the three contractions, coordinate by coordinate -/

theorem d1_lhs_0 (i : S4x64x64x512.Idx) (q : dot_S4x64x64x512_S512x512_S4x64x64x512_3_0_012_1_n_n.contr.Idx) :
    (dot_S4x64x64x512_S512x512_S4x64x64x512_3_0_012_1_n_n.lhsIdx i q 0).val = (i 0).val := by
  unfold DotDims.lhsIdx
  rw [dif_neg (show ¬(0 : Fin S4x64x64x512.rank) ∈ dot_S4x64x64x512_S512x512_S4x64x64x512_3_0_012_1_n_n.lhsBatch by decide), dif_pos (show (0 : Fin S4x64x64x512.rank) ∈ dot_S4x64x64x512_S512x512_S4x64x64x512_3_0_012_1_n_n.lhsNonContracting by decide)]
  rfl

theorem d1_lhs_1 (i : S4x64x64x512.Idx) (q : dot_S4x64x64x512_S512x512_S4x64x64x512_3_0_012_1_n_n.contr.Idx) :
    (dot_S4x64x64x512_S512x512_S4x64x64x512_3_0_012_1_n_n.lhsIdx i q 1).val = (i 1).val := by
  unfold DotDims.lhsIdx
  rw [dif_neg (show ¬(1 : Fin S4x64x64x512.rank) ∈ dot_S4x64x64x512_S512x512_S4x64x64x512_3_0_012_1_n_n.lhsBatch by decide), dif_pos (show (1 : Fin S4x64x64x512.rank) ∈ dot_S4x64x64x512_S512x512_S4x64x64x512_3_0_012_1_n_n.lhsNonContracting by decide)]
  rfl

theorem d1_lhs_2 (i : S4x64x64x512.Idx) (q : dot_S4x64x64x512_S512x512_S4x64x64x512_3_0_012_1_n_n.contr.Idx) :
    (dot_S4x64x64x512_S512x512_S4x64x64x512_3_0_012_1_n_n.lhsIdx i q 2).val = (i 2).val := by
  unfold DotDims.lhsIdx
  rw [dif_neg (show ¬(2 : Fin S4x64x64x512.rank) ∈ dot_S4x64x64x512_S512x512_S4x64x64x512_3_0_012_1_n_n.lhsBatch by decide), dif_pos (show (2 : Fin S4x64x64x512.rank) ∈ dot_S4x64x64x512_S512x512_S4x64x64x512_3_0_012_1_n_n.lhsNonContracting by decide)]
  rfl

theorem d1_lhs_3 (i : S4x64x64x512.Idx) (q : dot_S4x64x64x512_S512x512_S4x64x64x512_3_0_012_1_n_n.contr.Idx) :
    (dot_S4x64x64x512_S512x512_S4x64x64x512_3_0_012_1_n_n.lhsIdx i q 3).val = (q ⟨0, by decide⟩).val :=
  dot_S4x64x64x512_S512x512_S4x64x64x512_3_0_012_1_n_n.lhsIdx_val_of_single rfl i q

theorem d1_rhs_0 (i : S4x64x64x512.Idx) (q : dot_S4x64x64x512_S512x512_S4x64x64x512_3_0_012_1_n_n.contr.Idx) :
    (dot_S4x64x64x512_S512x512_S4x64x64x512_3_0_012_1_n_n.rhsIdx i q 0).val = (q ⟨0, by decide⟩).val :=
  dot_S4x64x64x512_S512x512_S4x64x64x512_3_0_012_1_n_n.rhsIdx_val_of_single rfl i q

theorem d1_rhs_1 (i : S4x64x64x512.Idx) (q : dot_S4x64x64x512_S512x512_S4x64x64x512_3_0_012_1_n_n.contr.Idx) :
    (dot_S4x64x64x512_S512x512_S4x64x64x512_3_0_012_1_n_n.rhsIdx i q 1).val = (i 3).val := by
  unfold DotDims.rhsIdx
  rw [dif_neg (show ¬(1 : Fin S512x512.rank) ∈ dot_S4x64x64x512_S512x512_S4x64x64x512_3_0_012_1_n_n.rhsBatch by decide), dif_pos (show (1 : Fin S512x512.rank) ∈ dot_S4x64x64x512_S512x512_S4x64x64x512_3_0_012_1_n_n.rhsNonContracting by decide)]
  rfl

theorem d2_lhs_0 (i : S4x4096x4096.Idx) (q : dot_S4x4096x512_S4x4096x512_S4x4096x4096_2_2_1_1_0_0.contr.Idx) :
    (dot_S4x4096x512_S4x4096x512_S4x4096x4096_2_2_1_1_0_0.lhsIdx i q 0).val = (i 0).val := by
  unfold DotDims.lhsIdx
  rw [dif_pos (show (0 : Fin S4x4096x512.rank) ∈ dot_S4x4096x512_S4x4096x512_S4x4096x4096_2_2_1_1_0_0.lhsBatch by decide)]
  rfl

theorem d2_lhs_1 (i : S4x4096x4096.Idx) (q : dot_S4x4096x512_S4x4096x512_S4x4096x4096_2_2_1_1_0_0.contr.Idx) :
    (dot_S4x4096x512_S4x4096x512_S4x4096x4096_2_2_1_1_0_0.lhsIdx i q 1).val = (i 1).val := by
  unfold DotDims.lhsIdx
  rw [dif_neg (show ¬(1 : Fin S4x4096x512.rank) ∈ dot_S4x4096x512_S4x4096x512_S4x4096x4096_2_2_1_1_0_0.lhsBatch by decide), dif_pos (show (1 : Fin S4x4096x512.rank) ∈ dot_S4x4096x512_S4x4096x512_S4x4096x4096_2_2_1_1_0_0.lhsNonContracting by decide)]
  rfl

theorem d2_lhs_2 (i : S4x4096x4096.Idx) (q : dot_S4x4096x512_S4x4096x512_S4x4096x4096_2_2_1_1_0_0.contr.Idx) :
    (dot_S4x4096x512_S4x4096x512_S4x4096x4096_2_2_1_1_0_0.lhsIdx i q 2).val = (q ⟨0, by decide⟩).val :=
  dot_S4x4096x512_S4x4096x512_S4x4096x4096_2_2_1_1_0_0.lhsIdx_val_of_single rfl i q

theorem d2_rhs_0 (i : S4x4096x4096.Idx) (q : dot_S4x4096x512_S4x4096x512_S4x4096x4096_2_2_1_1_0_0.contr.Idx) :
    (dot_S4x4096x512_S4x4096x512_S4x4096x4096_2_2_1_1_0_0.rhsIdx i q 0).val = (i 0).val := by
  unfold DotDims.rhsIdx
  rw [dif_pos (show (0 : Fin S4x4096x512.rank) ∈ dot_S4x4096x512_S4x4096x512_S4x4096x4096_2_2_1_1_0_0.rhsBatch by decide)]
  rfl

theorem d2_rhs_1 (i : S4x4096x4096.Idx) (q : dot_S4x4096x512_S4x4096x512_S4x4096x4096_2_2_1_1_0_0.contr.Idx) :
    (dot_S4x4096x512_S4x4096x512_S4x4096x4096_2_2_1_1_0_0.rhsIdx i q 1).val = (i 2).val := by
  unfold DotDims.rhsIdx
  rw [dif_neg (show ¬(1 : Fin S4x4096x512.rank) ∈ dot_S4x4096x512_S4x4096x512_S4x4096x4096_2_2_1_1_0_0.rhsBatch by decide), dif_pos (show (1 : Fin S4x4096x512.rank) ∈ dot_S4x4096x512_S4x4096x512_S4x4096x4096_2_2_1_1_0_0.rhsNonContracting by decide)]
  rfl

theorem d2_rhs_2 (i : S4x4096x4096.Idx) (q : dot_S4x4096x512_S4x4096x512_S4x4096x4096_2_2_1_1_0_0.contr.Idx) :
    (dot_S4x4096x512_S4x4096x512_S4x4096x4096_2_2_1_1_0_0.rhsIdx i q 2).val = (q ⟨0, by decide⟩).val :=
  dot_S4x4096x512_S4x4096x512_S4x4096x4096_2_2_1_1_0_0.rhsIdx_val_of_single rfl i q

theorem d3_lhs_0 (i : S4x4096x512.Idx) (q : dot_S4x4096x4096_S4x4096x512_S4x4096x512_2_1_1_2_0_0.contr.Idx) :
    (dot_S4x4096x4096_S4x4096x512_S4x4096x512_2_1_1_2_0_0.lhsIdx i q 0).val = (i 0).val := by
  unfold DotDims.lhsIdx
  rw [dif_pos (show (0 : Fin S4x4096x4096.rank) ∈ dot_S4x4096x4096_S4x4096x512_S4x4096x512_2_1_1_2_0_0.lhsBatch by decide)]
  rfl

theorem d3_lhs_1 (i : S4x4096x512.Idx) (q : dot_S4x4096x4096_S4x4096x512_S4x4096x512_2_1_1_2_0_0.contr.Idx) :
    (dot_S4x4096x4096_S4x4096x512_S4x4096x512_2_1_1_2_0_0.lhsIdx i q 1).val = (i 1).val := by
  unfold DotDims.lhsIdx
  rw [dif_neg (show ¬(1 : Fin S4x4096x4096.rank) ∈ dot_S4x4096x4096_S4x4096x512_S4x4096x512_2_1_1_2_0_0.lhsBatch by decide), dif_pos (show (1 : Fin S4x4096x4096.rank) ∈ dot_S4x4096x4096_S4x4096x512_S4x4096x512_2_1_1_2_0_0.lhsNonContracting by decide)]
  rfl

theorem d3_lhs_2 (i : S4x4096x512.Idx) (q : dot_S4x4096x4096_S4x4096x512_S4x4096x512_2_1_1_2_0_0.contr.Idx) :
    (dot_S4x4096x4096_S4x4096x512_S4x4096x512_2_1_1_2_0_0.lhsIdx i q 2).val = (q ⟨0, by decide⟩).val :=
  dot_S4x4096x4096_S4x4096x512_S4x4096x512_2_1_1_2_0_0.lhsIdx_val_of_single rfl i q

theorem d3_rhs_0 (i : S4x4096x512.Idx) (q : dot_S4x4096x4096_S4x4096x512_S4x4096x512_2_1_1_2_0_0.contr.Idx) :
    (dot_S4x4096x4096_S4x4096x512_S4x4096x512_2_1_1_2_0_0.rhsIdx i q 0).val = (i 0).val := by
  unfold DotDims.rhsIdx
  rw [dif_pos (show (0 : Fin S4x4096x512.rank) ∈ dot_S4x4096x4096_S4x4096x512_S4x4096x512_2_1_1_2_0_0.rhsBatch by decide)]
  rfl

theorem d3_rhs_1 (i : S4x4096x512.Idx) (q : dot_S4x4096x4096_S4x4096x512_S4x4096x512_2_1_1_2_0_0.contr.Idx) :
    (dot_S4x4096x4096_S4x4096x512_S4x4096x512_2_1_1_2_0_0.rhsIdx i q 1).val = (q ⟨0, by decide⟩).val :=
  dot_S4x4096x4096_S4x4096x512_S4x4096x512_2_1_1_2_0_0.rhsIdx_val_of_single rfl i q

theorem d3_rhs_2 (i : S4x4096x512.Idx) (q : dot_S4x4096x4096_S4x4096x512_S4x4096x512_2_1_1_2_0_0.contr.Idx) :
    (dot_S4x4096x4096_S4x4096x512_S4x4096x512_2_1_1_2_0_0.rhsIdx i q 2).val = (i 2).val := by
  unfold DotDims.rhsIdx
  rw [dif_neg (show ¬(2 : Fin S4x4096x512.rank) ∈ dot_S4x4096x4096_S4x4096x512_S4x4096x512_2_1_1_2_0_0.rhsBatch by decide), dif_pos (show (2 : Fin S4x4096x512.rank) ∈ dot_S4x4096x4096_S4x4096x512_S4x4096x512_2_1_1_2_0_0.rhsNonContracting by decide)]
  rfl

/-! ## The three contractions as sums over the contracted coordinate -/

theorem dense_dot_apply (l : FVec Ideal S4x64x64x512 .f32) (r : FVec Ideal S512x512 .f32) (b : Fin 4) (hh ww : Fin 64) (d : Fin 512) :
    Host.dotGeneral (F := Ideal) dot_S4x64x64x512_S512x512_S4x64x64x512_3_0_012_1_n_n none l r (ix4 b hh ww d)
      = ∑ k : Fin 512, l (ix4 b hh ww k) * r (ix2 k d) := by
  simp only [Host.dotGeneral]
  rw [Ideal.dotGeneral_apply, ← Equiv.sum_comp (contrEquiv1 dot_S4x64x64x512_S512x512_S4x64x64x512_3_0_012_1_n_n 512 rfl rfl).symm]
  refine Finset.sum_congr rfl fun k _ => ?_
  have hk := contrEquiv1_symm_val dot_S4x64x64x512_S512x512_S4x64x64x512_3_0_012_1_n_n 512 rfl rfl k
  have el : dot_S4x64x64x512_S512x512_S4x64x64x512_3_0_012_1_n_n.lhsIdx (ix4 b hh ww d) ((contrEquiv1 dot_S4x64x64x512_S512x512_S4x64x64x512_3_0_012_1_n_n 512 rfl rfl).symm k) = ix4 b hh ww k := funext fun a => Fin.ext (by
    match a with
    | ⟨0, _⟩ => exact d1_lhs_0 _ _
    | ⟨1, _⟩ => exact d1_lhs_1 _ _
    | ⟨2, _⟩ => exact d1_lhs_2 _ _
    | ⟨3, _⟩ => exact (d1_lhs_3 _ _).trans hk)
  have er : dot_S4x64x64x512_S512x512_S4x64x64x512_3_0_012_1_n_n.rhsIdx (ix4 b hh ww d) ((contrEquiv1 dot_S4x64x64x512_S512x512_S4x64x64x512_3_0_012_1_n_n 512 rfl rfl).symm k) = ix2 k d := funext fun a => Fin.ext (by
    match a with
    | ⟨0, _⟩ => exact (d1_rhs_0 _ _).trans hk
    | ⟨1, _⟩ => exact d1_rhs_1 _ _)
  rw [el, er]

theorem scores_dot_apply (l : FVec Ideal S4x4096x512 .f32) (r : FVec Ideal S4x4096x512 .f32) (b : Fin 4) (i j : Fin 4096) :
    Host.dotGeneral (F := Ideal) dot_S4x4096x512_S4x4096x512_S4x4096x4096_2_2_1_1_0_0 none l r (ix3 b i j)
      = ∑ k : Fin 512, l (ix3 b i k) * r (ix3 b j k) := by
  simp only [Host.dotGeneral]
  rw [Ideal.dotGeneral_apply, ← Equiv.sum_comp (contrEquiv1 dot_S4x4096x512_S4x4096x512_S4x4096x4096_2_2_1_1_0_0 512 rfl rfl).symm]
  refine Finset.sum_congr rfl fun k _ => ?_
  have hk := contrEquiv1_symm_val dot_S4x4096x512_S4x4096x512_S4x4096x4096_2_2_1_1_0_0 512 rfl rfl k
  have el : dot_S4x4096x512_S4x4096x512_S4x4096x4096_2_2_1_1_0_0.lhsIdx (ix3 b i j) ((contrEquiv1 dot_S4x4096x512_S4x4096x512_S4x4096x4096_2_2_1_1_0_0 512 rfl rfl).symm k) = ix3 b i k := funext fun a => Fin.ext (by
    match a with
    | ⟨0, _⟩ => exact d2_lhs_0 _ _
    | ⟨1, _⟩ => exact d2_lhs_1 _ _
    | ⟨2, _⟩ => exact (d2_lhs_2 _ _).trans hk)
  have er : dot_S4x4096x512_S4x4096x512_S4x4096x4096_2_2_1_1_0_0.rhsIdx (ix3 b i j) ((contrEquiv1 dot_S4x4096x512_S4x4096x512_S4x4096x4096_2_2_1_1_0_0 512 rfl rfl).symm k) = ix3 b j k := funext fun a => Fin.ext (by
    match a with
    | ⟨0, _⟩ => exact d2_rhs_0 _ _
    | ⟨1, _⟩ => exact d2_rhs_1 _ _
    | ⟨2, _⟩ => exact (d2_rhs_2 _ _).trans hk)
  rw [el, er]

theorem av_dot_apply (l : FVec Ideal S4x4096x4096 .f32) (r : FVec Ideal S4x4096x512 .f32) (b : Fin 4) (i : Fin 4096) (c : Fin 512) :
    Host.dotGeneral (F := Ideal) dot_S4x4096x4096_S4x4096x512_S4x4096x512_2_1_1_2_0_0 none l r (ix3 b i c)
      = ∑ k : Fin 4096, l (ix3 b i k) * r (ix3 b k c) := by
  simp only [Host.dotGeneral]
  rw [Ideal.dotGeneral_apply, ← Equiv.sum_comp (contrEquiv1 dot_S4x4096x4096_S4x4096x512_S4x4096x512_2_1_1_2_0_0 4096 rfl rfl).symm]
  refine Finset.sum_congr rfl fun k _ => ?_
  have hk := contrEquiv1_symm_val dot_S4x4096x4096_S4x4096x512_S4x4096x512_2_1_1_2_0_0 4096 rfl rfl k
  have el : dot_S4x4096x4096_S4x4096x512_S4x4096x512_2_1_1_2_0_0.lhsIdx (ix3 b i c) ((contrEquiv1 dot_S4x4096x4096_S4x4096x512_S4x4096x512_2_1_1_2_0_0 4096 rfl rfl).symm k) = ix3 b i k := funext fun a => Fin.ext (by
    match a with
    | ⟨0, _⟩ => exact d3_lhs_0 _ _
    | ⟨1, _⟩ => exact d3_lhs_1 _ _
    | ⟨2, _⟩ => exact (d3_lhs_2 _ _).trans hk)
  have er : dot_S4x4096x4096_S4x4096x512_S4x4096x512_2_1_1_2_0_0.rhsIdx (ix3 b i c) ((contrEquiv1 dot_S4x4096x4096_S4x4096x512_S4x4096x512_2_1_1_2_0_0 4096 rfl rfl).symm k) = ix3 b k c := funext fun a => Fin.ext (by
    match a with
    | ⟨0, _⟩ => exact d3_rhs_0 _ _
    | ⟨1, _⟩ => exact (d3_rhs_1 _ _).trans hk
    | ⟨2, _⟩ => exact d3_rhs_2 _ _)
  rw [el, er]

/-! ## Layout: broadcasts and the token-major view -/

/-- A per-channel vector spread over batch, row and column reads the channel's entry. -/
theorem bcRow_apply (v : FVec Ideal S512 .f32) (b : Fin 4) (hh ww : Fin 64) (c : Fin 512) :
    broadcastInDim S4x64x64x512 ![0, 1, 2, 3] bcast_S1x1x1x512_S4x64x64x512_0_1_2_3
      (broadcastInDim S1x1x1x512 ![3] bcast_S512_S1x1x1x512_3 v) (ix4 b hh ww c) = v (ix1 c) := by
  rw [broadcastInDim_apply _ _ _ (ix4 b hh ww c) (ix4 (0 : Fin 1) (0 : Fin 1) (0 : Fin 1) c)
        (fun a => by match a with | ⟨0, _⟩ => rfl | ⟨1, _⟩ => rfl | ⟨2, _⟩ => rfl | ⟨3, _⟩ => rfl),
      broadcastInDim_apply _ _ _ (ix4 (0 : Fin 1) (0 : Fin 1) (0 : Fin 1) c) (ix1 c)
        (fun a => by match a with | ⟨0, _⟩ => rfl)]

/-- A per-row value spread along the row reads the row's entry. -/
theorem bcLane_apply (m : FVec Ideal S4x4096 .f32) (b : Fin 4) (i j : Fin 4096) :
    broadcastInDim S4x4096x4096 ![0, 1, 2] bcast_S4x4096x1_S4x4096x4096_0_1_2
      (broadcastInDim S4x4096x1 ![0, 1] bcast_S4x4096_S4x4096x1_0_1 m) (ix3 b i j) = m (ix2 b i) := by
  rw [broadcastInDim_apply _ _ _ (ix3 b i j) (ix3 b i (0 : Fin 1))
        (fun a => by match a with | ⟨0, _⟩ => rfl | ⟨1, _⟩ => rfl | ⟨2, _⟩ => rfl),
      broadcastInDim_apply _ _ _ (ix3 b i (0 : Fin 1)) (ix2 b i)
        (fun a => by match a with | ⟨0, _⟩ => rfl | ⟨1, _⟩ => rfl)]

/-- Token n of the token-major view is pixel (n / 64, n % 64). -/
theorem tTok_apply (y : FVec Ideal S4x64x64x512 .f32) (b : Fin 4) (n : Fin 4096) (d : Fin 512) :
    tTok y (ix3 b n d) = y (ix4 b (tokH n) (tokW n) d) := by
  unfold tTok
  refine shapeCast_apply y _ (ix3 b n d) (ix4 b (tokH n) (tokW n) d) ?_
  rw [Shape.rowMajor_val_four, Shape.rowMajor_val_three]
  show ((b.val * 64 + n.val / 64) * 64 + n.val % 64) * 512 + d.val = (b.val * 4096 + n.val) * 512 + d.val
  have := n.isLt
  omega

/-- Pixel (h, w) of the image view of a token-major array is token 64 h + w. -/
theorem untok_apply (z : FVec Ideal S4x4096x512 .f32) (b : Fin 4) (hh ww : Fin 64) (c : Fin 512) :
    shapeCast S4x64x64x512 z shapeCasts_S4x4096x512_S4x64x64x512 (ix4 b hh ww c) = z (ix3 b (tok hh ww) c) := by
  refine shapeCast_apply z _ (ix4 b hh ww c) (ix3 b (tok hh ww) c) ?_
  rw [Shape.rowMajor_val_four, Shape.rowMajor_val_three]
  show (b.val * 4096 + (hh.val * 64 + ww.val)) * 512 + c.val = ((b.val * 64 + hh.val) * 64 + ww.val) * 512 + c.val
  omega

theorem tok_tokH_tokW (n : Fin 4096) : tok (tokH n) (tokW n) = n := by
  apply Fin.ext
  show n.val / 64 * 64 + n.val % 64 = n.val
  omega

/-- The index over (b, i) with k on the reduced lane axis. -/
theorem lift_lane (hR : S4x4096x4096.Reduces [2] S4x4096) (b : Fin 4) (i k : Fin 4096) :
    hR.lift (ix2 b i) k = ix3 b i k :=
  funext fun a => Fin.ext (by match a with | ⟨0, _⟩ => rfl | ⟨1, _⟩ => rfl | ⟨2, _⟩ => rfl)

/-! ## The stages read at an index -/

theorem tDense_apply (h : FVec Ideal S4x64x64x512 .f32) (w : FVec Ideal S512x512 .f32) (v : FVec Ideal S512 .f32)
    (b : Fin 4) (hh ww : Fin 64) (d : Fin 512) :
    tDense h w v (ix4 b hh ww d) = (∑ c : Fin 512, h (ix4 b hh ww c) * w (ix2 c d)) + v (ix1 d) := by
  unfold tDense
  rw [addf_apply, dense_dot_apply, bcRow_apply]

theorem tScores_apply (q k : FVec Ideal S4x4096x512 .f32) (b : Fin 4) (i j : Fin 4096) :
    tScores q k (ix3 b i j) = (∑ c : Fin 512, q (ix3 b i c) * k (ix3 b j c)) * cScale := by
  unfold tScores
  rw [mulf_apply, scores_dot_apply, broadcastInDim_scalar_apply, constant_apply]
  rfl

theorem tMax_apply (s : FVec Ideal S4x4096x4096 .f32) (b : Fin 4) (i : Fin 4096) :
    tMax s (ix2 b i)
      = max cNegInf ((Finset.univ : Finset (Fin 4096)).fold max cNegInf (fun j => s (ix3 b i j))) := by
  have hR : S4x4096x4096.Reduces [2] S4x4096 := by decide
  have e := Host.reduce_eq_fold_single (FloatOps.maximumf (F := Ideal) (φ := .f32)) s
    (constant (F := Ideal) S_ .f32 0xFF800000#32) reducesTo_S4x4096x4096_S4x4096_d2 hR h_S_ (ix2 b i)
  have hl : (s ∘ hR.lift (ix2 b i)) = fun j : Fin 4096 => s (ix3 b i j) :=
    funext fun k => congrArg s (lift_lane hR b i k)
  rw [hl, constant_apply] at e
  unfold tMax
  rw [maximumf_apply, broadcastInDim_scalar_apply, constant_apply, e]
  rfl

theorem tExp_apply (s : FVec Ideal S4x4096x4096 .f32) (b : Fin 4) (i j : Fin 4096) :
    tExp s (ix3 b i j) = Ideal.exp (s (ix3 b i j) - tMax s (ix2 b i)) := by
  unfold tExp
  show Ideal.exp (s (ix3 b i j) - (broadcastInDim S4x4096x4096 ![0, 1, 2] bcast_S4x4096x1_S4x4096x4096_0_1_2
      (broadcastInDim S4x4096x1 ![0, 1] bcast_S4x4096_S4x4096x1_0_1 (tMax s))) (ix3 b i j)) = _
  rw [bcLane_apply]

theorem tSum_apply (p : FVec Ideal S4x4096x4096 .f32) (b : Fin 4) (i : Fin 4096) :
    tSum p (ix2 b i) = ∑ j : Fin 4096, p (ix3 b i j) := by
  have hR : S4x4096x4096.Reduces [2] S4x4096 := by decide
  unfold tSum
  rw [hostReduceAdd_apply, Ideal.hostReduceAdd_single reducesTo_S4x4096x4096_S4x4096_d2 hR, constant_apply,
    Ideal.ofBits_zero_f32, zero_add]
  exact Finset.sum_congr rfl fun k _ => congrArg p (lift_lane hR b i k)

theorem tAttn_apply (p : FVec Ideal S4x4096x4096 .f32) (b : Fin 4) (i j : Fin 4096) :
    tAttn p (ix3 b i j) = Ideal.div (p (ix3 b i j)) (tSum p (ix2 b i)) := by
  unfold tAttn
  rw [hostDivf_apply, bcLane_apply]

theorem tAv_apply (a : FVec Ideal S4x4096x4096 .f32) (v : FVec Ideal S4x4096x512 .f32)
    (b : Fin 4) (hh ww : Fin 64) (c : Fin 512) :
    tAv a v (ix4 b hh ww c) = ∑ j : Fin 4096, a (ix3 b (tok hh ww) j) * v (ix3 b j c) := by
  unfold tAv
  rw [untok_apply, av_dot_apply]

/-! ## The stages as equations between token-major functions -/

/-- An image batch, and the two token-major array shapes, as functions of (batch, token, coordinate). -/
def viewX (h : XA) : TA := fun b n c => h (ix4 b (tokH n) (tokW n) c)
def view3 (a : FVec Ideal S4x4096x512 .f32) : TA := fun b n c => a (ix3 b n c)
def view33 (a : FVec Ideal S4x4096x4096 .f32) : Fin 4 → Fin 4096 → Fin 4096 → EReal := fun b i j => a (ix3 b i j)

theorem view3_tok_dense (h : XA) (w : MA) (v : VA) : view3 (tTok (tDense h w v)) = proj (viewX h) w v := by
  funext b n d
  show tTok (tDense h w v) (ix3 b n d) = (∑ c : Fin 512, h (ix4 b (tokH n) (tokW n) c) * w (ix2 c d)) + v (ix1 d)
  rw [tTok_apply, tDense_apply]

theorem view33_scores (q k : FVec Ideal S4x4096x512 .f32) : view33 (tScores q k) = scores (view3 q) (view3 k) := by
  funext b i j
  exact tScores_apply q k b i j

theorem view33_exp (s : FVec Ideal S4x4096x4096 .f32) :
    view33 (tExp s) = pexp (view33 s) (fun b i => max cNegInf (rowMax (view33 s) b i)) := by
  funext b i j
  show tExp s (ix3 b i j)
    = Ideal.exp (s (ix3 b i j) - max cNegInf ((Finset.univ : Finset (Fin 4096)).fold max cNegInf (fun j => s (ix3 b i j))))
  rw [tExp_apply, tMax_apply]

theorem view33_attn (p : FVec Ideal S4x4096x4096 .f32) :
    view33 (tAttn p) = attnR (view33 p) (rowSum (view33 p)) := by
  funext b i j
  show tAttn p (ix3 b i j) = Ideal.div (p (ix3 b i j)) (∑ j : Fin 4096, p (ix3 b i j))
  rw [tAttn_apply, tSum_apply]

theorem viewX_av (a : FVec Ideal S4x4096x4096 .f32) (v : FVec Ideal S4x4096x512 .f32) :
    viewX (tAv a v) = av (view33 a) (view3 v) := by
  funext b n c
  show tAv a v (ix4 b (tokH n) (tokW n) c) = ∑ j : Fin 4096, a (ix3 b n j) * v (ix3 b j c)
  rw [tAv_apply, tok_tokH_tokW]

theorem dense_view (o : XA) (w : MA) (v : VA) (b : Fin 4) (hh ww : Fin 64) (d : Fin 512) :
    tDense o w v (ix4 b hh ww d) = proj (viewX o) w v b (tok hh ww) d := by
  rw [tDense_apply]
  show _ = (∑ c : Fin 512, o (ix4 b (tokH (tok hh ww)) (tokW (tok hh ww)) c) * w (ix2 c d)) + v (ix1 d)
  rw [tokH_tok, tokW_tok]

/-! ## The composed term is the specification -/

theorem tOut_eq (h : XA) (wq : MA) (bq : VA) (wk : MA) (bk : VA) (wv : MA) (bv : VA) (wp : MA) (bp : VA) (x : XA) :
    tOut h wq bq wk bk wv bv wp bp x = img (outR (viewX h) wq bq wk bk wv bv wp bp x) := by
  funext j
  obtain ⟨b, hh, ww, d, rfl⟩ : ∃ (b : Fin 4) (hh ww : Fin 64) (d : Fin 512), j = ix4 b hh ww d :=
    ⟨j 0, j 1, j 2, j 3, eq_ix4 j⟩
  have e1 : tOut h wq bq wk bk wv bv wp bp x (ix4 b hh ww d)
      = xf x b (tok hh ww) d
        + proj (viewX (tAv (tAttn (tExp (tScores (tTok (tDense h wq bq)) (tTok (tDense h wk bk)))))
            (tTok (tDense h wv bv)))) wp bp b (tok hh ww) d := by
    unfold tOut
    rw [addf_apply, dense_view]
    show _ = x (ix4 b (tokH (tok hh ww)) (tokW (tok hh ww)) d) + _
    rw [tokH_tok, tokW_tok]
  rw [e1, viewX_av, view33_attn, view33_exp, view33_scores, view3_tok_dense, view3_tok_dense, view3_tok_dense]
  rfl

/-- Every weakly fair execution of the reference from a memory with zero counters ends with its result buffer at the
    specification's value of the arguments' launch contents, and with every argument unchanged. -/
theorem run [Cert.ReferenceIdeal.Facts]
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v55)
        = Cert.Attn.img (Cert.Attn.outR (fun b n ch => Cert.GN.hT (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (ix4 b (Cert.Attn.tokH n) (Cert.Attn.tokW n) ch))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))
            (m ((c.tc : Thread Cert.ReferenceIdeal.nD Cert.ReferenceIdeal.τ).loc Cert.ReferenceIdeal.main_arg0)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run (Cert.ReferenceIdeal.defs (F := Ideal)) _ _).mono
    (fun _ h c => ⟨(h c).1.trans (tOut_eq _ _ _ _ _ _ _ _ _ _), (h c).2⟩) (run_terms m ρ)

end Cert.ReferenceIdeal.Hand

end
-- ==== Proof.GNLaw.lean ====
/-
  Group normalisation: the kernel's folded affine form equals the reference's textbook form.

  Both programs compute, per (batch, group), the sum S of x over the 64 x 64 pixels and the 16 lanes of the group,
  the mean S / 65536, the sum Q of the centred squares, the variance Q / 65536 (the guard 65536 - 0 > 0 holds, so the
  guarded quotient is the quotient), and r = rsqrt (variance + eps) with eps > 0.  For real inputs S is real, the
  centred squares are reals that are not negative, so the variance is a real that is not negative, variance + eps is a
  positive real and r is the real (sqrt (variance + eps))^-1.  Reading every reshape and broadcast at an index
  (channel ch lies in group ch / 16 at lane ch % 16), the kernel's scale at (batch, channel) is gamma * r, its shift is
  beta - mean * (gamma * r), and the reference's value at a pixel is ((x - mean) * r) * gamma + beta, with the same mean
  and the same r.  With all five numbers real,  x * (gamma * r) + (beta - mean * (gamma * r)) = ((x - mean) * r) * gamma + beta
  is an identity of the real field.
-/
import proofs.«147553_j25795573579973_2_alg».proof.Proof.GNTerms
import proofs.«147553_j25795573579973_2_alg».proof.Proof.GNRun
import Idealize.ShloMosaic.Lib.Pipeline.Value
import Idealize.ShloMosaic.Lib.IdealHost
import Idealize.ShloMosaic.Lib.ValueIdx
import Idealize.ShloMosaic.PureOps.Ideal.Laws

noncomputable section

namespace Cert.GN

open Idealize.ShloMosaic Idealize.ShloMosaic.ValueIdx
open scoped BigOperators

/-! ## Real entries -/

/-- Every entry is a real number. -/
abbrev AllReal {ι : Type} (f : ι → EReal) : Prop := ∀ i, ∃ r : ℝ, f i = (r : EReal)

theorem sum_real {ι : Type} (t : Finset ι) (f : ι → EReal) (h : ∀ i ∈ t, ∃ r : ℝ, f i = (r : EReal)) :
    ∃ r : ℝ, ∑ i ∈ t, f i = (r : EReal) := by
  classical
  revert h
  refine Finset.induction_on t (fun _ => ⟨0, by simp⟩) ?_
  intro a s ha ih h
  obtain ⟨ra, hra⟩ := h a (Finset.mem_insert_self _ _)
  obtain ⟨rs, hrs⟩ := ih (fun i hi => h i (Finset.mem_insert_of_mem hi))
  exact ⟨ra + rs, by rw [Finset.sum_insert ha, hra, hrs, EReal.coe_add]⟩

theorem sum_real_nonneg {ι : Type} (t : Finset ι) (f : ι → EReal)
    (h : ∀ i ∈ t, ∃ r : ℝ, 0 ≤ r ∧ f i = (r : EReal)) :
    ∃ r : ℝ, 0 ≤ r ∧ ∑ i ∈ t, f i = (r : EReal) := by
  classical
  revert h
  refine Finset.induction_on t (fun _ => ⟨0, le_refl _, by simp⟩) ?_
  intro a s ha ih h
  obtain ⟨ra, hra0, hra⟩ := h a (Finset.mem_insert_self _ _)
  obtain ⟨rs, hrs0, hrs⟩ := ih (fun i hi => h i (Finset.mem_insert_of_mem hi))
  exact ⟨ra + rs, add_nonneg hra0 hrs0, by rw [Finset.sum_insert ha, hra, hrs, EReal.coe_add]⟩

theorem AllReal.bcast {s t : Shape} {dims : Fin s.rank → Fin t.rank} {h : s.BroadcastsInDim t dims}
    {v : s.Idx → EReal} (hv : AllReal v) : AllReal (broadcastInDim t dims h v) :=
  fun j => by unfold broadcastInDim; exact hv _

theorem AllReal.cast {s t : Shape} {h : s.ShapeCasts t} {v : s.Idx → EReal} (hv : AllReal v) :
    AllReal (shapeCast t v h) :=
  fun j => by unfold shapeCast; exact hv _

/-- The host sum from the zero constant of real entries is real. -/
theorem AllReal.reduce {s t u : Shape} {axes : List (Fin s.rank)} {h : s.ReducesTo axes t} {hu : 0 < u.numel}
    {v : FVec Ideal s .f32} (hv : AllReal v) :
    AllReal (Host.reduceAdd v (constant (F := Ideal) u .f32 0x00000000#32) h hu) := fun j => by
  rw [hostReduceAdd_apply]
  unfold Ideal.hostReduceAdd
  rw [constant_apply, Ideal.ofBits_zero_f32, zero_add]
  exact sum_real _ _ (fun i _ => hv i)

/-- The host sum from the zero constant of entries that are reals and not negative is a real that is not negative. -/
theorem reduce_nonneg {s t u : Shape} {axes : List (Fin s.rank)} {h : s.ReducesTo axes t} {hu : 0 < u.numel}
    {v : FVec Ideal s .f32} (hv : ∀ i, ∃ r : ℝ, 0 ≤ r ∧ v i = (r : EReal)) (j : t.Idx) :
    ∃ q : ℝ, 0 ≤ q ∧ Host.reduceAdd v (constant (F := Ideal) u .f32 0x00000000#32) h hu j = (q : EReal) := by
  rw [hostReduceAdd_apply]
  unfold Ideal.hostReduceAdd
  rw [constant_apply, Ideal.ofBits_zero_f32, zero_add]
  exact sum_real_nonneg _ _ (fun i _ => hv i)

/-! ## The literals and the corner operations at reals -/

theorem c65536 : Ideal.ofBits .f32 0x47800000#32 = ((65536 : ℝ) : EReal) := by
  simp [Ideal.ofBits, Ideal.ieee, -EReal.coe_mul]; norm_num

theorem cEps : Ideal.ofBits .f32 0x3727C5AC#32 = (((10995116 : ℝ) / 2 ^ 40 : ℝ) : EReal) := by
  simp [Ideal.ofBits, Ideal.ieee, -EReal.coe_mul]; norm_num

theorem div_real (q d : ℝ) (hd : d ≠ 0) : Ideal.div (q : EReal) (d : EReal) = ((q / d : ℝ) : EReal) := by
  unfold Ideal.div
  rw [if_neg (by exact_mod_cast hd), ← EReal.coe_inv, ← EReal.coe_mul, div_eq_mul_inv]

theorem rsqrt_pos (t : ℝ) (ht : 0 < t) : Ideal.rsqrt (t : EReal) = (((Real.sqrt t)⁻¹ : ℝ) : EReal) := by
  show (if t < 0 then (⊥ : EReal) else if t = 0 then ⊤ else (((Real.sqrt t)⁻¹ : ℝ) : EReal)) = _
  rw [if_neg (not_lt.mpr ht.le), if_neg ht.ne']

theorem cmp_gt : FloatOps.cmpf (F := Ideal) (φ := .f32) .ogt (((65536 : ℝ) : EReal)) (Ideal.ofBits .f32 0x00000000#32) = 1#1 := by
  rw [Ideal.ofBits_zero_f32]
  have h : (0 : EReal) < ((65536 : ℝ) : EReal) := by exact_mod_cast (by norm_num : (0 : ℝ) < 65536)
  show Ideal.cmp .ogt _ _ = _
  simp [Ideal.cmp, h]

theorem AllReal.divc {s : Shape} {A B : FVec Ideal s .f32} (hA : AllReal A) (d : ℝ) (hd : d ≠ 0)
    (hB : ∀ j, B j = (d : EReal)) : AllReal (Host.divf A B) := fun j => by
  obtain ⟨a, ha⟩ := hA j
  exact ⟨a / d, by rw [hostDivf_apply, ha, hB j, div_real a d hd]⟩

theorem forall_fin1 {P : Fin 1 → Prop} (h0 : P 0) : ∀ a, P a := by
  intro a; fin_cases a; exact h0
theorem forall_fin2 {P : Fin 2 → Prop} (h0 : P 0) (h1 : P 1) : ∀ a, P a := by
  intro a; fin_cases a <;> assumption
theorem forall_fin4 {P : Fin 4 → Prop} (h0 : P 0) (h1 : P 1) (h2 : P 2) (h3 : P 3) : ∀ a, P a := by
  intro a; fin_cases a <;> assumption
theorem forall_fin5 {P : Fin 5 → Prop} (h0 : P 0) (h1 : P 1) (h2 : P 2) (h3 : P 3) (h4 : P 4) : ∀ a, P a := by
  intro a; fin_cases a <;> assumption

/-! ## The kernel's statistics read at an index -/

section Kernel

open Cert.KernelIdeal Cert.KernelIdeal.Facts₀

variable [Cert.KernelIdeal.Facts]

theorem kX5_real {x : Cert.Attn.XA} (hx : AllReal x) : AllReal (kX5 x) := AllReal.cast hx

theorem kSum_real {x : Cert.Attn.XA} (hx : AllReal x) : AllReal (kSum x) := AllReal.reduce (kX5_real hx)

theorem kCount_ix0 : kCount ix0 = ((65536 : ℝ) : EReal) := by
  show Ideal.ofBits .f32 0x47800000#32 - (((0#32 : BitVec 32).toInt : ℝ) : EReal) = _
  rw [c65536]; simp

theorem kMean_apply (x : Cert.Attn.XA) (j : S4x32.Idx) :
    kMean x j = Ideal.div (kSum x j) ((65536 : ℝ) : EReal) := by
  unfold kMean
  rw [hostDivf_apply, broadcastInDim_scalar_apply, constant_apply, c65536]

/-- The mean as the variance function recomputes it, [4, 1, 1, 32, 1]. -/
def kMean5 (x : Cert.Attn.XA) : FVec Ideal S4x1x1x32x1 .f32 :=
  Host.divf (broadcastInDim S4x1x1x32x1 ![0, 3] bcast_S4x32_S4x1x1x32x1_0_3 (kSum x))
    (broadcastInDim S4x1x1x32x1 ![] bcast_S_S4x1x1x32x1 (constant (F := Ideal) S_ .f32 0x47800000#32))

theorem kMean5_real {x : Cert.Attn.XA} (hx : AllReal x) : AllReal (kMean5 x) :=
  AllReal.divc (AllReal.bcast (kSum_real hx)) 65536 (by norm_num)
    (fun j => by rw [broadcastInDim_scalar_apply, constant_apply, c65536])

theorem kSq_eq (x : Cert.Attn.XA) : kSq x
    = mulf (subf (kX5 x) (broadcastInDim S4x64x64x32x16 ![0, 1, 2, 3, 4] bcast_S4x1x1x32x1_S4x64x64x32x16_0_1_2_3_4 (kMean5 x)))
        (subf (kX5 x) (broadcastInDim S4x64x64x32x16 ![0, 1, 2, 3, 4] bcast_S4x1x1x32x1_S4x64x64x32x16_0_1_2_3_4 (kMean5 x))) := rfl

theorem kSq_nonneg {x : Cert.Attn.XA} (hx : AllReal x) (i : S4x64x64x32x16.Idx) :
    ∃ q : ℝ, 0 ≤ q ∧ kSq x i = (q : EReal) := by
  obtain ⟨a, ha⟩ := kX5_real hx i
  obtain ⟨m, hm⟩ := AllReal.bcast (t := S4x64x64x32x16) (dims := ![0, 1, 2, 3, 4])
    (h := bcast_S4x1x1x32x1_S4x64x64x32x16_0_1_2_3_4) (kMean5_real hx) i
  refine ⟨(a - m) * (a - m), mul_self_nonneg _, ?_⟩
  rw [kSq_eq, mulf_apply, subf_apply, ha, hm, ← EReal.coe_sub, ← EReal.coe_mul]

theorem kVar_apply (x : Cert.Attn.XA) (j : S4x32.Idx) :
    kVar x j = Ideal.div
      (Host.reduceAdd (kSq x) (constant (F := Ideal) S_ .f32 0x00000000#32) reducesTo_S4x64x64x32x16_S4x32_d1_2_4 h_S_ j)
      ((65536 : ℝ) : EReal) := by
  unfold kVar
  rw [select_apply, hostDivf_apply, broadcastInDim_scalar_apply _ (cmpf .ogt kCount _),
    broadcastInDim_scalar_apply _ kCount, cmpf_apply, constant_apply, kCount_ix0, cmp_gt, select_one]

theorem kVar_nonneg {x : Cert.Attn.XA} (hx : AllReal x) (j : S4x32.Idx) :
    ∃ v : ℝ, 0 ≤ v ∧ kVar x j = (v : EReal) := by
  obtain ⟨q, hq0, hq⟩ := reduce_nonneg (u := S_) (h := reducesTo_S4x64x64x32x16_S4x32_d1_2_4) (hu := h_S_) (kSq_nonneg hx) j
  exact ⟨q / 65536, div_nonneg hq0 (by norm_num), by rw [kVar_apply, hq, div_real q 65536 (by norm_num)]⟩

theorem kRstd_apply (x : Cert.Attn.XA) (j : S4x32.Idx) :
    kRstd x j = Ideal.rsqrt (kVar x j + Ideal.ofBits .f32 0x3727C5AC#32) := by
  unfold kRstd
  show Ideal.rsqrt (addf (kVar x) _ j) = _
  rw [addf_apply, broadcastInDim_scalar_apply, constant_apply]

theorem kRstd_real {x : Cert.Attn.XA} (hx : AllReal x) : AllReal (kRstd x) := fun j => by
  obtain ⟨v, hv0, hv⟩ := kVar_nonneg hx j
  have hpos : 0 < v + (10995116 : ℝ) / 2 ^ 40 := by positivity
  exact ⟨_, by rw [kRstd_apply, hv, cEps, ← EReal.coe_add, rsqrt_pos _ hpos]⟩

theorem kMean_real {x : Cert.Attn.XA} (hx : AllReal x) : AllReal (kMean x) := fun j => by
  obtain ⟨s, hs⟩ := kSum_real hx j
  exact ⟨s / 65536, by rw [kMean_apply, hs, div_real s 65536 (by norm_num)]⟩

/-- The scale read at (batch, channel): gamma of the channel times the reciprocal deviation of its group. -/
theorem a3T_apply (x : Cert.Attn.XA) (γ : Cert.Attn.VA) (b : Fin 4) (ch : Fin 512) :
    a3T x γ (ix3 b 0 ch) = γ (ix1 ch) * kRstd x (ix2 b (Cert.Attn.grp ch)) := by
  have e1 : a3T x γ (ix3 b 0 ch) = kScale x γ (ix2 b ch) := by
    unfold a3T
    refine shapeCast_apply _ _ _ _ ?_
    rw [Shape.rowMajor_val_two, Shape.rowMajor_val_three]
    show b.val * 512 + ch.val = (b.val * 1 + 0) * 512 + ch.val
    omega
  have e2 : kRstdC x (ix2 b ch) = kRstd x (ix2 b (Cert.Attn.grp ch)) := by
    unfold kRstdC
    rw [shapeCast_apply _ _ (ix2 b ch) (ix3 b (Cert.Attn.grp ch) (⟨ch.val % 16, by omega⟩ : Fin 16)) (by
      rw [Shape.rowMajor_val_three, Shape.rowMajor_val_two]
      show (b.val * 32 + ch.val / 16) * 16 + ch.val % 16 = b.val * 512 + ch.val
      omega)]
    exact broadcastInDim_apply _ _ _ _ (ix2 b (Cert.Attn.grp ch)) (forall_fin2 rfl rfl)
  have e3 : broadcastInDim S4x512 ![0, 1] bcast_S1x512_S4x512_0_1 (broadcastInDim S1x512 ![1] bcast_S512_S1x512_1 γ) (ix2 b ch)
      = γ (ix1 ch) := by
    rw [broadcastInDim_apply _ _ _ _ (ix2 (0 : Fin 1) ch) (forall_fin2 rfl rfl)]
    exact broadcastInDim_apply _ _ _ _ (ix1 ch) (forall_fin1 rfl)
  rw [e1]; unfold kScale; rw [mulf_apply, e2, e3]

/-- The shift read at (batch, channel). -/
theorem shift3T_apply (x : Cert.Attn.XA) (γ β : Cert.Attn.VA) (b : Fin 4) (ch : Fin 512) :
    shift3T x γ β (ix3 b 0 ch)
      = β (ix1 ch) - kMean x (ix2 b (Cert.Attn.grp ch)) * (γ (ix1 ch) * kRstd x (ix2 b (Cert.Attn.grp ch))) := by
  have e1 : shift3T x γ β (ix3 b 0 ch) = kShift x γ β (ix2 b ch) := by
    unfold shift3T
    refine shapeCast_apply _ _ _ _ ?_
    rw [Shape.rowMajor_val_two, Shape.rowMajor_val_three]
    show b.val * 512 + ch.val = (b.val * 1 + 0) * 512 + ch.val
    omega
  have e2 : kMeanC x (ix2 b ch) = kMean x (ix2 b (Cert.Attn.grp ch)) := by
    unfold kMeanC
    rw [shapeCast_apply _ _ (ix2 b ch) (ix3 b (Cert.Attn.grp ch) (⟨ch.val % 16, by omega⟩ : Fin 16)) (by
      rw [Shape.rowMajor_val_three, Shape.rowMajor_val_two]
      show (b.val * 32 + ch.val / 16) * 16 + ch.val % 16 = b.val * 512 + ch.val
      omega)]
    exact broadcastInDim_apply _ _ _ _ (ix2 b (Cert.Attn.grp ch)) (forall_fin2 rfl rfl)
  have e3 : broadcastInDim S4x512 ![0, 1] bcast_S1x512_S4x512_0_1 (broadcastInDim S1x512 ![1] bcast_S512_S1x512_1 β) (ix2 b ch)
      = β (ix1 ch) := by
    rw [broadcastInDim_apply _ _ _ _ (ix2 (0 : Fin 1) ch) (forall_fin2 rfl rfl)]
    exact broadcastInDim_apply _ _ _ _ (ix1 ch) (forall_fin1 rfl)
  have e4 : kScale x γ (ix2 b ch) = γ (ix1 ch) * kRstd x (ix2 b (Cert.Attn.grp ch)) := by
    have h := a3T_apply x γ b ch
    have e : a3T x γ (ix3 b 0 ch) = kScale x γ (ix2 b ch) := by
      unfold a3T
      refine shapeCast_apply _ _ _ _ ?_
      rw [Shape.rowMajor_val_two, Shape.rowMajor_val_three]
      show b.val * 512 + ch.val = (b.val * 1 + 0) * 512 + ch.val
      omega
    rw [← e, h]
  rw [e1]; unfold kShift; rw [subf_apply, mulf_apply, e2, e3, e4]

end Kernel

/-! ## The reference's statistics read at an index -/

section Reference

open Cert.ReferenceIdeal Cert.ReferenceIdeal.Facts₀

variable [Cert.ReferenceIdeal.Facts]

theorem rX5_apply (x : Cert.Attn.XA) (b : Fin 4) (h w : Fin 64) (ch : Fin 512) :
    rX5 x (ix5 b h w (Cert.Attn.grp ch) (⟨ch.val % 16, by omega⟩ : Fin 16)) = x (ix4 b h w ch) := by
  unfold rX5
  refine shapeCast_apply _ _ _ _ ?_
  rw [Shape.rowMajor_val_four, Shape.rowMajor_val_five]
  show ((b.val * 64 + h.val) * 64 + w.val) * 512 + ch.val
    = (((b.val * 64 + h.val) * 64 + w.val) * 32 + ch.val / 16) * 16 + ch.val % 16
  omega

theorem rCount_ix0 : rCount ix0 = ((65536 : ℝ) : EReal) := by
  show Ideal.ofBits .f32 0x47800000#32 - (((0#32 : BitVec 32).toInt : ℝ) : EReal) = _
  rw [c65536]; simp

theorem rMean_apply (x : Cert.Attn.XA) (b : Fin 4) (g : Fin 32) :
    rMean x (ix5 b 0 0 g 0) = Ideal.div (rSum x (ix2 b g)) ((65536 : ℝ) : EReal) := by
  unfold rMean
  rw [hostDivf_apply, broadcastInDim_scalar_apply, constant_apply, c65536,
    broadcastInDim_apply _ _ _ _ (ix2 b g) (forall_fin2 rfl rfl)]

theorem rVar_apply (x : Cert.Attn.XA) (b : Fin 4) (g : Fin 32) :
    rVar x (ix5 b 0 0 g 0) = Ideal.div
      (Host.reduceAdd (rSq x) (constant (F := Ideal) S_ .f32 0x00000000#32) reducesTo_S4x64x64x32x16_S4x32_d1_2_4 h_S_ (ix2 b g))
      ((65536 : ℝ) : EReal) := by
  unfold rVar
  rw [select_apply, hostDivf_apply, broadcastInDim_scalar_apply _ (cmpf .ogt rCount _),
    broadcastInDim_scalar_apply _ rCount, cmpf_apply, constant_apply, rCount_ix0, cmp_gt, select_one,
    broadcastInDim_apply _ _ _ _ (ix2 b g) (forall_fin2 rfl rfl)]

theorem rRstd_apply (x : Cert.Attn.XA) (j : S4x1x1x32x1.Idx) :
    rRstd x j = Ideal.rsqrt (rVar x j + Ideal.ofBits .f32 0x3727C5AC#32) := by
  unfold rRstd
  show Ideal.rsqrt (addf (rVar x) _ j) = _
  rw [addf_apply, broadcastInDim_scalar_apply, constant_apply]

/-- The reference's result read at a pixel and a channel. -/
theorem hT_apply (x : Cert.Attn.XA) (γ β : Cert.Attn.VA) (b : Fin 4) (h w : Fin 64) (ch : Fin 512) :
    hT x γ β (ix4 b h w ch)
      = ((x (ix4 b h w ch) - rMean x (ix5 b 0 0 (Cert.Attn.grp ch) 0)) * rRstd x (ix5 b 0 0 (Cert.Attn.grp ch) 0))
          * γ (ix1 ch) + β (ix1 ch) := by
  have eγ : ∀ v : Cert.Attn.VA, broadcastInDim S4x64x64x512 ![0, 1, 2, 3] bcast_S1x1x1x512_S4x64x64x512_0_1_2_3
      (broadcastInDim S1x1x1x512 ![3] bcast_S512_S1x1x1x512_3 v) (ix4 b h w ch) = v (ix1 ch) := by
    intro v
    rw [broadcastInDim_apply _ _ _ _ (ix4 (0 : Fin 1) (0 : Fin 1) (0 : Fin 1) ch) (forall_fin4 rfl rfl rfl rfl)]
    exact broadcastInDim_apply _ _ _ _ (ix1 ch) (forall_fin1 rfl)
  have e5 : ∀ v : FVec Ideal S4x1x1x32x1 .f32,
      broadcastInDim S4x64x64x32x16 ![0, 1, 2, 3, 4] bcast_S4x1x1x32x1_S4x64x64x32x16_0_1_2_3_4 v
        (ix5 b h w (Cert.Attn.grp ch) (⟨ch.val % 16, by omega⟩ : Fin 16)) = v (ix5 b 0 0 (Cert.Attn.grp ch) 0) := by
    intro v
    exact broadcastInDim_apply _ _ _ _ (ix5 b 0 0 (Cert.Attn.grp ch) 0) (forall_fin5 rfl rfl rfl rfl rfl)
  have eN : rNorm x (ix4 b h w ch)
      = (x (ix4 b h w ch) - rMean x (ix5 b 0 0 (Cert.Attn.grp ch) 0)) * rRstd x (ix5 b 0 0 (Cert.Attn.grp ch) 0) := by
    unfold rNorm
    rw [shapeCast_apply _ _ (ix4 b h w ch) (ix5 b h w (Cert.Attn.grp ch) (⟨ch.val % 16, by omega⟩ : Fin 16)) (by
      rw [Shape.rowMajor_val_five, Shape.rowMajor_val_four]
      show (((b.val * 64 + h.val) * 64 + w.val) * 32 + ch.val / 16) * 16 + ch.val % 16
        = ((b.val * 64 + h.val) * 64 + w.val) * 512 + ch.val
      omega)]
    rw [mulf_apply, subf_apply, rX5_apply, e5, e5]
  unfold hT
  rw [addf_apply, mulf_apply, eγ, eγ, eN]

end Reference

/-! ## The two forms of group normalisation agree -/

section Law

variable [Cert.KernelIdeal.Facts] [Cert.ReferenceIdeal.Facts]

theorem rSum_eq (x : Cert.Attn.XA) : rSum x = kSum x := rfl
theorem rSq_eq (x : Cert.Attn.XA) : rSq x = kSq x := rfl

theorem rMean_eq (x : Cert.Attn.XA) (b : Fin 4) (g : Fin 32) : rMean x (ix5 b 0 0 g 0) = kMean x (ix2 b g) := by
  rw [rMean_apply, kMean_apply, rSum_eq]

theorem rRstd_eq (x : Cert.Attn.XA) (b : Fin 4) (g : Fin 32) : rRstd x (ix5 b 0 0 g 0) = kRstd x (ix2 b g) := by
  rw [rRstd_apply, kRstd_apply, rVar_apply, kVar_apply, rSq_eq]

/-- The folded affine form of the kernel and the textbook form of the reference give the same normalised activations. -/
theorem gn_eq (x : Cert.Attn.XA) (γ β : Cert.Attn.VA)
    (hx : ∀ i, ∃ r : ℝ, x i = (r : EReal)) (hγ : ∀ i, ∃ r : ℝ, γ i = (r : EReal)) (hβ : ∀ i, ∃ r : ℝ, β i = (r : EReal))
    (b : Fin 4) (n : Fin 4096) (ch : Fin 512) :
    Cert.Attn.xf x b n ch * a3T x γ (ix3 b 0 ch) + shift3T x γ β (ix3 b 0 ch)
      = hT x γ β (ix4 b (Cert.Attn.tokH n) (Cert.Attn.tokW n) ch) := by
  rw [a3T_apply, shift3T_apply, hT_apply, rMean_eq, rRstd_eq]
  unfold Cert.Attn.xf
  obtain ⟨xr, hxr⟩ := hx (ix4 b (Cert.Attn.tokH n) (Cert.Attn.tokW n) ch)
  obtain ⟨gr, hgr⟩ := hγ (ix1 ch)
  obtain ⟨br, hbr⟩ := hβ (ix1 ch)
  obtain ⟨mr, hmr⟩ := kMean_real hx (ix2 b (Cert.Attn.grp ch))
  obtain ⟨rr, hrr⟩ := kRstd_real hx (ix2 b (Cert.Attn.grp ch))
  rw [hxr, hgr, hbr, hmr, hrr]
  simp only [← EReal.coe_mul, ← EReal.coe_sub, ← EReal.coe_add]
  exact congrArg _ (by ring)

/-- The reference's normalised activations are real numbers. -/
theorem hT_real (x : Cert.Attn.XA) (γ β : Cert.Attn.VA)
    (hx : ∀ i, ∃ r : ℝ, x i = (r : EReal)) (hγ : ∀ i, ∃ r : ℝ, γ i = (r : EReal)) (hβ : ∀ i, ∃ r : ℝ, β i = (r : EReal)) :
    ∀ i, ∃ r : ℝ, hT x γ β i = (r : EReal) := by
  intro i
  obtain ⟨b, h, w, ch, rfl⟩ : ∃ (b : Fin 4) (h w : Fin 64) (ch : Fin 512), i = ix4 b h w ch :=
    ⟨i 0, i 1, i 2, i 3, eq_ix4 i⟩
  rw [hT_apply, rMean_eq, rRstd_eq]
  obtain ⟨xr, hxr⟩ := hx (ix4 b h w ch)
  obtain ⟨gr, hgr⟩ := hγ (ix1 ch)
  obtain ⟨br, hbr⟩ := hβ (ix1 ch)
  obtain ⟨mr, hmr⟩ := kMean_real hx (ix2 b (Cert.Attn.grp ch))
  obtain ⟨rr, hrr⟩ := kRstd_real hx (ix2 b (Cert.Attn.grp ch))
  rw [hxr, hgr, hbr, hmr, hrr]
  exact ⟨((xr - mr) * rr) * gr + br, by simp only [EReal.coe_mul, EReal.coe_sub, EReal.coe_add]⟩

end Law

end Cert.GN

end
-- ==== Proof.LibRowSoftmax.lean ====
/-
  One attention row over the extended reals.

  A row of scores `s k` (each a real number or `⊥`, the score of a masked key), shifted by a value `m` that is an upper
  bound of the row and is attained in it, gives the weights `p k = exp (s k - m)`. When some score is a real number, `m` is
  a real number, every weight is a nonnegative real number, the weight of a key that attains `m` is `1`, and so the
  normaliser `l = ∑ k, p k` is a positive real number. Dividing the weighted sum `∑ k, p k * v k` of real values by `l`
  is then the same as summing the values against the normalised weights `p k / l`: both are the real number
  `(∑ k, P k * V k) / L`. (With no real score the normaliser is `0` and the two sides are different junk values: the
  hypothesis is needed.)
-/
import Idealize.ShloMosaic.PureOps.Ideal

noncomputable section

namespace Cert.RowSoftmax

open Idealize.ShloMosaic

/-- A finite sum of embedded real numbers is the embedded sum. -/
theorem coe_finset_sum {ι : Type} (t : Finset ι) (f : ι → ℝ) :
    (∑ k ∈ t, ((f k : ℝ) : EReal)) = ((∑ k ∈ t, f k : ℝ) : EReal) := by
  classical
  refine Finset.induction_on t (by simp) ?_
  intro a t ha ih
  rw [Finset.sum_insert ha, Finset.sum_insert ha, ih, EReal.coe_add]

/-- The weight of a score that is not `⊤`, shifted by a real number: a nonnegative real number, `1` when the score is
    the shift itself. -/
theorem weight_real (x : EReal) (hx : x ≠ ⊤) (M : ℝ) :
    ∃ r : ℝ, 0 ≤ r ∧ Ideal.exp (x - (M : EReal)) = (r : EReal) ∧ (x = (M : EReal) → r = 1) := by
  induction x using EReal.rec with
  | bot =>
    refine ⟨0, le_refl _, ?_, fun h => absurd h (EReal.bot_ne_coe M)⟩
    rw [EReal.bot_sub]; rfl
  | coe r =>
    refine ⟨Real.exp (r - M), (Real.exp_pos _).le, ?_, fun h => ?_⟩
    · rw [← EReal.coe_sub]; rfl
    · have : r = M := EReal.coe_eq_coe_iff.mp h
      rw [this, sub_self, Real.exp_zero]
  | top => exact absurd rfl hx

variable {n : ℕ}

/-- Normalising after the weighted sum, or before it: the same real number, when some score of the row is real. -/
theorem div_after_eq_div_before (s v : Fin n → EReal) (m : EReal)
    (hle : ∀ k, s k ≤ m) (hatt : ∃ k, s k = m) (hs : ∀ k, s k ≠ ⊤) (hreal : ∃ k, s k ≠ ⊥)
    (hv : ∀ k, ∃ r : ℝ, v k = (r : EReal)) :
    Ideal.div (∑ k, Ideal.exp (s k - m) * v k) (∑ k, Ideal.exp (s k - m))
      = ∑ k, Ideal.div (Ideal.exp (s k - m)) (∑ j, Ideal.exp (s j - m)) * v k := by
  obtain ⟨ka, hka⟩ := hatt
  obtain ⟨k0, hk0⟩ := hreal
  have hmtop : m ≠ ⊤ := hka ▸ hs ka
  have hmbot : m ≠ ⊥ := fun h => hk0 (le_bot_iff.mp (h ▸ hle k0))
  lift m to ℝ using ⟨hmtop, hmbot⟩
  choose V hV using hv
  choose P hP0 hPe hP1 using fun k => weight_real (s k) (hs k) m
  have hL : (0 : ℝ) < ∑ k, P k := by
    have h1 : P ka = 1 := hP1 ka hka
    have : P ka ≤ ∑ k, P k := Finset.single_le_sum (fun k _ => hP0 k) (Finset.mem_univ ka)
    linarith
  have hL0 : (∑ k, P k) ≠ 0 := ne_of_gt hL
  simp only [hPe, hV]
  rw [coe_finset_sum]
  simp only [Ideal.div_coe hL0, ← EReal.coe_mul]
  rw [coe_finset_sum, coe_finset_sum, ← EReal.coe_mul, EReal.coe_eq_coe_iff, Finset.sum_mul]
  exact Finset.sum_congr rfl fun k _ => by ring

end Cert.RowSoftmax

end
-- ==== Proof.AttnLaw.lean ====
/-
  The attention law on the extended reals.

  With real activations, weights and biases, the query and key rows are real (a finite sum of products of reals plus a
  real), so every scaled score is real.  A row of 4096 real scores, folded with max from -inf, has a maximum that is
  attained in the row and bounds it; taking the maximum once more against -inf changes nothing.  The shifted
  exponentials are then nonnegative reals, one of them equal to 1, so the row sum is a positive real L.  Multiplying a
  weight by the reciprocal 1 / L is the same extended real as dividing the weight by L.  Everything after the
  normalisation is the same expression in both programs.
-/
import proofs.«147553_j25795573579973_2_alg».proof.Proof.Spec
import proofs.«147553_j25795573579973_2_alg».proof.Proof.LibRowSoftmax

noncomputable section

open scoped BigOperators

namespace Cert.Attn

open Idealize.ShloMosaic Idealize.ShloMosaic.ValueIdx

/-! ### The three literals -/

/-- The additive identity of the row maximum is -inf. -/
theorem cNegInf_eq : cNegInf = ⊥ := by
  simp [cNegInf, Ideal.ofBits, Ideal.ieee]

/-- The literal one is 1. -/
theorem cOne_eq : cOne = 1 := by
  simp [cOne, Ideal.ofBits, Ideal.ieee, -EReal.coe_mul]; norm_num

/-- The scale is a real number (a finite word: its exponent field is neither all ones nor zero). -/
theorem cScale_real : ∃ r : ℝ, cScale = (r : EReal) := by
  simp [cScale, Ideal.ofBits, Ideal.ieee, -EReal.coe_mul]

/-! ### Real entries -/

/-- A dense layer of real activations, real weights and a real bias has real entries. -/
theorem proj_real (h : TA) (w : MA) (bias : VA)
    (hh : ∀ b n c, ∃ r : ℝ, h b n c = (r : EReal)) (hw : ∀ i, ∃ r : ℝ, w i = (r : EReal))
    (hb : ∀ i, ∃ r : ℝ, bias i = (r : EReal)) :
    ∀ b n d, ∃ r : ℝ, proj h w bias b n d = (r : EReal) := by
  choose H hH using hh
  choose W hW using hw
  choose B hB using hb
  intro b n d
  refine ⟨(∑ c : Fin 512, H b n c * W (ix2 c d)) + B (ix1 d), ?_⟩
  simp only [proj, hH, hW, hB, ← EReal.coe_mul]
  rw [Cert.RowSoftmax.coe_finset_sum, ← EReal.coe_add]

/-- The scaled scores of real queries against real keys are real. -/
theorem scores_real (q k : TA)
    (hq : ∀ b n c, ∃ r : ℝ, q b n c = (r : EReal)) (hk : ∀ b n c, ∃ r : ℝ, k b n c = (r : EReal)) :
    ∀ b i j, ∃ r : ℝ, scores q k b i j = (r : EReal) := by
  choose Q hQ using hq
  choose K hK using hk
  obtain ⟨c0, hc0⟩ := cScale_real
  intro b i j
  refine ⟨(∑ c : Fin 512, Q b i c * K b j c) * c0, ?_⟩
  simp only [scores, hQ, hK, hc0, ← EReal.coe_mul]
  rw [Cert.RowSoftmax.coe_finset_sum, ← EReal.coe_mul]

/-! ### One row -/

/-- The folded row maximum is at least -inf, so the second maximum against -inf is the identity. -/
theorem max_cNegInf_rowMax (s : Fin 4 → Fin 4096 → Fin 4096 → EReal) (b : Fin 4) (i : Fin 4096) :
    max cNegInf (rowMax s b i) = rowMax s b i :=
  max_eq_right ((Finset.le_fold_max cNegInf).mpr (Or.inl le_rfl))

/-- The folded row maximum bounds its row. -/
theorem le_rowMax (s : Fin 4 → Fin 4096 → Fin 4096 → EReal) (b : Fin 4) (i j : Fin 4096) :
    s b i j ≤ rowMax s b i :=
  (Finset.le_fold_max (s b i j)).mpr (Or.inr ⟨j, Finset.mem_univ j, le_rfl⟩)

/-- The folded maximum of a row of reals is attained in the row. -/
theorem rowMax_attained (s : Fin 4 → Fin 4096 → Fin 4096 → EReal)
    (hs : ∀ b i j, ∃ r : ℝ, s b i j = (r : EReal)) (b : Fin 4) (i : Fin 4096) :
    ∃ j, s b i j = rowMax s b i := by
  have h := (Finset.le_fold_max (s := (Finset.univ : Finset (Fin 4096))) (f := fun j => s b i j)
    (b := cNegInf) (rowMax s b i)).mp le_rfl
  rcases h with h | ⟨j, _, hj⟩
  · exfalso
    obtain ⟨r, hr⟩ := hs b i 0
    have h0 : s b i 0 ≤ rowMax s b i := le_rowMax s b i 0
    rw [cNegInf_eq] at h
    have : s b i 0 ≤ ⊥ := le_trans h0 h
    rw [hr] at this
    exact EReal.bot_lt_coe r |>.not_ge this
  · exact ⟨j, le_antisymm (le_rowMax s b i j) hj⟩

/-- The sum of the shifted exponentials of a row of reals is a nonzero real. -/
theorem rowSum_real (s : Fin 4 → Fin 4096 → Fin 4096 → EReal)
    (hs : ∀ b i j, ∃ r : ℝ, s b i j = (r : EReal)) (b : Fin 4) (i : Fin 4096) :
    ∃ L : ℝ, L ≠ 0 ∧ rowSum (pexp s (rowMax s)) b i = (L : EReal) := by
  obtain ⟨ja, hja⟩ := rowMax_attained s hs b i
  obtain ⟨ra, hra⟩ := hs b i ja
  have hm : rowMax s b i = (ra : EReal) := by rw [← hja, hra]
  have hne : ∀ j, s b i j ≠ ⊤ := fun j => by
    obtain ⟨r, hr⟩ := hs b i j; rw [hr]; exact EReal.coe_ne_top r
  choose P hP0 hPe hP1 using fun j => Cert.RowSoftmax.weight_real (s b i j) (hne j) ra
  have h1 : P ja = 1 := hP1 ja (by rw [hja, hm])
  have hle : P ja ≤ ∑ j, P j := Finset.single_le_sum (fun j _ => hP0 j) (Finset.mem_univ ja)
  refine ⟨∑ j, P j, by linarith, ?_⟩
  simp only [rowSum, pexp, hm, hPe]
  rw [Cert.RowSoftmax.coe_finset_sum]

/-- Multiplying by the reciprocal of a nonzero real row sum is dividing by it. -/
theorem attnK_eq_attnR (p : Fin 4 → Fin 4096 → Fin 4096 → EReal) (l : Fin 4 → Fin 4096 → EReal)
    (hl : ∀ b i, ∃ L : ℝ, L ≠ 0 ∧ l b i = (L : EReal)) : attnK p l = attnR p l := by
  funext b i j
  obtain ⟨L, hL0, hL⟩ := hl b i
  simp only [attnK, attnR]
  rw [hL, Ideal.div_coe hL0, Ideal.div_coe hL0, cOne_eq, one_mul]

/-! ### The law -/

/-- With real activations, weights and biases the two programs' results are the same function. -/
theorem outK_eq_outR (h : TA) (wq : MA) (bq : VA) (wk : MA) (bk : VA) (wv : MA) (bv : VA) (wp : MA) (bp : VA)
    (x : XA)
    (hh : ∀ b n c, ∃ r : ℝ, h b n c = (r : EReal))
    (hwq : ∀ i, ∃ r : ℝ, wq i = (r : EReal)) (hbq : ∀ i, ∃ r : ℝ, bq i = (r : EReal))
    (hwk : ∀ i, ∃ r : ℝ, wk i = (r : EReal)) (hbk : ∀ i, ∃ r : ℝ, bk i = (r : EReal))
    (hwv : ∀ i, ∃ r : ℝ, wv i = (r : EReal)) (hbv : ∀ i, ∃ r : ℝ, bv i = (r : EReal))
    (hwp : ∀ i, ∃ r : ℝ, wp i = (r : EReal)) (hbp : ∀ i, ∃ r : ℝ, bp i = (r : EReal))
    (hx : ∀ i, ∃ r : ℝ, x i = (r : EReal)) :
    outK h wq bq wk bk wv bv wp bp x = outR h wq bq wk bk wv bv wp bp x := by
  have hs : ∀ b i j, ∃ r : ℝ, scores (proj h wq bq) (proj h wk bk) b i j = (r : EReal) :=
    scores_real _ _ (proj_real h wq bq hh hwq hbq) (proj_real h wk bk hh hwk hbk)
  have hm : (fun b i => max cNegInf (rowMax (scores (proj h wq bq) (proj h wk bk)) b i))
      = rowMax (scores (proj h wq bq) (proj h wk bk)) := by
    funext b i; exact max_cNegInf_rowMax _ b i
  show outOf x (attnK (pexp (scores (proj h wq bq) (proj h wk bk)) (rowMax (scores (proj h wq bq) (proj h wk bk))))
        (rowSum (pexp (scores (proj h wq bq) (proj h wk bk)) (rowMax (scores (proj h wq bq) (proj h wk bk))))))
        (proj h wv bv) wp bp
      = outOf x (attnR (pexp (scores (proj h wq bq) (proj h wk bk))
          (fun b i => max cNegInf (rowMax (scores (proj h wq bq) (proj h wk bk)) b i)))
        (rowSum (pexp (scores (proj h wq bq) (proj h wk bk))
          (fun b i => max cNegInf (rowMax (scores (proj h wq bq) (proj h wk bk)) b i)))))
        (proj h wv bv) wp bp
  rw [hm, attnK_eq_attnR _ _ (rowSum_real _ hs)]

end Cert.Attn

end
-- ==== Proof.Finite.lean ====
/-
  From the precondition to real entries.

  The precondition says, of each of the eleven argument arrays, that every entry x has |x| < +inf, the eleven facts
  joined by "and" into one bit that is 1. On the extended reals |x| is max x (-x), and +inf is the top element;
  max x (-x) < top rules out x = top and x = bottom, so x is (the embedding of) a real number.
-/
import proofs.«147553_j25795573579973_2_alg».proof.Defs
import Idealize.ShloMosaic.Lib.ReduceAll
import Idealize.ShloMosaic.Lib.ValueIdx

noncomputable section

namespace Cert.GN

open Idealize.ShloMosaic

/-- An extended real whose absolute value is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "|x| < +inf" came out 1: x is a real number. -/
theorem real_of_cmp (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  by_cases hl : max x (-x) < ⊤
  · exact real_of_abs_lt_top x hl
  · exfalso
    unfold Ideal.cmp at h
    simp [hl] at h

/-- "All entries have |x| < +inf" came out 1 for an array of any shape: every entry is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) := by
  haveI : Subsingleton Cert.Pre_finite_inputs.S_.Idx := ⟨fun a b => funext fun d => d.elim0⟩
  have h1 := Host.reduce_andi_all _ _ hr hu ValueIdx.ix0 e i
  exact real_of_cmp (x i) h1

/-- Under the precondition every entry of each of the eleven argument arrays is a real number. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal)) := by
  have h10 := congrFun (h c) ValueIdx.ix0
  dsimp only [Cert.Pre_finite_inputs.fn, Cert.Pre_finite_inputs.fn_part1, Cert.Pre_finite_inputs.fn_part2,
    Cert.Pre_finite_inputs.fn_part3] at h10
  obtain ⟨h9, e10⟩ := IntOp.andi_eq_one.1 h10
  obtain ⟨h8, e9⟩ := IntOp.andi_eq_one.1 h9
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨real_of_all _ _ _ _ e0, real_of_all _ _ _ _ e1, real_of_all _ _ _ _ e2, real_of_all _ _ _ _ e3,
    real_of_all _ _ _ _ e4, real_of_all _ _ _ _ e5, real_of_all _ _ _ _ e6, real_of_all _ _ _ _ e7,
    real_of_all _ _ _ _ e8, real_of_all _ _ _ _ e9, real_of_all _ _ _ _ e10⟩

end Cert.GN

end
-- ==== Proof.lean ====
/-
  The certificate: an attention block (group normalisation, the q / k / v dense layers, softmax attention over the 4096
  tokens of each image, the output projection and the residual) computed by two Pallas kernels around plain host glue,
  against the textbook jnp form.

  The three frames: each program's run, segment by segment (host stretches and, for the kernel's program, its two kernel
  regions run at every grid point), terminates without a fault and leaves the argument arrays as launched.
  The idealisation rewrote nothing, so 'preserves' is trivially true.
  The algebraic claim: at the ideal instance the kernel's result is the specification's outK of the folded affine
  activations, the reference's is outR of the textbook activations; under finite inputs every statistic is a real number,
  so the folded affine  x * (gamma * r) + (beta - mean * (gamma * r))  equals  ((x - mean) * r) * gamma + beta  (ring
  identities on the reals), the activations are real, every softmax row has a positive real sum, and multiplying by the
  reciprocal of the row sum is dividing by it.
-/
import proofs.«147553_j25795573579973_2_alg».proof.Defs
import proofs.«147553_j25795573579973_2_alg».proof.Proof.KRunK
import proofs.«147553_j25795573579973_2_alg».proof.Proof.KRunI
import proofs.«147553_j25795573579973_2_alg».proof.Proof.KValue
import proofs.«147553_j25795573579973_2_alg».proof.Proof.RefVal
import proofs.«147553_j25795573579973_2_alg».proof.Proof.GNLaw
import proofs.«147553_j25795573579973_2_alg».proof.Proof.AttnLaw
import proofs.«147553_j25795573579973_2_alg».proof.Proof.Finite
import proofs.«147553_j25795573579973_2_alg».proof.Proof.Gen.Kernel
import proofs.«147553_j25795573579973_2_alg».proof.Proof.Gen.KernelIdeal
import proofs.«147553_j25795573579973_2_alg».proof.Proof.Gen.ReferenceIdeal
import proofs.«147553_j25795573579973_2_alg».proof.Proof.Gen.Pre_finite_inputs
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Hand.run m ρ)

/-- Both programs end at the same array: the kernel's at outK of its folded activations, the reference's at outR of its
    textbook activations, of arguments that agree and are finite. -/
theorem algebraic : Cert.algebraic_KernelIdeal_ReferenceIdeal := by
  intro m ρ m' ρ' hpre hagree
  refine ⟨fun c => Cert.Attn.img (Cert.Attn.outK (Cert.KernelIdeal.Hand.hKfun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0))),
    Cert.KernelIdeal.Hand.value_run m ρ, ?_⟩
  refine (θ_run Cert.ReferenceIdeal.defs _ _).mono (fun r h c => ⟨(h c).1.trans ?_, (h c).2⟩)
    (Cert.ReferenceIdeal.Hand.run m' ρ')
  obtain ⟨e0, e1, e2, e3, e4, e5, e6, e7, e8, e9, e10⟩ := hagree c
  rw [e0, e1, e2, e3, e4, e5, e6, e7, e8, e9, e10]
  obtain ⟨r0, r1, r2, r3, r4, r5, r6, r7, r8, r9, r10⟩ := Cert.GN.real_of_pre m hpre c
  have hh : (fun b n ch => Cert.GN.hT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix4 b (Cert.Attn.tokH n) (Cert.Attn.tokW n) ch))
      = Cert.KernelIdeal.Hand.hKfun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
    funext fun b => funext fun n => funext fun ch => (Cert.GN.gn_eq _ _ _ r0 r1 r2 b n ch).symm
  rw [hh]
  refine congrArg Cert.Attn.img (Cert.Attn.outK_eq_outR _ _ _ _ _ _ _ _ _ _ (fun b n ch => ?_) r3 r4 r5 r6 r7 r8 r9 r10 r0).symm
  rw [← hh]
  exact Cert.GN.hT_real _ _ _ r0 r1 r2 _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
